-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S2x320000 : Shape := ⟨2, ![2, 320000]⟩
abbrev S10000x64 : Shape := ⟨2, ![10000, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S64x16 .f32) (main_arg7 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S10000x10000 .f32) (main_arg1 : IVec S2x320000 32) (main_arg2 : FVec F S10000x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x64 .f32 := Host.absf main_arg2
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S10000x10000 : Shape := ⟨2, ![10000, 10000]⟩
abbrev S2x320000 : Shape := ⟨2, ![2, 320000]⟩
abbrev S10000x64 : Shape := ⟨2, ![10000, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S200x10000 : Shape := ⟨2, ![200, 10000]⟩
abbrev S200x64 : Shape := ⟨2, ![200, 64]⟩
abbrev S330000x64 : Shape := ⟨2, ![330000, 64]⟩
abbrev S1x64 : Shape := ⟨2, ![1, 64]⟩
abbrev S10000x16 : Shape := ⟨2, ![10000, 16]⟩
abbrev S330000x16 : Shape := ⟨2, ![330000, 16]⟩
abbrev S1x16 : Shape := ⟨2, ![1, 16]⟩
abbrev S10000x1 : Shape := ⟨2, ![10000, 1]⟩

abbrev nBuf : Space → Nat
  | .hbm => 128
  | .vmem => 5
  | .smem => 0
  | _ => 0

abbrev bufTy : (tb : Table) → Fin (tcTables nBuf tb) → BufTy
  | .hbm, ⟨0, _⟩ => ⟨S10000x10000, .f32⟩
  | .hbm, ⟨1, _⟩ => ⟨S2x320000, .i32⟩
  | .hbm, ⟨2, _⟩ => ⟨S10000x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S10000, .i32⟩
  | .hbm, ⟨9, _⟩ => ⟨S1x320000, .i32⟩
  | .hbm, ⟨10, _⟩ => ⟨S320000, .i32⟩
  | .hbm, ⟨11, _⟩ => ⟨S330000, .i32⟩
  | .hbm, ⟨12, _⟩ => ⟨S1x320000, .i32⟩
  | .hbm, ⟨13, _⟩ => ⟨S320000, .i32⟩
  | .hbm, ⟨14, _⟩ => ⟨S330000, .i32⟩
  | .hbm, ⟨15, _⟩ => ⟨S_, .f32⟩
  | .hbm, ⟨16, _⟩ => ⟨S330000, .f32⟩
  | .hbm, ⟨17, _⟩ => ⟨S_, .f32⟩
  | .hbm, ⟨18, _⟩ => ⟨S10000, .f32⟩
  | .hbm, ⟨19, _⟩ => ⟨S330000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S10000, .f32⟩
  | .hbm, ⟨25, _⟩ => ⟨S_, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S_, .i32⟩
  | .hbm, ⟨30, _⟩ => ⟨S330000, .i32⟩
  | .hbm, ⟨31, _⟩ => ⟨S330000, .i1⟩
  | .hbm, ⟨32, _⟩ => ⟨S_, .i32⟩
  | .hbm, ⟨33, _⟩ => ⟨S330000, .i32⟩
  | .hbm, ⟨34, _⟩ => ⟨S330000, .i32⟩
  | .hbm, ⟨35, _⟩ => ⟨S330000, .i32⟩
  | .hbm, ⟨36, _⟩ => ⟨S330000x1, .i32⟩
  | .hbm, ⟨37, _⟩ => ⟨S330000, .f32⟩
  | .hbm, ⟨38, _⟩ => ⟨S_, .i32⟩
  | .hbm, ⟨39, _⟩ => ⟨S330000, .i32⟩
  | .hbm, ⟨40, _⟩ => ⟨S330000, .i1⟩
  | .hbm, ⟨41, _⟩ => ⟨S_, .i32⟩
  | .hbm, ⟨42, _⟩ => ⟨S330000, .i32⟩
  | .hbm, ⟨43, _⟩ => ⟨S330000, .i32⟩
  | .hbm, ⟨44, _⟩ => ⟨S330000, .i32⟩
  | .hbm, ⟨45, _⟩ => ⟨S330000x1, .i32⟩
  | .hbm, ⟨46, _⟩ => ⟨S330000, .f32⟩
  | .hbm, ⟨47, _⟩ => ⟨S330000, .f32⟩
  | .hbm, ⟨48, _⟩ => ⟨S10000x64, .f32⟩
  | .hbm, ⟨49, _⟩ => ⟨S_, .i32⟩
  | .hbm, ⟨50, _⟩ => ⟨S330000, .i32⟩
  | .hbm, ⟨51, _⟩ => ⟨S330000, .i1⟩
  | .hbm, ⟨52, _⟩ => ⟨S_, .i32⟩
  | .hbm, ⟨53, _⟩ => ⟨S330000, .i32⟩
  | .hbm, ⟨54, _⟩ => ⟨S330000, .i32⟩
  | .hbm, ⟨55, _⟩ => ⟨S330000, .i32⟩
  | .hbm, ⟨56, _⟩ => ⟨S330000x1, .i32⟩
  | .hbm, ⟨57, _⟩ => ⟨S330000x64, .f32⟩
  | .hbm, ⟨58, _⟩ => ⟨S330000x1, .f32⟩
  | .hbm, ⟨59, _⟩ => ⟨S330000x64, .f32⟩
  | .hbm, ⟨60, _⟩ => ⟨S330000x64, .f32⟩
  | .hbm, ⟨61, _⟩ => ⟨S_, .f32⟩
  | .hbm, ⟨62, _⟩ => ⟨S10000x64, .f32⟩
  | .hbm, ⟨63, _⟩ => ⟨S330000x1, .i32⟩
  | .hbm, ⟨64, _⟩ => ⟨S10000x64, .f32⟩
  | .hbm, ⟨65, _⟩ => ⟨S1x64, .f32⟩
  | .hbm, ⟨66, _⟩ => ⟨S10000x64, .f32⟩
  | .hbm, ⟨67, _⟩ => ⟨S10000x64, .f32⟩
  | .hbm, ⟨68, _⟩ => ⟨S_, .f32⟩
  | .hbm, ⟨69, _⟩ => ⟨S10000x64, .f32⟩
  | .hbm, ⟨70, _⟩ => ⟨S10000x64, .f32⟩
  | .hbm, ⟨71, _⟩ => ⟨S10000x64, .f32⟩
  | .hbm, ⟨72, _⟩ => ⟨S_, .i32⟩
  | .hbm, ⟨73, _⟩ => ⟨S330000, .i32⟩
  | .hbm, ⟨74, _⟩ => ⟨S330000, .i1⟩
  | .hbm, ⟨75, _⟩ => ⟨S_, .i32⟩
  | .hbm, ⟨76, _⟩ => ⟨S330000, .i32⟩
  | .hbm, ⟨77, _⟩ => ⟨S330000, .i32⟩
  | .hbm, ⟨78, _⟩ => ⟨S330000, .i32⟩
  | .hbm, ⟨79, _⟩ => ⟨S330000x1, .i32⟩
  | .hbm, ⟨80, _⟩ => ⟨S330000x64, .f32⟩
  | .hbm, ⟨81, _⟩ => ⟨S330000x1, .f32⟩
  | .hbm, ⟨82, _⟩ => ⟨S330000x64, .f32⟩
  | .hbm, ⟨83, _⟩ => ⟨S330000x64, .f32⟩
  | .hbm, ⟨84, _⟩ => ⟨S_, .f32⟩
  | .hbm, ⟨85, _⟩ => ⟨S10000x64, .f32⟩
  | .hbm, ⟨86, _⟩ => ⟨S330000x1, .i32⟩
  | .hbm, ⟨87, _⟩ => ⟨S10000x64, .f32⟩
  | .hbm, ⟨88, _⟩ => ⟨S1x64, .f32⟩
  | .hbm, ⟨89, _⟩ => ⟨S10000x64, .f32⟩
  | .hbm, ⟨90, _⟩ => ⟨S10000x64, .f32⟩
  | .hbm, ⟨91, _⟩ => ⟨S_, .f32⟩
  | .hbm, ⟨92, _⟩ => ⟨S10000x64, .f32⟩
  | .hbm, ⟨93, _⟩ => ⟨S10000x64, .f32⟩
  | .hbm, ⟨94, _⟩ => ⟨S10000x16, .f32⟩
  | .hbm, ⟨95, _⟩ => ⟨S_, .i32⟩
  | .hbm, ⟨96, _⟩ => ⟨S330000, .i32⟩
  | .hbm, ⟨97, _⟩ => ⟨S330000, .i1⟩
  | .hbm, ⟨98, _⟩ => ⟨S_, .i32⟩
  | .hbm, ⟨99, _⟩ => ⟨S330000, .i32⟩
  | .hbm, ⟨100, _⟩ => ⟨S330000, .i32⟩
  | .hbm, ⟨101, _⟩ => ⟨S330000, .i32⟩
  | .hbm, ⟨102, _⟩ => ⟨S330000x1, .i32⟩
  | .hbm, ⟨103, _⟩ => ⟨S330000x16, .f32⟩
  | .hbm, ⟨104, _⟩ => ⟨S330000x1, .f32⟩
  | .hbm, ⟨105, _⟩ => ⟨S330000x16, .f32⟩
  | .hbm, ⟨106, _⟩ => ⟨S330000x16, .f32⟩
  | .hbm, ⟨107, _⟩ => ⟨S_, .f32⟩
  | .hbm, ⟨108, _⟩ => ⟨S10000x16, .f32⟩
  | .hbm, ⟨109, _⟩ => ⟨S330000x1, .i32⟩
  | .hbm, ⟨110, _⟩ => ⟨S10000x16, .f32⟩
  | .hbm, ⟨111, _⟩ => ⟨S1x16, .f32⟩
  | .hbm, ⟨112, _⟩ => ⟨S10000x16, .f32⟩
  | .hbm, ⟨113, _⟩ => ⟨S10000x16, .f32⟩
  | .hbm, ⟨114, _⟩ => ⟨S_, .f32⟩
  | .hbm, ⟨115, _⟩ => ⟨S10000, .f32⟩
  | .hbm, ⟨116, _⟩ => ⟨S_, .f32⟩
  | .hbm, ⟨117, _⟩ => ⟨S10000, .f32⟩
  | .hbm, ⟨118, _⟩ => ⟨S10000, .f32⟩
  | .hbm, ⟨119, _⟩ => ⟨S10000x1, .f32⟩
  | .hbm, ⟨120, _⟩ => ⟨S10000x16, .f32⟩
  | .hbm, ⟨121, _⟩ => ⟨S10000x16, .f32⟩
  | .hbm, ⟨122, _⟩ => ⟨S10000x16, .f32⟩
  | .hbm, ⟨123, _⟩ => ⟨S_, .f32⟩
  | .hbm, ⟨124, _⟩ => ⟨S10000, .f32⟩
  | .hbm, ⟨125, _⟩ => ⟨S10000x1, .f32⟩
  | .hbm, ⟨126, _⟩ => ⟨S10000x16, .f32⟩
  | .hbm, ⟨127, _⟩ => ⟨S10000x16, .f32⟩
  | .local _ .vmem, ⟨0, _⟩ => ⟨S200x10000, .f32⟩
  | .local _ .vmem, ⟨1, _⟩ => ⟨S200x10000, .f32⟩
  | .local _ .vmem, ⟨2, _⟩ => ⟨S10000x64, .f32⟩
  | .local _ .vmem, ⟨3, _⟩ => ⟨S200x64, .f32⟩
  | .local _ .vmem, ⟨4, _⟩ => ⟨S200x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_15 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_17 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  inb_S200x64_S200x64_0_0 : ∀ a, (![0, 0] : Fin 2 → Nat) a + S200x64.size a ≤ S200x64.size a
  h_S200x64 : 0 < S200x64.numel
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S200x10000_S10000x64_S200x64_1_0_0_1_n_n_wf : DotDims.WF S200x10000 S10000x64 S200x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S10000x64.size a
  hwx0_1 : ∀ i : grid0.Coords, EltTy.bits .f32 = 32 ∨ (Rect.block (s := S10000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S10000x64.size a
  hwx0_2 : ∀ i : grid0.Coords, EltTy.bits .f32 = 32 ∨ (Rect.block (s := S10000x64) S200x64.size (cc0_transform_2 i) (hinb0_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S200x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S2x320000 : Shape := ⟨2, ![2, 320000]⟩
abbrev S10000x64 : Shape := ⟨2, ![10000, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x64 : Shape := ⟨2, ![330000, 64]⟩
abbrev S1x64 : Shape := ⟨2, ![1, 64]⟩
abbrev S10000x16 : Shape := ⟨2, ![10000, 16]⟩
abbrev S330000x16 : Shape := ⟨2, ![330000, 16]⟩
abbrev S1x16 : Shape := ⟨2, ![1, 16]⟩
abbrev S10000x1 : Shape := ⟨2, ![10000, 1]⟩

abbrev nBuf : Space → Nat
  | .hbm => 208
  | .vmem => 0
  | .smem => 0
  | _ => 0

abbrev hbmTy0_0 (i : Nat) : BufTy := match i % 128 with
  | 0 => ⟨S10000x10000, .f32⟩
  | 1 => ⟨S2x320000, .i32⟩
  | 2 => ⟨S10000x64, .f32⟩
  | 3 => ⟨S64, .f32⟩
  | 4 => ⟨S64x64, .f32⟩
  | 5 => ⟨S64, .f32⟩
  | 6 => ⟨S64x16, .f32⟩
  | 7 => ⟨S16, .f32⟩
  | 8 => ⟨S10000x64, .f32⟩
  | 9 => ⟨S10000, .i32⟩
  | 10 => ⟨S1x320000, .i32⟩
  | 11 => ⟨S320000, .i32⟩
  | 12 => ⟨S330000, .i32⟩
  | 13 => ⟨S1x320000, .i32⟩
  | 14 => ⟨S320000, .i32⟩
  | 15 => ⟨S330000, .i32⟩
  | 16 => ⟨S_, .f32⟩
  | 17 => ⟨S330000, .f32⟩
  | 18 => ⟨S_, .f32⟩
  | 19 => ⟨S10000, .f32⟩
  | 20 => ⟨S330000x1, .i32⟩
  | 21 => ⟨S10000, .f32⟩
  | 22 => ⟨S_, .f32⟩
  | 23 => ⟨S10000, .f32⟩
  | 24 => ⟨S10000, .i1⟩
  | 25 => ⟨S10000, .f32⟩
  | 26 => ⟨S_, .f32⟩
  | 27 => ⟨S_, .f32⟩
  | 28 => ⟨S10000, .f32⟩
  | 29 => ⟨S10000, .f32⟩
  | 30 => ⟨S_, .i32⟩
  | 31 => ⟨S330000, .i32⟩
  | 32 => ⟨S330000, .i1⟩
  | 33 => ⟨S_, .i32⟩
  | 34 => ⟨S330000, .i32⟩
  | 35 => ⟨S330000, .i32⟩
  | 36 => ⟨S330000, .i32⟩
  | 37 => ⟨S330000x1, .i32⟩
  | 38 => ⟨S330000, .f32⟩
  | 39 => ⟨S_, .i32⟩
  | 40 => ⟨S330000, .i32⟩
  | 41 => ⟨S330000, .i1⟩
  | 42 => ⟨S_, .i32⟩
  | 43 => ⟨S330000, .i32⟩
  | 44 => ⟨S330000, .i32⟩
  | 45 => ⟨S330000, .i32⟩
  | 46 => ⟨S330000x1, .i32⟩
  | 47 => ⟨S330000, .f32⟩
  | 48 => ⟨S330000, .f32⟩
  | 49 => ⟨S_, .i32⟩
  | 50 => ⟨S330000, .i32⟩
  | 51 => ⟨S330000, .i1⟩
  | 52 => ⟨S_, .i32⟩
  | 53 => ⟨S330000, .i32⟩
  | 54 => ⟨S330000, .i32⟩
  | 55 => ⟨S330000, .i32⟩
  | 56 => ⟨S330000x1, .i32⟩
  | 57 => ⟨S330000x64, .f32⟩
  | 58 => ⟨S330000x1, .f32⟩
  | 59 => ⟨S330000x64, .f32⟩
  | 60 => ⟨S330000x64, .f32⟩
  | 61 => ⟨S_, .f32⟩
  | 62 => ⟨S10000x64, .f32⟩
  | 63 => ⟨S330000x1, .i32⟩
  | 64 => ⟨S10000x64, .f32⟩
  | 65 => ⟨S1x64, .f32⟩
  | 66 => ⟨S10000x64, .f32⟩
  | 67 => ⟨S10000x64, .f32⟩
  | 68 => ⟨S_, .f32⟩
  | 69 => ⟨S10000x64, .f32⟩
  | 70 => ⟨S10000x64, .f32⟩
  | 71 => ⟨S10000x64, .f32⟩
  | 72 => ⟨S10000, .i32⟩
  | 73 => ⟨S1x320000, .i32⟩
  | 74 => ⟨S320000, .i32⟩
  | 75 => ⟨S330000, .i32⟩
  | 76 => ⟨S1x320000, .i32⟩
  | 77 => ⟨S320000, .i32⟩
  | 78 => ⟨S330000, .i32⟩
  | 79 => ⟨S_, .f32⟩
  | 80 => ⟨S330000, .f32⟩
  | 81 => ⟨S_, .f32⟩
  | 82 => ⟨S10000, .f32⟩
  | 83 => ⟨S330000x1, .i32⟩
  | 84 => ⟨S10000, .f32⟩
  | 85 => ⟨S_, .f32⟩
  | 86 => ⟨S10000, .f32⟩
  | 87 => ⟨S10000, .i1⟩
  | 88 => ⟨S10000, .f32⟩
  | 89 => ⟨S_, .f32⟩
  | 90 => ⟨S_, .f32⟩
  | 91 => ⟨S10000, .f32⟩
  | 92 => ⟨S10000, .f32⟩
  | 93 => ⟨S_, .i32⟩
  | 94 => ⟨S330000, .i32⟩
  | 95 => ⟨S330000, .i1⟩
  | 96 => ⟨S_, .i32⟩
  | 97 => ⟨S330000, .i32⟩
  | 98 => ⟨S330000, .i32⟩
  | 99 => ⟨S330000, .i32⟩
  | 100 => ⟨S330000x1, .i32⟩
  | 101 => ⟨S330000, .f32⟩
  | 102 => ⟨S_, .i32⟩
  | 103 => ⟨S330000, .i32⟩
  | 104 => ⟨S330000, .i1⟩
  | 105 => ⟨S_, .i32⟩
  | 106 => ⟨S330000, .i32⟩
  | 107 => ⟨S330000, .i32⟩
  | 108 => ⟨S330000, .i32⟩
  | 109 => ⟨S330000x1, .i32⟩
  | 110 => ⟨S330000, .f32⟩
  | 111 => ⟨S330000, .f32⟩
  | 112 => ⟨S_, .i32⟩
  | 113 => ⟨S330000, .i32⟩
  | 114 => ⟨S330000, .i1⟩
  | 115 => ⟨S_, .i32⟩
  | 116 => ⟨S330000, .i32⟩
  | 117 => ⟨S330000, .i32⟩
  | 118 => ⟨S330000, .i32⟩
  | 119 => ⟨S330000x1, .i32⟩
  | 120 => ⟨S330000x64, .f32⟩
  | 121 => ⟨S330000x1, .f32⟩
  | 122 => ⟨S330000x64, .f32⟩
  | 123 => ⟨S330000x64, .f32⟩
  | 124 => ⟨S_, .f32⟩
  | 125 => ⟨S10000x64, .f32⟩
  | 126 => ⟨S330000x1, .i32⟩
  | 127 => ⟨S10000x64, .f32⟩
  | _ => ⟨S10000x10000, .f32⟩

abbrev hbmTy0_1 (i : Nat) : BufTy := match i % 128 with
  | 0 => ⟨S1x64, .f32⟩
  | 1 => ⟨S10000x64, .f32⟩
  | 2 => ⟨S10000x64, .f32⟩
  | 3 => ⟨S_, .f32⟩
  | 4 => ⟨S10000x64, .f32⟩
  | 5 => ⟨S10000x64, .f32⟩
  | 6 => ⟨S10000x16, .f32⟩
  | 7 => ⟨S10000, .i32⟩
  | 8 => ⟨S1x320000, .i32⟩
  | 9 => ⟨S320000, .i32⟩
  | 10 => ⟨S330000, .i32⟩
  | 11 => ⟨S1x320000, .i32⟩
  | 12 => ⟨S320000, .i32⟩
  | 13 => ⟨S330000, .i32⟩
  | 14 => ⟨S_, .f32⟩
  | 15 => ⟨S330000, .f32⟩
  | 16 => ⟨S_, .f32⟩
  | 17 => ⟨S10000, .f32⟩
  | 18 => ⟨S330000x1, .i32⟩
  | 19 => ⟨S10000, .f32⟩
  | 20 => ⟨S_, .f32⟩
  | 21 => ⟨S10000, .f32⟩
  | 22 => ⟨S10000, .i1⟩
  | 23 => ⟨S10000, .f32⟩
  | 24 => ⟨S_, .f32⟩
  | 25 => ⟨S_, .f32⟩
  | 26 => ⟨S10000, .f32⟩
  | 27 => ⟨S10000, .f32⟩
  | 28 => ⟨S_, .i32⟩
  | 29 => ⟨S330000, .i32⟩
  | 30 => ⟨S330000, .i1⟩
  | 31 => ⟨S_, .i32⟩
  | 32 => ⟨S330000, .i32⟩
  | 33 => ⟨S330000, .i32⟩
  | 34 => ⟨S330000, .i32⟩
  | 35 => ⟨S330000x1, .i32⟩
  | 36 => ⟨S330000, .f32⟩
  | 37 => ⟨S_, .i32⟩
  | 38 => ⟨S330000, .i32⟩
  | 39 => ⟨S330000, .i1⟩
  | 40 => ⟨S_, .i32⟩
  | 41 => ⟨S330000, .i32⟩
  | 42 => ⟨S330000, .i32⟩
  | 43 => ⟨S330000, .i32⟩
  | 44 => ⟨S330000x1, .i32⟩
  | 45 => ⟨S330000, .f32⟩
  | 46 => ⟨S330000, .f32⟩
  | 47 => ⟨S_, .i32⟩
  | 48 => ⟨S330000, .i32⟩
  | 49 => ⟨S330000, .i1⟩
  | 50 => ⟨S_, .i32⟩
  | 51 => ⟨S330000, .i32⟩
  | 52 => ⟨S330000, .i32⟩
  | 53 => ⟨S330000, .i32⟩
  | 54 => ⟨S330000x1, .i32⟩
  | 55 => ⟨S330000x16, .f32⟩
  | 56 => ⟨S330000x1, .f32⟩
  | 57 => ⟨S330000x16, .f32⟩
  | 58 => ⟨S330000x16, .f32⟩
  | 59 => ⟨S_, .f32⟩
  | 60 => ⟨S10000x16, .f32⟩
  | 61 => ⟨S330000x1, .i32⟩
  | 62 => ⟨S10000x16, .f32⟩
  | 63 => ⟨S1x16, .f32⟩
  | 64 => ⟨S10000x16, .f32⟩
  | 65 => ⟨S10000x16, .f32⟩
  | 66 => ⟨S_, .f32⟩
  | 67 => ⟨S10000, .f32⟩
  | 68 => ⟨S_, .f32⟩
  | 69 => ⟨S10000, .f32⟩
  | 70 => ⟨S10000, .f32⟩
  | 71 => ⟨S10000x1, .f32⟩
  | 72 => ⟨S10000x16, .f32⟩
  | 73 => ⟨S10000x16, .f32⟩
  | 74 => ⟨S10000x16, .f32⟩
  | 75 => ⟨S_, .f32⟩
  | 76 => ⟨S10000, .f32⟩
  | 77 => ⟨S10000x1, .f32⟩
  | 78 => ⟨S10000x16, .f32⟩
  | 79 => ⟨S10000x16, .f32⟩
  | _ => ⟨S10000x10000, .f32⟩

abbrev hbmTy (i : Nat) : BufTy := match i / 128 with
  | 0 => hbmTy0_0 i
  | 1 => hbmTy0_1 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_20 : Ref sig .tc := ⟨.hbm, 142, rfl⟩
abbrev main_v104 : Ref sig .tc := ⟨.hbm, 143, rfl⟩
abbrev main_cst_21 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_22 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_23 : Ref sig .tc := ⟨.hbm, 152, rfl⟩
abbrev main_call4_v0 : Ref sig .tc := ⟨.hbm, 153, rfl⟩
abbrev main_call4_v1 : Ref sig .tc := ⟨.hbm, 154, rfl⟩
abbrev main_v111 : Ref sig .tc := ⟨.hbm, 155, rfl⟩
abbrev main_c_24 : Ref sig .tc := ⟨.hbm, 156, rfl⟩
abbrev main_v112 : Ref sig .tc := ⟨.hbm, 157, rfl⟩
abbrev main_v113 : Ref sig .tc := ⟨.hbm, 158, rfl⟩
abbrev main_c_25 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_c_26 : Ref sig .tc := ⟨.hbm, 165, rfl⟩
abbrev main_v119 : Ref sig .tc := ⟨.hbm, 166, rfl⟩
abbrev main_v120 : Ref sig .tc := ⟨.hbm, 167, rfl⟩
abbrev main_c_27 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_28 : Ref sig .tc := ⟨.hbm, 175, rfl⟩
abbrev main_v127 : Ref sig .tc := ⟨.hbm, 176, rfl⟩
abbrev main_v128 : Ref sig .tc := ⟨.hbm, 177, rfl⟩
abbrev main_c_29 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_30 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_31 : Ref sig .tc := ⟨.hbm, 194, rfl⟩
abbrev main_v143 : Ref sig .tc := ⟨.hbm, 195, rfl⟩
abbrev main_cst_32 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_33 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x10000_S10000x64_S10000x64_1_0_0_1_n_n_wf : DotDims.WF S10000x10000 S10000x64 S10000x64 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1

variable [Facts₀]

def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf

class Facts : Prop extends Facts₀ where

variable [Facts]
-- ==== Proof.LibWrittenRefs.lean ====
/-
  A straight line of host operations each of which writes exactly one buffer: when the buffers written, in order,
  are the references of a list `W`, a reference outside `W` is written by no operation of the line, and so keeps its
  contents across the line. The hypothesis is one equation between two lists (the operations' written sets against the
  singletons of `W`), which for a literal line holds by unfolding; membership in `W` is then decided over references alone.
-/
import Idealize.ShloMosaic.Lib.StableHlo.Run

namespace Idealize.ShloMosaic.StableHlo

variable {τ : Topo} {sig : RefSig} {Val : EltTy → Type}

/-- Every operation of a line whose written sets are, in order, the singletons of the references `W` writes only
    references of `W`. -/
theorem writes_sub_of_map_eq :
    ∀ (ops : List (HloOp τ sig Val)) (W : List (Ref sig .tc)),
      ops.map (fun op => op.writes) = W.map (fun r => ({Proc.devRef (τ := τ) .tc r} : Finset (DevRef τ sig))) →
      ∀ op ∈ ops, op.writes ⊆ (W.map (Proc.devRef (τ := τ) .tc)).toFinset
  | [], _, _ => fun _ hop => nomatch hop
  | _ :: _, [], h => nomatch h
  | o :: os, r :: W', h => by
    simp only [List.map_cons, List.cons.injEq] at h
    intro op hop
    rcases List.mem_cons.mp hop with rfl | hop
    · rw [h.1]
      intro b hb
      rw [Finset.mem_singleton] at hb
      subst hb
      exact List.mem_toFinset.mpr (List.mem_map.mpr ⟨r, List.mem_cons_self, rfl⟩)
    · refine (writes_sub_of_map_eq os W' h.2 op hop).trans fun b hb => ?_
      obtain ⟨y, hy, he⟩ := List.mem_map.mp (List.mem_toFinset.mp hb)
      exact List.mem_toFinset.mpr (List.mem_map.mpr ⟨y, List.mem_cons_of_mem _ hy, he⟩)

/-- No operation of such a line writes a reference outside `W`. -/
theorem not_mem_writes_of_map_eq {ops : List (HloOp τ sig Val)} {W : List (Ref sig .tc)}
    (h : ops.map (fun op => op.writes) = W.map (fun r => ({Proc.devRef (τ := τ) .tc r} : Finset (DevRef τ sig))))
    {r : Ref sig .tc} (hr : r ∉ W) {op : HloOp τ sig Val} (hop : op ∈ ops) : Proc.devRef (τ := τ) .tc r ∉ op.writes := fun hw => by
  obtain ⟨y, hy, he⟩ := List.mem_map.mp (List.mem_toFinset.mp (writes_sub_of_map_eq ops W h op hop hw))
  exact hr (Proc.devRef_injective _ he ▸ hy)

/-- A reference outside `W` holds after such a line what it held before it. -/
theorem after_of_map_writes_eq {ops : List (HloOp τ sig Val)} {W : List (Ref sig .tc)}
    (h : ops.map (fun op => op.writes) = W.map (fun r => ({Proc.devRef (τ := τ) .tc r} : Finset (DevRef τ sig))))
    (V : Valuation τ sig Val) {r : Ref sig .tc} (hr : r ∉ W) :
    after ops V (Proc.devRef .tc r) = V (Proc.devRef .tc r) :=
  after_of_forall_not_mem ops V fun _ hop => not_mem_writes_of_map_eq h hr hop

end Idealize.ShloMosaic.StableHlo
-- ==== Proof.KernelHost.lean ====
/-
  @main of this program is: 40 host operations, the one kernel region, 79 host operations. This module is the host side
  of its frame: the contents every buffer holds when the region is entered (the lines before it applied to the launch
  memory), that the lines on either side allocate nothing and touch TensorCore buffers only, and which buffers they
  write — each line writes exactly its own result buffer, so the arguments are written by no line and the three arrays
  the kernel region stages (the two matmul operands and its result) by no line after the region.
-/
import proofs.«144734_j48318382080226_1_alg».proof.Proof.Gen.Kernel.Launch
import proofs.«144734_j48318382080226_1_alg».proof.Proof.LibWrittenRefs
import Idealize.ShloMosaic.Lib.Pipeline.FrameSuffix

set_option maxRecDepth 16384

noncomputable section

namespace Cert.Kernel.Around

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

/-- The lines before the region, stretch by stretch (a called function's lines are a stretch of their own). -/
abbrev linesBefore : List (List (HloOp τ sig (Elt F))) := [hostOps0, hostOps0_1, hostOps0_2]
/-- The lines after the region. -/
abbrev linesAfter : List (List (HloOp τ sig (Elt F))) := [hostOps1, hostOps1_1, hostOps1_2, hostOps1_3, hostOps1_4]

/-- The buffers the lines before the region write, in order. -/
abbrev writtenBefore : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]
/-- The buffers the lines after the region write, in order. -/
abbrev writtenAfter : List (Ref sig .tc) :=
  [main_c_6, main_v31, main_v32, main_c_7, main_v33, main_v34, main_v35, main_v36, main_v37, main_v38, main_v39, main_v40, main_cst_8, main_v41, main_v42, main_v43, main_v44, main_v45, main_v46, main_call1_cst, main_call1_v0, main_v47, main_v48, main_c_9, main_v49, main_v50, main_c_10, main_v51, main_v52, main_v53, main_v54, main_v55, main_v56, main_v57, main_v58, main_cst_11, main_v59, main_v60, main_v61, main_v62, main_v63, main_v64, main_call2_cst, main_call2_v0, main_v65, main_v66, main_c_12, main_v67, main_v68, main_c_13, main_v69, main_v70, main_v71, main_v72, main_v73, main_v74, main_v75, main_v76, main_cst_14, main_v77, main_v78, main_v79, main_v80, main_v81, main_v82, main_cst_15, main_v83, main_cst_16, main_v84, main_v85, main_v86, main_v87, main_v88, main_v89, main_cst_17, main_v90, main_v91, main_v92, main_v93]

/-- Each line before the region writes its own result buffer and nothing else. -/
theorem linesBefore_writes : (linesBefore (F := F)).flatten.map (fun op => op.writes)
    = writtenBefore.map (fun r => ({Proc.devRef (τ := τ) .tc r} : Finset (DevRef τ sig))) := rfl
/-- Each line after the region writes its own result buffer and nothing else. -/
theorem linesAfter_writes : (linesAfter (F := F)).flatten.map (fun op => op.writes)
    = writtenAfter.map (fun r => ({Proc.devRef (τ := τ) .tc r} : Finset (DevRef τ sig))) := rfl

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

variable (m : (ℓ : Loc nD τ sig) → Buf (Elt F) ℓ)

/-- Core `c`'s buffer contents when the region is entered: the launch memory after the lines before the region. -/
abbrev V0 (c : Dev nD) : Valuation τ sig (Elt F) := StableHlo.after (List.flatten linesBefore) (fun b => m (c, b))
/-- The same read at a TensorCore reference. -/
abbrev V (c : Dev nD) (b : Ref sig .tc) : Buf (Elt F) ((c : Thread nD τ).loc b) := V0 m c (Proc.devRef .tc b)

/-- @main is the lines before the region, the region, the lines after it: it reduces to the region continued by the
    later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (linesAfter.map StableHlo.seq)) :=
  Pipeline.hmain_around cfgs 0 defs₀ 𝒱₀ m main linesBefore linesAfter
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch unscoped TensorCore buffers only: the region's arrays and the buffers that bypass it. -/
theorem linesAfter_sub : ∀ ops ∈ (linesAfter : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem linesAfter_fresh : ∀ ops ∈ (linesAfter : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- None of the region's three arrays is a result buffer of a later line. -/
theorem arrays_not_writtenAfter : ∀ w, Pipeline.arrRef spec0 w ∉ writtenAfter := by decide

/-- So the later lines write no array of the region. -/
theorem linesAfter_keep : ∀ ops ∈ (linesAfter : List (List (HloOp τ sig (Elt F)))), ∀ op ∈ ops,
    ∀ w, Proc.devRef .tc (Pipeline.arrRef spec0 w) ∉ op.writes := fun ops hops op hop w =>
  StableHlo.not_mem_writes_of_map_eq linesAfter_writes (arrays_not_writtenAfter w) (List.mem_flatten.mpr ⟨ops, hops, hop⟩)

/-- A buffer no line before the region writes is found by the region as launched. -/
theorem V_of_not_written (c : Dev nD) (r : Ref sig .tc) (hr : r ∉ writtenBefore) : V m c r = m ((c : Thread nD τ).loc r) :=
  StableHlo.after_of_map_writes_eq linesBefore_writes _ hr

/-- A buffer that is no array of the region and that no line on either side writes ends as launched. -/
theorem end_of_not_written (dats : (p : Fin 1) → (c : Dev nD) → Dat τ (Elt F) Unit ℕ (UR sig nD τ) ℕ (cfgs p) c) (c : Dev nD)
    (r : Ref sig .tc) (hb : r ∉ writtenBefore) (ha : r ∉ writtenAfter) (hw : ∀ w, Pipeline.arrRef spec0 w ≠ r) :
    Pipeline.afterTail₀ cfgs dats 0 (V0 m) linesAfter c r = m ((c : Thread nD τ).loc r) := by
  unfold Pipeline.afterTail₀
  rw [StableHlo.after_of_map_writes_eq linesAfter_writes _ ha, Pipeline.withArrays_of_ne _ c (V0 m c) _ r hw]
  exact V_of_not_written m c r hb

end Cert.Kernel.Around

end
-- ==== Proof.KernelBody.lean ====
/-
  The kernel region of this program runs on a grid of 50 points. At point `t` its body is handed three staging
  buffers: rows 200·t … 200·t + 199 of the left operand (a 200 × 10000 block), the whole right operand (10000 × 64), and
  the buffer of rows 200·t … 200·t + 199 of the result (200 × 64). It loads both operand blocks and stores their matrix
  product over the whole result block. This module states what each window's block is at a point, runs the body once over
  whole staging buffers, and packages the per-point facts as the pipeline's proof data: the operand buffers are left as
  found, the result buffer is left holding the product of the two operand blocks.
-/
import proofs.«144734_j48318382080226_1_alg».proof.Proof.Gen.Kernel.Skeleton
import proofs.«144734_j48318382080226_1_alg».proof.Proof.Gen.Kernel.Points
import proofs.«144734_j48318382080226_1_alg».proof.Proof.KernelHost
import Idealize.ShloMosaic.Lib.Pipeline.FrameBody
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block at every point (it is fetched at every point). -/
theorem before_lhs_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The right operand's staging buffer holds its block at every point: it is fetched at the first point only, its index
    never moves, and the body leaves it in place. -/
theorem before_rhs_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each staging buffer whole -/

abbrev wholeLhs : Rect S200x10000 := Rect.unit (s := S200x10000) ![0, 0] S200x10000.size inb_S200x10000_S200x10000_0_0
abbrev wholeRhs : Rect S10000x64 := Rect.unit (s := S10000x64) ![0, 0] S10000x64.size inb_S10000x64_S10000x64_0_0
abbrev wholeOut : Rect S200x64 := Rect.unit (s := S200x64) ![0, 0] S200x64.size inb_S200x64_S200x64_0_0

/-- What the body leaves in the result's staging buffer: its one store, over the whole buffer, of the product of the two
    operand blocks. -/
def productBlock (x0 : Vec F S200x10000 .f32) (x1 : Vec F S10000x64 .f32) : Vec F S200x64 .f32 :=
  View.canon [⟨wholeOut, k0_pay1 (View.ld x0 wholeLhs) (View.ld x1 wholeRhs)⟩]

/-- The one store covers the buffer. -/
theorem store_covers (p0 : Vec F S200x64 .f32) (y : S200x64.Idx) :
    ∃ pc ∈ ([⟨wholeOut, p0⟩] : List (View.Piece (Elt F) S200x64 .f32)), y ∈ pc.1.set :=
  View.cover_of_tiled [⟨wholeOut, p0⟩] S200x64.size (by rfl) y

/-! ## The body's triple -/

set_option maxHeartbeats 1000000 in
/-- The body on whole staging buffers — the operands' at contents `x0`, `x1`, the result's at anything — runs to the
    continuation with the operands' buffers as they were and the result's at the product block. (The body also loads the
    result buffer before storing into it; the loaded value is not used.) -/
theorem sound_kernel (c : Dev nD) (E : Set ℕ) (i : grid0.Coords) (arg1 : Memref sig .tc .vmem S200x10000 .f32) (harg1 : arg1.IsWhole)
    (arg2 : Memref sig .tc .vmem S10000x64 .f32) (harg2 : arg2.IsWhole) (arg3 : Memref sig .tc .vmem S200x64 .f32) (harg3 : arg3.IsWhole)
    (x0 : Vec F S200x10000 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (productBlock x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- The proof data of the pipeline on core `c`: the arrays as the region finds them; after the body at point `t` each
    operand's buffer at its block and the result's at the product of the two blocks; nothing else is used. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => productBlock (blockAt m c 0 t) (blockAt m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_lhs (c : Dev nD) (t : Fin cfg0.N) : (dats m 0 c).after 0 t = blockAt m c 0 t := by dsimp only [dats]
theorem after_rhs (c : Dev nD) (t : Fin cfg0.N) : (dats m 0 c).after 1 t = blockAt m c 1 t := by dsimp only [dats]
theorem after_out (c : Dev nD) (t : Fin cfg0.N) : (dats m 0 c).after 2 t = productBlock (blockAt m c 0 t) (blockAt m c 1 t) := by dsimp only [dats]

theorem before_lhs (c : Dev nD) (t : Fin cfg0.N) (d) : (dats m 0 c).before 0 t d = blockAt m c 0 t :=
  before_lhs_of m (dats m 0 c) (A_eq m c 0) (after_lhs m c) t d
theorem before_rhs (c : Dev nD) (t : Fin cfg0.N) (d) : (dats m 0 c).before 1 t d = blockAt m c 1 t :=
  before_rhs_of m (dats m 0 c) (A_eq m c 1) (after_rhs m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the operands' buffers hold their blocks, so the triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_lhs, before_rhs]
  rw [show (dats m 0 c).Φ t.succ = (dats m 0 c).Φ t.castSucc from rfl,
    show (dats m 0 c).owesAt () t.succ = (dats m 0 c).owesAt () t.castSucc from rfl,
    after_lhs, after_rhs, after_out]
  iintro ⟨HΦ, Ho, ⟨%d0, H0⟩, ⟨%d1, H1⟩, ⟨%d2, H2⟩⟩
  iapply (sound_kernel c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Around

end
-- ==== Proof.KernelRun.lean ====
/-
  The run of the whole program: the lines before the region, the region on its 50 grid points, the lines after it.
  Every weakly fair execution terminates without a fault; at the end the three arrays the region stages hold what the
  pipeline's proof data computes (the two operands their launch contents), and every other buffer holds what the later
  lines leave, computed from the region's exit. Read at the eight arguments, which no line writes, this is the frame; read at
  the program's result buffer it is the value the later lines compute from the region's output array.
-/
import proofs.«144734_j48318382080226_1_alg».proof.Proof.KernelBody
import Idealize.ShloMosaic.Lib.Pipeline.FrameSuffix

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What core `c`'s buffer `b` holds at the end: the later lines applied to the region's exit contents. -/
abbrev endAt (c : Dev nD) (b : Ref sig .tc) : Buf (Elt F) ((c.tc : Thread nD τ).loc b) :=
  Pipeline.afterTail₀ cfgs (dats m) 0 (V0 m) linesAfter c b

set_option backward.isDefEq.respectTransparency.types false in
/-- Every weakly fair execution of @main terminates, nothing faulting, with the region's arrays at what the proof data
    computes and every other unscoped buffer at what the later lines leave. -/
theorem run_main : θ_run defs (onTc (τ := τ) (main (F := F))) (s₀ m ρ)
    (Pipeline.FramePost cfgs (dats m) 0 (Pipeline.afterTail₀ cfgs (dats m) 0 (V0 m) linesAfter)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := linesAfter) (hsub := linesAfter_sub) (hfresh := linesAfter_fresh)
    (hkeep := linesAfter_keep) (hmain := hmain m Variants.none) (hA := A_eq m) (hΦ := fun _ _ => rfl)

/-- The run read at the result buffer and at the eight arguments: the result is what the later lines compute, the
    arguments end as launched (two of them are arrays of the region, which only reads them; the other six bypass it; no
    line writes any). -/
theorem run_result : θ_run defs (onTc (τ := τ) (main (F := F))) ⟨m, fun _ => 0, ρ⟩ (fun r => ∀ c : Dev nD,
      r.2.mem ((c.tc : Thread nD τ).loc main_v93) = endAt m c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c).2 main_v93 (Pipeline.mem_restRefs_of main_v93 (by decide) (by decide)),
     ((h c).1 0).trans (((dats m 0 c).arrAt_in 0 rfl _).trans ((A_eq m c 0).trans (V_of_not_written m c main_arg0 (by decide)))),
     ((h c).2 main_arg1 (Pipeline.mem_restRefs_of main_arg1 (by decide) (by decide))).trans
       (end_of_not_written m (dats m) c main_arg1 (by decide) (by decide) (by decide)),
     ((h c).1 1).trans (((dats m 0 c).arrAt_in 1 rfl _).trans ((A_eq m c 1).trans (V_of_not_written m c main_arg2 (by decide)))),
     ((h c).2 main_arg3 (Pipeline.mem_restRefs_of main_arg3 (by decide) (by decide))).trans
       (end_of_not_written m (dats m) c main_arg3 (by decide) (by decide) (by decide)),
     ((h c).2 main_arg4 (Pipeline.mem_restRefs_of main_arg4 (by decide) (by decide))).trans
       (end_of_not_written m (dats m) c main_arg4 (by decide) (by decide) (by decide)),
     ((h c).2 main_arg5 (Pipeline.mem_restRefs_of main_arg5 (by decide) (by decide))).trans
       (end_of_not_written m (dats m) c main_arg5 (by decide) (by decide) (by decide)),
     ((h c).2 main_arg6 (Pipeline.mem_restRefs_of main_arg6 (by decide) (by decide))).trans
       (end_of_not_written m (dats m) c main_arg6 (by decide) (by decide) (by decide)),
     ((h c).2 main_arg7 (Pipeline.mem_restRefs_of main_arg7 (by decide) (by decide))).trans
       (end_of_not_written m (dats m) c main_arg7 (by decide) (by decide) (by decide))⟩) (run_main m ρ)

/-- The frame: the program runs to the end, faults nowhere, and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_result m ρ)

end Cert.Kernel.Around

end
-- ==== Proof.KernelIdealHost.lean ====
/-
  @main of this program is: 40 host operations, the one kernel region, 79 host operations. This module is the host side
  of its frame: the contents every buffer holds when the region is entered (the lines before it applied to the launch
  memory), that the lines on either side allocate nothing and touch TensorCore buffers only, and which buffers they
  write — each line writes exactly its own result buffer, so the arguments are written by no line and the three arrays
  the kernel region stages (the two matmul operands and its result) by no line after the region.
-/
import proofs.«144734_j48318382080226_1_alg».proof.Proof.Gen.KernelIdeal.Launch
import proofs.«144734_j48318382080226_1_alg».proof.Proof.LibWrittenRefs
import Idealize.ShloMosaic.Lib.Pipeline.FrameSuffix

set_option maxRecDepth 16384

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

/-- The lines before the region, stretch by stretch (a called function's lines are a stretch of their own). -/
abbrev linesBefore : List (List (HloOp τ sig (Elt F))) := [hostOps0, hostOps0_1, hostOps0_2]
/-- The lines after the region. -/
abbrev linesAfter : List (List (HloOp τ sig (Elt F))) := [hostOps1, hostOps1_1, hostOps1_2, hostOps1_3, hostOps1_4]

/-- The buffers the lines before the region write, in order. -/
abbrev writtenBefore : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]
/-- The buffers the lines after the region write, in order. -/
abbrev writtenAfter : List (Ref sig .tc) :=
  [main_c_6, main_v31, main_v32, main_c_7, main_v33, main_v34, main_v35, main_v36, main_v37, main_v38, main_v39, main_v40, main_cst_8, main_v41, main_v42, main_v43, main_v44, main_v45, main_v46, main_call1_cst, main_call1_v0, main_v47, main_v48, main_c_9, main_v49, main_v50, main_c_10, main_v51, main_v52, main_v53, main_v54, main_v55, main_v56, main_v57, main_v58, main_cst_11, main_v59, main_v60, main_v61, main_v62, main_v63, main_v64, main_call2_cst, main_call2_v0, main_v65, main_v66, main_c_12, main_v67, main_v68, main_c_13, main_v69, main_v70, main_v71, main_v72, main_v73, main_v74, main_v75, main_v76, main_cst_14, main_v77, main_v78, main_v79, main_v80, main_v81, main_v82, main_cst_15, main_v83, main_cst_16, main_v84, main_v85, main_v86, main_v87, main_v88, main_v89, main_cst_17, main_v90, main_v91, main_v92, main_v93]

/-- Each line before the region writes its own result buffer and nothing else. -/
theorem linesBefore_writes : (linesBefore (F := F)).flatten.map (fun op => op.writes)
    = writtenBefore.map (fun r => ({Proc.devRef (τ := τ) .tc r} : Finset (DevRef τ sig))) := rfl
/-- Each line after the region writes its own result buffer and nothing else. -/
theorem linesAfter_writes : (linesAfter (F := F)).flatten.map (fun op => op.writes)
    = writtenAfter.map (fun r => ({Proc.devRef (τ := τ) .tc r} : Finset (DevRef τ sig))) := rfl

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

variable (m : (ℓ : Loc nD τ sig) → Buf (Elt F) ℓ)

/-- Core `c`'s buffer contents when the region is entered: the launch memory after the lines before the region. -/
abbrev V0 (c : Dev nD) : Valuation τ sig (Elt F) := StableHlo.after (List.flatten linesBefore) (fun b => m (c, b))
/-- The same read at a TensorCore reference. -/
abbrev V (c : Dev nD) (b : Ref sig .tc) : Buf (Elt F) ((c : Thread nD τ).loc b) := V0 m c (Proc.devRef .tc b)

/-- @main is the lines before the region, the region, the lines after it: it reduces to the region continued by the
    later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (linesAfter.map StableHlo.seq)) :=
  Pipeline.hmain_around cfgs 0 defs₀ 𝒱₀ m main linesBefore linesAfter
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch unscoped TensorCore buffers only: the region's arrays and the buffers that bypass it. -/
theorem linesAfter_sub : ∀ ops ∈ (linesAfter : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem linesAfter_fresh : ∀ ops ∈ (linesAfter : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- None of the region's three arrays is a result buffer of a later line. -/
theorem arrays_not_writtenAfter : ∀ w, Pipeline.arrRef spec0 w ∉ writtenAfter := by decide

/-- So the later lines write no array of the region. -/
theorem linesAfter_keep : ∀ ops ∈ (linesAfter : List (List (HloOp τ sig (Elt F)))), ∀ op ∈ ops,
    ∀ w, Proc.devRef .tc (Pipeline.arrRef spec0 w) ∉ op.writes := fun ops hops op hop w =>
  StableHlo.not_mem_writes_of_map_eq linesAfter_writes (arrays_not_writtenAfter w) (List.mem_flatten.mpr ⟨ops, hops, hop⟩)

/-- A buffer no line before the region writes is found by the region as launched. -/
theorem V_of_not_written (c : Dev nD) (r : Ref sig .tc) (hr : r ∉ writtenBefore) : V m c r = m ((c : Thread nD τ).loc r) :=
  StableHlo.after_of_map_writes_eq linesBefore_writes _ hr

/-- A buffer that is no array of the region and that no line on either side writes ends as launched. -/
theorem end_of_not_written (dats : (p : Fin 1) → (c : Dev nD) → Dat τ (Elt F) Unit ℕ (UR sig nD τ) ℕ (cfgs p) c) (c : Dev nD)
    (r : Ref sig .tc) (hb : r ∉ writtenBefore) (ha : r ∉ writtenAfter) (hw : ∀ w, Pipeline.arrRef spec0 w ≠ r) :
    Pipeline.afterTail₀ cfgs dats 0 (V0 m) linesAfter c r = m ((c : Thread nD τ).loc r) := by
  unfold Pipeline.afterTail₀
  rw [StableHlo.after_of_map_writes_eq linesAfter_writes _ ha, Pipeline.withArrays_of_ne _ c (V0 m c) _ r hw]
  exact V_of_not_written m c r hb

end Cert.KernelIdeal.Around

end
-- ==== Proof.KernelIdealBody.lean ====
/-
  The kernel region of this program runs on a grid of 50 points. At point `t` its body is handed three staging
  buffers: rows 200·t … 200·t + 199 of the left operand (a 200 × 10000 block), the whole right operand (10000 × 64), and
  the buffer of rows 200·t … 200·t + 199 of the result (200 × 64). It loads both operand blocks and stores their matrix
  product over the whole result block. This module states what each window's block is at a point, runs the body once over
  whole staging buffers, and packages the per-point facts as the pipeline's proof data: the operand buffers are left as
  found, the result buffer is left holding the product of the two operand blocks.
-/
import proofs.«144734_j48318382080226_1_alg».proof.Proof.Gen.KernelIdeal.Skeleton
import proofs.«144734_j48318382080226_1_alg».proof.Proof.Gen.KernelIdeal.Points
import proofs.«144734_j48318382080226_1_alg».proof.Proof.KernelIdealHost
import Idealize.ShloMosaic.Lib.Pipeline.FrameBody
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block at every point (it is fetched at every point). -/
theorem before_lhs_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The right operand's staging buffer holds its block at every point: it is fetched at the first point only, its index
    never moves, and the body leaves it in place. -/
theorem before_rhs_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each staging buffer whole -/

abbrev wholeLhs : Rect S200x10000 := Rect.unit (s := S200x10000) ![0, 0] S200x10000.size inb_S200x10000_S200x10000_0_0
abbrev wholeRhs : Rect S10000x64 := Rect.unit (s := S10000x64) ![0, 0] S10000x64.size inb_S10000x64_S10000x64_0_0
abbrev wholeOut : Rect S200x64 := Rect.unit (s := S200x64) ![0, 0] S200x64.size inb_S200x64_S200x64_0_0

/-- What the body leaves in the result's staging buffer: its one store, over the whole buffer, of the product of the two
    operand blocks. -/
def productBlock (x0 : Vec F S200x10000 .f32) (x1 : Vec F S10000x64 .f32) : Vec F S200x64 .f32 :=
  View.canon [⟨wholeOut, k0_pay1 (View.ld x0 wholeLhs) (View.ld x1 wholeRhs)⟩]

/-- The one store covers the buffer. -/
theorem store_covers (p0 : Vec F S200x64 .f32) (y : S200x64.Idx) :
    ∃ pc ∈ ([⟨wholeOut, p0⟩] : List (View.Piece (Elt F) S200x64 .f32)), y ∈ pc.1.set :=
  View.cover_of_tiled [⟨wholeOut, p0⟩] S200x64.size (by rfl) y

/-! ## The body's triple -/

set_option maxHeartbeats 1000000 in
/-- The body on whole staging buffers — the operands' at contents `x0`, `x1`, the result's at anything — runs to the
    continuation with the operands' buffers as they were and the result's at the product block. (The body also loads the
    result buffer before storing into it; the loaded value is not used.) -/
theorem sound_kernel (c : Dev nD) (E : Set ℕ) (i : grid0.Coords) (arg1 : Memref sig .tc .vmem S200x10000 .f32) (harg1 : arg1.IsWhole)
    (arg2 : Memref sig .tc .vmem S10000x64 .f32) (harg2 : arg2.IsWhole) (arg3 : Memref sig .tc .vmem S200x64 .f32) (harg3 : arg3.IsWhole)
    (x0 : Vec F S200x10000 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (productBlock x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- The proof data of the pipeline on core `c`: the arrays as the region finds them; after the body at point `t` each
    operand's buffer at its block and the result's at the product of the two blocks; nothing else is used. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => productBlock (blockAt m c 0 t) (blockAt m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_lhs (c : Dev nD) (t : Fin cfg0.N) : (dats m 0 c).after 0 t = blockAt m c 0 t := by dsimp only [dats]
theorem after_rhs (c : Dev nD) (t : Fin cfg0.N) : (dats m 0 c).after 1 t = blockAt m c 1 t := by dsimp only [dats]
theorem after_out (c : Dev nD) (t : Fin cfg0.N) : (dats m 0 c).after 2 t = productBlock (blockAt m c 0 t) (blockAt m c 1 t) := by dsimp only [dats]

theorem before_lhs (c : Dev nD) (t : Fin cfg0.N) (d) : (dats m 0 c).before 0 t d = blockAt m c 0 t :=
  before_lhs_of m (dats m 0 c) (A_eq m c 0) (after_lhs m c) t d
theorem before_rhs (c : Dev nD) (t : Fin cfg0.N) (d) : (dats m 0 c).before 1 t d = blockAt m c 1 t :=
  before_rhs_of m (dats m 0 c) (A_eq m c 1) (after_rhs m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the operands' buffers hold their blocks, so the triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_lhs, before_rhs]
  rw [show (dats m 0 c).Φ t.succ = (dats m 0 c).Φ t.castSucc from rfl,
    show (dats m 0 c).owesAt () t.succ = (dats m 0 c).owesAt () t.castSucc from rfl,
    after_lhs, after_rhs, after_out]
  iintro ⟨HΦ, Ho, ⟨%d0, H0⟩, ⟨%d1, H1⟩, ⟨%d2, H2⟩⟩
  iapply (sound_kernel c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Around

end
-- ==== Proof.KernelIdealRun.lean ====
/-
  The run of the whole program: the lines before the region, the region on its 50 grid points, the lines after it.
  Every weakly fair execution terminates without a fault; at the end the three arrays the region stages hold what the
  pipeline's proof data computes (the two operands their launch contents), and every other buffer holds what the later
  lines leave, computed from the region's exit. Read at the eight arguments, which no line writes, this is the frame; read at
  the program's result buffer it is the value the later lines compute from the region's output array.
-/
import proofs.«144734_j48318382080226_1_alg».proof.Proof.KernelIdealBody
import Idealize.ShloMosaic.Lib.Pipeline.FrameSuffix

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What core `c`'s buffer `b` holds at the end: the later lines applied to the region's exit contents. -/
abbrev endAt (c : Dev nD) (b : Ref sig .tc) : Buf (Elt F) ((c.tc : Thread nD τ).loc b) :=
  Pipeline.afterTail₀ cfgs (dats m) 0 (V0 m) linesAfter c b

set_option backward.isDefEq.respectTransparency.types false in
/-- Every weakly fair execution of @main terminates, nothing faulting, with the region's arrays at what the proof data
    computes and every other unscoped buffer at what the later lines leave. -/
theorem run_main : θ_run defs (onTc (τ := τ) (main (F := F))) (s₀ m ρ)
    (Pipeline.FramePost cfgs (dats m) 0 (Pipeline.afterTail₀ cfgs (dats m) 0 (V0 m) linesAfter)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := linesAfter) (hsub := linesAfter_sub) (hfresh := linesAfter_fresh)
    (hkeep := linesAfter_keep) (hmain := hmain m Variants.none) (hA := A_eq m) (hΦ := fun _ _ => rfl)

/-- The run read at the result buffer and at the eight arguments: the result is what the later lines compute, the
    arguments end as launched (two of them are arrays of the region, which only reads them; the other six bypass it; no
    line writes any). -/
theorem run_result : θ_run defs (onTc (τ := τ) (main (F := F))) ⟨m, fun _ => 0, ρ⟩ (fun r => ∀ c : Dev nD,
      r.2.mem ((c.tc : Thread nD τ).loc main_v93) = endAt m c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c).2 main_v93 (Pipeline.mem_restRefs_of main_v93 (by decide) (by decide)),
     ((h c).1 0).trans (((dats m 0 c).arrAt_in 0 rfl _).trans ((A_eq m c 0).trans (V_of_not_written m c main_arg0 (by decide)))),
     ((h c).2 main_arg1 (Pipeline.mem_restRefs_of main_arg1 (by decide) (by decide))).trans
       (end_of_not_written m (dats m) c main_arg1 (by decide) (by decide) (by decide)),
     ((h c).1 1).trans (((dats m 0 c).arrAt_in 1 rfl _).trans ((A_eq m c 1).trans (V_of_not_written m c main_arg2 (by decide)))),
     ((h c).2 main_arg3 (Pipeline.mem_restRefs_of main_arg3 (by decide) (by decide))).trans
       (end_of_not_written m (dats m) c main_arg3 (by decide) (by decide) (by decide)),
     ((h c).2 main_arg4 (Pipeline.mem_restRefs_of main_arg4 (by decide) (by decide))).trans
       (end_of_not_written m (dats m) c main_arg4 (by decide) (by decide) (by decide)),
     ((h c).2 main_arg5 (Pipeline.mem_restRefs_of main_arg5 (by decide) (by decide))).trans
       (end_of_not_written m (dats m) c main_arg5 (by decide) (by decide) (by decide)),
     ((h c).2 main_arg6 (Pipeline.mem_restRefs_of main_arg6 (by decide) (by decide))).trans
       (end_of_not_written m (dats m) c main_arg6 (by decide) (by decide) (by decide)),
     ((h c).2 main_arg7 (Pipeline.mem_restRefs_of main_arg7 (by decide) (by decide))).trans
       (end_of_not_written m (dats m) c main_arg7 (by decide) (by decide) (by decide))⟩) (run_main m ρ)

/-- The frame: the program runs to the end, faults nowhere, and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_result m ρ)

end Cert.KernelIdeal.Around

end
-- ==== Proof.LibSingleAssign.lean ====
/-
  Straight lines of host operations in single-assignment form: each operation writes exactly one buffer, and no buffer is
  written twice. For such a line the valuation after the whole line can be read one variable at a time: the final value of
  the variable the `j`-th operation assigns is that operation's function of the FINAL values of its operands, provided
  each operand is assigned before position `j` or not at all (it is then never touched again). So a value computed by a
  long line is described by one small equation per operation, and two lines can be compared variable by variable
  without ever writing out a whole composed term.
-/
import Idealize.ShloMosaic.Lib.StableHlo.Run
import proofs.«144734_j48318382080226_1_alg».proof.Proof.LibWrittenRefs

namespace Idealize.ShloMosaic.StableHlo

variable {τ : Topo} {sig : RefSig} {Val : EltTy → Type}

/-- The line `ops` assigns the references `W`, one per operation in order, each once. -/
structure SingleAssign (ops : List (HloOp τ sig Val)) (W : List (Ref sig .tc)) : Prop where
  writes : ops.map (fun op => op.writes) = W.map (fun r => ({Proc.devRef (τ := τ) .tc r} : Finset (DevRef τ sig)))
  nodup : W.Nodup

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- In a list without repetition the entry at position `i` does not occur from a later position `j` on. -/
theorem not_mem_drop_of_nodup {α : Type} : ∀ (W : List α), W.Nodup → ∀ (i j : Nat) (x : α), W[i]? = some x → i < j → x ∉ W.drop j
  | [], _, _, _, _, h, _ => by simp at h
  | _ :: _, _, _, 0, _, _, hlt => absurd hlt (Nat.not_lt_zero _)
  | r :: W', hn, 0, j + 1, x, h, _ => by
    simp only [List.getElem?_cons_zero, Option.some.injEq] at h
    subst h
    rw [List.drop_succ_cons]
    exact fun hm => (List.nodup_cons.mp hn).1 (List.mem_of_mem_drop hm)
  | r :: W', hn, i + 1, j + 1, x, h, hlt => by
    rw [List.drop_succ_cons]
    rw [List.getElem?_cons_succ] at h
    exact not_mem_drop_of_nodup W' (List.nodup_cons.mp hn).2 i j x h (Nat.lt_of_succ_lt_succ hlt)

/-- The final value of the variable the `j`-th operation assigns is that operation's result over the valuation before it. -/
theorem after_at : ∀ (ops : List (HloOp τ sig Val)) (W : List (Ref sig .tc)),
    ops.map (fun op => op.writes) = W.map (fun r => ({Proc.devRef (τ := τ) .tc r} : Finset (DevRef τ sig))) → W.Nodup →
    ∀ (V : Valuation τ sig Val) (j : Nat) (op : HloOp τ sig Val) (y : Ref sig .tc), ops[j]? = some op → W[j]? = some y →
      after ops V (Proc.devRef .tc y) = op.result (after (ops.take j) V) (Proc.devRef .tc y)
  | [], _, _, _, _, _, _, _, hop, _ => by simp at hop
  | _ :: _, [], hw, _, _, _, _, _, _, _ => by simp at hw
  | o :: os, r :: W', hw, hn, V, 0, op, y, hop, hy => by
    simp only [List.getElem?_cons_zero, Option.some.injEq] at hop hy
    subst hop hy
    simp only [List.map_cons, List.cons.injEq] at hw
    rw [after_cons, List.take_zero, after_nil]
    exact after_of_map_writes_eq hw.2 _ (List.nodup_cons.mp hn).1
  | o :: os, r :: W', hw, hn, V, j + 1, op, y, hop, hy => by
    simp only [List.map_cons, List.cons.injEq] at hw
    rw [List.getElem?_cons_succ] at hop hy
    rw [after_cons, List.take_succ_cons, after_cons]
    exact after_at os W' hw.2 (List.nodup_cons.mp hn).2 (o.result V) j op y hop hy

variable {ops : List (HloOp τ sig Val)} {W : List (Ref sig .tc)}

/-- A reference not assigned from position `j` on already holds its final value before position `j`. -/
theorem after_take_of_not_mem_drop (h : SingleAssign ops W) (V : Valuation τ sig Val) (j : Nat) {x : Ref sig .tc} (hx : x ∉ W.drop j) :
    after (ops.take j) V (Proc.devRef .tc x) = after ops V (Proc.devRef .tc x) := by
  conv_rhs => rw [← List.take_append_drop j ops, after_append]
  refine (after_of_map_writes_eq (W := W.drop j) ?_ _ hx).symm
  rw [List.map_drop, h.writes, List.map_drop]

/-- A reference assigned at an earlier position already holds its final value. -/
theorem after_take_of_lt (h : SingleAssign ops W) (V : Valuation τ sig Val) {i j : Nat} {x : Ref sig .tc} (hi : W[i]? = some x) (hij : i < j) :
    after (ops.take j) V (Proc.devRef .tc x) = after ops V (Proc.devRef .tc x) :=
  after_take_of_not_mem_drop h V j (not_mem_drop_of_nodup W h.nodup i j x hi hij)

/-- A reference the line never assigns holds throughout what it held before the line. -/
theorem after_of_not_assigned (h : SingleAssign ops W) (V : Valuation τ sig Val) {x : Ref sig .tc} (hx : x ∉ W) :
    after ops V (Proc.devRef .tc x) = V (Proc.devRef .tc x) :=
  after_of_map_writes_eq h.writes V hx

/-- and so did it before any position. -/
theorem after_take_of_not_assigned (h : SingleAssign ops W) (V : Valuation τ sig Val) (j : Nat) {x : Ref sig .tc} (hx : x ∉ W) :
    after (ops.take j) V (Proc.devRef .tc x) = after ops V (Proc.devRef .tc x) :=
  after_take_of_not_mem_drop h V j fun hm => hx (List.mem_of_mem_drop hm)

/-! ## The final value of an assigned variable, builder by builder -/

theorem final_nullary (h : SingleAssign ops W) (V : Valuation τ sig Val) (j : Nat) {y : Ref sig .tc} {v : y.ty.Contents Val} {hy}
    (hop : ops[j]? = some (nullary y v hy)) (hw : W[j]? = some y) :
    after ops V (Proc.devRef .tc y) = v := by
  rw [after_at ops W h.writes h.nodup V j _ y hop hw, nullary_result]

theorem final_unary (h : SingleAssign ops W) (V : Valuation τ sig Val) (j : Nat) {x y : Ref sig .tc}
    {f : x.ty.Contents Val → y.ty.Contents Val} {hx hy}
    (hop : ops[j]? = some (unary x y f hx hy)) (hw : W[j]? = some y)
    (sx : after (ops.take j) V (Proc.devRef .tc x) = after ops V (Proc.devRef .tc x)) :
    after ops V (Proc.devRef .tc y) = f (after ops V (Proc.devRef .tc x)) := by
  rw [after_at ops W h.writes h.nodup V j _ y hop hw, unary_result, sx]

theorem final_binary (h : SingleAssign ops W) (V : Valuation τ sig Val) (j : Nat) {a b y : Ref sig .tc}
    {f : a.ty.Contents Val → b.ty.Contents Val → y.ty.Contents Val} {ha hb hy}
    (hop : ops[j]? = some (binary a b y f ha hb hy)) (hw : W[j]? = some y)
    (sa : after (ops.take j) V (Proc.devRef .tc a) = after ops V (Proc.devRef .tc a))
    (sb : after (ops.take j) V (Proc.devRef .tc b) = after ops V (Proc.devRef .tc b)) :
    after ops V (Proc.devRef .tc y) = f (after ops V (Proc.devRef .tc a)) (after ops V (Proc.devRef .tc b)) := by
  rw [after_at ops W h.writes h.nodup V j _ y hop hw, binary_result, sa, sb]

theorem final_ternary (h : SingleAssign ops W) (V : Valuation τ sig Val) (j : Nat) {c a b y : Ref sig .tc}
    {f : c.ty.Contents Val → a.ty.Contents Val → b.ty.Contents Val → y.ty.Contents Val} {hc ha hb hy}
    (hop : ops[j]? = some (ternary c a b y f hc ha hb hy)) (hw : W[j]? = some y)
    (sc : after (ops.take j) V (Proc.devRef .tc c) = after ops V (Proc.devRef .tc c))
    (sa : after (ops.take j) V (Proc.devRef .tc a) = after ops V (Proc.devRef .tc a))
    (sb : after (ops.take j) V (Proc.devRef .tc b) = after ops V (Proc.devRef .tc b)) :
    after ops V (Proc.devRef .tc y)
      = f (after ops V (Proc.devRef .tc c)) (after ops V (Proc.devRef .tc a)) (after ops V (Proc.devRef .tc b)) := by
  rw [after_at ops W h.writes h.nodup V j _ y hop hw, ternary_result, sc, sa, sb]

theorem final_reshape (h : SingleAssign ops W) (V : Valuation τ sig Val) (j : Nat) {x y : Ref sig .tc}
    {he : x.ty.elt = y.ty.elt} {hn : x.ty.shape.ShapeCasts y.ty.shape} {hx hy}
    (hop : ops[j]? = some (reshape x y he hn hx hy)) (hw : W[j]? = some y)
    (sx : after (ops.take j) V (Proc.devRef .tc x) = after ops V (Proc.devRef .tc x)) :
    after ops V (Proc.devRef .tc y) = fun i => he ▸ shapeCast y.ty.shape (after ops V (Proc.devRef .tc x)) hn i := by
  rw [after_at ops W h.writes h.nodup V j _ y hop hw, reshape_result, sx]

end Idealize.ShloMosaic.StableHlo
-- ==== Proof.ReferenceLine.lean ====
/-
  The reference program is a straight line of 200 host operations and no kernel: its @main, written out as a list. Each
  operation writes one fresh buffer, so the line is in single-assignment form: its run ends with every buffer at the
  fold of the operations over the launch memory, the eight arguments — which no operation assigns — as launched.
-/
import proofs.«144734_j48318382080226_1_alg».proof.Proof.Gen.ReferenceIdeal
import proofs.«144734_j48318382080226_1_alg».proof.Proof.LibSingleAssign
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 200 operations, in order (a called function's operations stand in its call's place). -/
abbrev ops : List (HloOp τ sig (Elt F)) :=
  [ binary main_arg0 main_arg2 main_v0 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    nullary main_v1 (iotaInDim S10000 32 0),
    unary main_arg1 main_v2 ((extractStridedSlice S1x320000 ![0, 0] · slices_S2x320000_S1x320000_0_0) : (⟨S2x320000, .i32⟩ : BufTy).Contents (Elt F) → (⟨S1x320000, .i32⟩ : BufTy).Contents (Elt F)),
    reshape main_v2 main_v3 rfl shapeCasts_S1x320000_S320000,
    binary main_v3 main_v1 main_v4 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    unary main_arg1 main_v5 ((extractStridedSlice S1x320000 ![1, 0] · slices_S2x320000_S1x320000_1_0) : (⟨S2x320000, .i32⟩ : BufTy).Contents (Elt F) → (⟨S1x320000, .i32⟩ : BufTy).Contents (Elt F)),
    reshape main_v5 main_v6 rfl shapeCasts_S1x320000_S320000,
    binary main_v6 main_v1 main_v7 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    nullary main_cst (constant S_ .f32 0x3F800000#32),
    unary main_cst main_v8 (broadcastInDim S330000 ![] bcast_S_S330000 : (⟨S_, .f32⟩ : BufTy).Contents (Elt F) → (⟨S330000, .f32⟩ : BufTy).Contents (Elt F)),
    nullary main_cst_0 (constant S_ .f32 0x00000000#32),
    unary main_cst_0 main_v9 (broadcastInDim S10000 ![] bcast_S_S10000 : (⟨S_, .f32⟩ : BufTy).Contents (Elt F) → (⟨S10000, .f32⟩ : BufTy).Contents (Elt F)),
    unary main_v7 main_v10 (broadcastInDim S330000x1 ![0] bcast_S330000_S330000x1_0 : (⟨S330000, .i32⟩ : BufTy).Contents (Elt F) → (⟨S330000x1, .i32⟩ : BufTy).Contents (Elt F)),
    ternary main_v9 main_v10 main_v8 main_v11 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_1 (constant S_ .f32 0x00000000#32),
    unary main_cst_1 main_v12 (broadcastInDim S10000 ![] bcast_S_S10000 : (⟨S_, .f32⟩ : BufTy).Contents (Elt F) → (⟨S10000, .f32⟩ : BufTy).Contents (Elt F)),
    binary main_v11 main_v12 main_v13 (cmpf .ogt : (⟨S10000, .f32⟩ : BufTy).Contents (Elt F) → (⟨S10000, .f32⟩ : BufTy).Contents (Elt F) → (⟨S10000, .i1⟩ : BufTy).Contents (Elt F)),
    unary main_v11 main_v14 (Host.rsqrt : (⟨S10000, .f32⟩ : BufTy).Contents (Elt F) → (⟨S10000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v14) (TRef.of (T := ⟨S10000, .f32⟩) main_call0_v1) (TRef.of (T := ⟨S10000, .f32⟩) main_v15) select,
    nullary main_c (constantI S_ 32 0#32),
    unary main_c main_v16 (broadcastInDim S330000 ![] bcast_S_S330000 : (⟨S_, .i32⟩ : BufTy).Contents (Elt F) → (⟨S330000, .i32⟩ : BufTy).Contents (Elt F)),
    binary main_v4 main_v16 main_v17 (cmpi .slt : (⟨S330000, .i32⟩ : BufTy).Contents (Elt F) → (⟨S330000, .i32⟩ : BufTy).Contents (Elt F) → (⟨S330000, .i1⟩ : BufTy).Contents (Elt F)),
    nullary main_c_3 (constantI S_ 32 10000#32),
    unary main_c_3 main_v18 (broadcastInDim S330000 ![] bcast_S_S330000 : (⟨S_, .i32⟩ : BufTy).Contents (Elt F) → (⟨S330000, .i32⟩ : BufTy).Contents (Elt F)),
    binary main_v4 main_v18 main_v19 (addi : (⟨S330000, .i32⟩ : BufTy).Contents (Elt F) → (⟨S330000, .i32⟩ : BufTy).Contents (Elt F) → (⟨S330000, .i32⟩ : BufTy).Contents (Elt F)),
    ternary main_v17 main_v19 main_v4 main_v20 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v20 main_v21 (broadcastInDim S330000x1 ![0] bcast_S330000_S330000x1_0 : (⟨S330000, .i32⟩ : BufTy).Contents (Elt F) → (⟨S330000x1, .i32⟩ : BufTy).Contents (Elt F)),
    binary main_v15 main_v21 main_v22 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_4 (constantI S_ 32 0#32),
    unary main_c_4 main_v23 (broadcastInDim S330000 ![] bcast_S_S330000 : (⟨S_, .i32⟩ : BufTy).Contents (Elt F) → (⟨S330000, .i32⟩ : BufTy).Contents (Elt F)),
    binary main_v7 main_v23 main_v24 (cmpi .slt : (⟨S330000, .i32⟩ : BufTy).Contents (Elt F) → (⟨S330000, .i32⟩ : BufTy).Contents (Elt F) → (⟨S330000, .i1⟩ : BufTy).Contents (Elt F)),
    nullary main_c_5 (constantI S_ 32 10000#32),
    unary main_c_5 main_v25 (broadcastInDim S330000 ![] bcast_S_S330000 : (⟨S_, .i32⟩ : BufTy).Contents (Elt F) → (⟨S330000, .i32⟩ : BufTy).Contents (Elt F)),
    binary main_v7 main_v25 main_v26 (addi : (⟨S330000, .i32⟩ : BufTy).Contents (Elt F) → (⟨S330000, .i32⟩ : BufTy).Contents (Elt F) → (⟨S330000, .i32⟩ : BufTy).Contents (Elt F)),
    ternary main_v24 main_v26 main_v7 main_v27 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v27 main_v28 (broadcastInDim S330000x1 ![0] bcast_S330000_S330000x1_0 : (⟨S330000, .i32⟩ : BufTy).Contents (Elt F) → (⟨S330000x1, .i32⟩ : BufTy).Contents (Elt F)),
    binary main_v15 main_v28 main_v29 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v22 main_v29 main_v30 (mulf : (⟨S330000, .f32⟩ : BufTy).Contents (Elt F) → (⟨S330000, .f32⟩ : BufTy).Contents (Elt F) → (⟨S330000, .f32⟩ : BufTy).Contents (Elt F)),
    nullary main_c_6 (constantI S_ 32 0#32),
    unary main_c_6 main_v31 (broadcastInDim S330000 ![] bcast_S_S330000 : (⟨S_, .i32⟩ : BufTy).Contents (Elt F) → (⟨S330000, .i32⟩ : BufTy).Contents (Elt F)),
    binary main_v4 main_v31 main_v32 (cmpi .slt : (⟨S330000, .i32⟩ : BufTy).Contents (Elt F) → (⟨S330000, .i32⟩ : BufTy).Contents (Elt F) → (⟨S330000, .i1⟩ : BufTy).Contents (Elt F)),
    nullary main_c_7 (constantI S_ 32 10000#32),
    unary main_c_7 main_v33 (broadcastInDim S330000 ![] bcast_S_S330000 : (⟨S_, .i32⟩ : BufTy).Contents (Elt F) → (⟨S330000, .i32⟩ : BufTy).Contents (Elt F)),
    binary main_v4 main_v33 main_v34 (addi : (⟨S330000, .i32⟩ : BufTy).Contents (Elt F) → (⟨S330000, .i32⟩ : BufTy).Contents (Elt F) → (⟨S330000, .i32⟩ : BufTy).Contents (Elt F)),
    ternary main_v32 main_v34 main_v4 main_v35 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v35 main_v36 (broadcastInDim S330000x1 ![0] bcast_S330000_S330000x1_0 : (⟨S330000, .i32⟩ : BufTy).Contents (Elt F) → (⟨S330000x1, .i32⟩ : BufTy).Contents (Elt F)),
    binary main_v0 main_v36 main_v37 ((fun x i => Host.gather gather_S10000x64_S330000x1_S330000x64_1_0_n_n_0_1_164 x i) : (⟨S10000x64, .f32⟩ : BufTy).Contents (Elt F) → (⟨S330000x1, .i32⟩ : BufTy).Contents (Elt F) → (⟨S330000x64, .f32⟩ : BufTy).Contents (Elt F)),
    unary main_v30 main_v38 (broadcastInDim S330000x1 ![0] bcast_S330000_S330000x1_0 : (⟨S330000, .f32⟩ : BufTy).Contents (Elt F) → (⟨S330000x1, .f32⟩ : BufTy).Contents (Elt F)),
    unary main_v38 main_v39 (broadcastInDim S330000x64 ![0, 1] bcast_S330000x1_S330000x64_0_1 : (⟨S330000x1, .f32⟩ : BufTy).Contents (Elt F) → (⟨S330000x64, .f32⟩ : BufTy).Contents (Elt F)),
    binary main_v37 main_v39 main_v40 (mulf : (⟨S330000x64, .f32⟩ : BufTy).Contents (Elt F) → (⟨S330000x64, .f32⟩ : BufTy).Contents (Elt F) → (⟨S330000x64, .f32⟩ : BufTy).Contents (Elt F)),
    nullary main_cst_8 (constant S_ .f32 0x00000000#32),
    unary main_cst_8 main_v41 (broadcastInDim S10000x64 ![] bcast_S_S10000x64 : (⟨S_, .f32⟩ : BufTy).Contents (Elt F) → (⟨S10000x64, .f32⟩ : BufTy).Contents (Elt F)),
    unary main_v7 main_v42 (broadcastInDim S330000x1 ![0] bcast_S330000_S330000x1_0 : (⟨S330000, .i32⟩ : BufTy).Contents (Elt F) → (⟨S330000x1, .i32⟩ : BufTy).Contents (Elt F)),
    ternary main_v41 main_v42 main_v40 main_v43 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S10000x64 ![0, 1] bcast_S1x64_S10000x64_0_1 : (⟨S1x64, .f32⟩ : BufTy).Contents (Elt F) → (⟨S10000x64, .f32⟩ : BufTy).Contents (Elt F)),
    binary main_v43 main_v45 main_v46 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x64, .f32⟩) main_call1_v0) (broadcastInDim S10000x64 ![] bcast_S_S10000x64),
    TRef.binary (TRef.of (T := ⟨S10000x64, .f32⟩) main_v46) (TRef.of (T := ⟨S10000x64, .f32⟩) main_call1_v0) (TRef.of (T := ⟨S10000x64, .f32⟩) main_v47) maximumf,
    binary main_v47 main_arg4 main_v48 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    nullary main_v49 (iotaInDim S10000 32 0),
    unary main_arg1 main_v50 ((extractStridedSlice S1x320000 ![0, 0] · slices_S2x320000_S1x320000_0_0) : (⟨S2x320000, .i32⟩ : BufTy).Contents (Elt F) → (⟨S1x320000, .i32⟩ : BufTy).Contents (Elt F)),
    reshape main_v50 main_v51 rfl shapeCasts_S1x320000_S320000,
    binary main_v51 main_v49 main_v52 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    unary main_arg1 main_v53 ((extractStridedSlice S1x320000 ![1, 0] · slices_S2x320000_S1x320000_1_0) : (⟨S2x320000, .i32⟩ : BufTy).Contents (Elt F) → (⟨S1x320000, .i32⟩ : BufTy).Contents (Elt F)),
    reshape main_v53 main_v54 rfl shapeCasts_S1x320000_S320000,
    binary main_v54 main_v49 main_v55 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    nullary main_cst_9 (constant S_ .f32 0x3F800000#32),
    unary main_cst_9 main_v56 (broadcastInDim S330000 ![] bcast_S_S330000 : (⟨S_, .f32⟩ : BufTy).Contents (Elt F) → (⟨S330000, .f32⟩ : BufTy).Contents (Elt F)),
    nullary main_cst_10 (constant S_ .f32 0x00000000#32),
    unary main_cst_10 main_v57 (broadcastInDim S10000 ![] bcast_S_S10000 : (⟨S_, .f32⟩ : BufTy).Contents (Elt F) → (⟨S10000, .f32⟩ : BufTy).Contents (Elt F)),
    unary main_v55 main_v58 (broadcastInDim S330000x1 ![0] bcast_S330000_S330000x1_0 : (⟨S330000, .i32⟩ : BufTy).Contents (Elt F) → (⟨S330000x1, .i32⟩ : BufTy).Contents (Elt F)),
    ternary main_v57 main_v58 main_v56 main_v59 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_11 (constant S_ .f32 0x00000000#32),
    unary main_cst_11 main_v60 (broadcastInDim S10000 ![] bcast_S_S10000 : (⟨S_, .f32⟩ : BufTy).Contents (Elt F) → (⟨S10000, .f32⟩ : BufTy).Contents (Elt F)),
    binary main_v59 main_v60 main_v61 (cmpf .ogt : (⟨S10000, .f32⟩ : BufTy).Contents (Elt F) → (⟨S10000, .f32⟩ : BufTy).Contents (Elt F) → (⟨S10000, .i1⟩ : BufTy).Contents (Elt F)),
    unary main_v59 main_v62 (Host.rsqrt : (⟨S10000, .f32⟩ : BufTy).Contents (Elt F) → (⟨S10000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S10000, .f32⟩) main_call2_v1) (broadcastInDim S10000 ![] bcast_S_S10000),
    TRef.ternary (TRef.of (T := ⟨S10000, .i1⟩) main_v61) (TRef.of (T := ⟨S10000, .f32⟩) main_v62) (TRef.of (T := ⟨S10000, .f32⟩) main_call2_v1) (TRef.of (T := ⟨S10000, .f32⟩) main_v63) select,
    nullary main_c_13 (constantI S_ 32 0#32),
    unary main_c_13 main_v64 (broadcastInDim S330000 ![] bcast_S_S330000 : (⟨S_, .i32⟩ : BufTy).Contents (Elt F) → (⟨S330000, .i32⟩ : BufTy).Contents (Elt F)),
    binary main_v52 main_v64 main_v65 (cmpi .slt : (⟨S330000, .i32⟩ : BufTy).Contents (Elt F) → (⟨S330000, .i32⟩ : BufTy).Contents (Elt F) → (⟨S330000, .i1⟩ : BufTy).Contents (Elt F)),
    nullary main_c_14 (constantI S_ 32 10000#32),
    unary main_c_14 main_v66 (broadcastInDim S330000 ![] bcast_S_S330000 : (⟨S_, .i32⟩ : BufTy).Contents (Elt F) → (⟨S330000, .i32⟩ : BufTy).Contents (Elt F)),
    binary main_v52 main_v66 main_v67 (addi : (⟨S330000, .i32⟩ : BufTy).Contents (Elt F) → (⟨S330000, .i32⟩ : BufTy).Contents (Elt F) → (⟨S330000, .i32⟩ : BufTy).Contents (Elt F)),
    ternary main_v65 main_v67 main_v52 main_v68 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v68 main_v69 (broadcastInDim S330000x1 ![0] bcast_S330000_S330000x1_0 : (⟨S330000, .i32⟩ : BufTy).Contents (Elt F) → (⟨S330000x1, .i32⟩ : BufTy).Contents (Elt F)),
    binary main_v63 main_v69 main_v70 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_15 (constantI S_ 32 0#32),
    unary main_c_15 main_v71 (broadcastInDim S330000 ![] bcast_S_S330000 : (⟨S_, .i32⟩ : BufTy).Contents (Elt F) → (⟨S330000, .i32⟩ : BufTy).Contents (Elt F)),
    binary main_v55 main_v71 main_v72 (cmpi .slt : (⟨S330000, .i32⟩ : BufTy).Contents (Elt F) → (⟨S330000, .i32⟩ : BufTy).Contents (Elt F) → (⟨S330000, .i1⟩ : BufTy).Contents (Elt F)),
    nullary main_c_16 (constantI S_ 32 10000#32),
    unary main_c_16 main_v73 (broadcastInDim S330000 ![] bcast_S_S330000 : (⟨S_, .i32⟩ : BufTy).Contents (Elt F) → (⟨S330000, .i32⟩ : BufTy).Contents (Elt F)),
    binary main_v55 main_v73 main_v74 (addi : (⟨S330000, .i32⟩ : BufTy).Contents (Elt F) → (⟨S330000, .i32⟩ : BufTy).Contents (Elt F) → (⟨S330000, .i32⟩ : BufTy).Contents (Elt F)),
    ternary main_v72 main_v74 main_v55 main_v75 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v75 main_v76 (broadcastInDim S330000x1 ![0] bcast_S330000_S330000x1_0 : (⟨S330000, .i32⟩ : BufTy).Contents (Elt F) → (⟨S330000x1, .i32⟩ : BufTy).Contents (Elt F)),
    binary main_v63 main_v76 main_v77 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v70 main_v77 main_v78 (mulf : (⟨S330000, .f32⟩ : BufTy).Contents (Elt F) → (⟨S330000, .f32⟩ : BufTy).Contents (Elt F) → (⟨S330000, .f32⟩ : BufTy).Contents (Elt F)),
    nullary main_c_17 (constantI S_ 32 0#32),
    unary main_c_17 main_v79 (broadcastInDim S330000 ![] bcast_S_S330000 : (⟨S_, .i32⟩ : BufTy).Contents (Elt F) → (⟨S330000, .i32⟩ : BufTy).Contents (Elt F)),
    binary main_v52 main_v79 main_v80 (cmpi .slt : (⟨S330000, .i32⟩ : BufTy).Contents (Elt F) → (⟨S330000, .i32⟩ : BufTy).Contents (Elt F) → (⟨S330000, .i1⟩ : BufTy).Contents (Elt F)),
    nullary main_c_18 (constantI S_ 32 10000#32),
    unary main_c_18 main_v81 (broadcastInDim S330000 ![] bcast_S_S330000 : (⟨S_, .i32⟩ : BufTy).Contents (Elt F) → (⟨S330000, .i32⟩ : BufTy).Contents (Elt F)),
    binary main_v52 main_v81 main_v82 (addi : (⟨S330000, .i32⟩ : BufTy).Contents (Elt F) → (⟨S330000, .i32⟩ : BufTy).Contents (Elt F) → (⟨S330000, .i32⟩ : BufTy).Contents (Elt F)),
    ternary main_v80 main_v82 main_v52 main_v83 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v83 main_v84 (broadcastInDim S330000x1 ![0] bcast_S330000_S330000x1_0 : (⟨S330000, .i32⟩ : BufTy).Contents (Elt F) → (⟨S330000x1, .i32⟩ : BufTy).Contents (Elt F)),
    binary main_v48 main_v84 main_v85 ((fun x i => Host.gather gather_S10000x64_S330000x1_S330000x64_1_0_n_n_0_1_164 x i) : (⟨S10000x64, .f32⟩ : BufTy).Contents (Elt F) → (⟨S330000x1, .i32⟩ : BufTy).Contents (Elt F) → (⟨S330000x64, .f32⟩ : BufTy).Contents (Elt F)),
    unary main_v78 main_v86 (broadcastInDim S330000x1 ![0] bcast_S330000_S330000x1_0 : (⟨S330000, .f32⟩ : BufTy).Contents (Elt F) → (⟨S330000x1, .f32⟩ : BufTy).Contents (Elt F)),
    unary main_v86 main_v87 (broadcastInDim S330000x64 ![0, 1] bcast_S330000x1_S330000x64_0_1 : (⟨S330000x1, .f32⟩ : BufTy).Contents (Elt F) → (⟨S330000x64, .f32⟩ : BufTy).Contents (Elt F)),
    binary main_v85 main_v87 main_v88 (mulf : (⟨S330000x64, .f32⟩ : BufTy).Contents (Elt F) → (⟨S330000x64, .f32⟩ : BufTy).Contents (Elt F) → (⟨S330000x64, .f32⟩ : BufTy).Contents (Elt F)),
    nullary main_cst_19 (constant S_ .f32 0x00000000#32),
    unary main_cst_19 main_v89 (broadcastInDim S10000x64 ![] bcast_S_S10000x64 : (⟨S_, .f32⟩ : BufTy).Contents (Elt F) → (⟨S10000x64, .f32⟩ : BufTy).Contents (Elt F)),
    unary main_v55 main_v90 (broadcastInDim S330000x1 ![0] bcast_S330000_S330000x1_0 : (⟨S330000, .i32⟩ : BufTy).Contents (Elt F) → (⟨S330000x1, .i32⟩ : BufTy).Contents (Elt F)),
    ternary main_v89 main_v90 main_v88 main_v91 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    unary main_arg5 main_v92 (broadcastInDim S1x64 ![1] bcast_S64_S1x64_1 : (⟨S64, .f32⟩ : BufTy).Contents (Elt F) → (⟨S1x64, .f32⟩ : BufTy).Contents (Elt F)),
    unary main_v92 main_v93 (broadcastInDim S10000x64 ![0, 1] bcast_S1x64_S10000x64_0_1 : (⟨S1x64, .f32⟩ : BufTy).Contents (Elt F) → (⟨S10000x64, .f32⟩ : BufTy).Contents (Elt F)),
    binary main_v91 main_v93 main_v94 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x64, .f32⟩) main_call3_v0) (broadcastInDim S10000x64 ![] bcast_S_S10000x64),
    TRef.binary (TRef.of (T := ⟨S10000x64, .f32⟩) main_v94) (TRef.of (T := ⟨S10000x64, .f32⟩) main_call3_v0) (TRef.of (T := ⟨S10000x64, .f32⟩) main_v95) maximumf,
    binary main_v95 main_arg6 main_v96 ((fun l r => Host.dotGeneral dot_S10000x64_S64x16_S10000x16_1_0_0_1_n_n none l r) : (⟨S10000x64, .f32⟩ : BufTy).Contents (Elt F) → (⟨S64x16, .f32⟩ : BufTy).Contents (Elt F) → (⟨S10000x16, .f32⟩ : BufTy).Contents (Elt F)),
    nullary main_v97 (iotaInDim S10000 32 0),
    unary main_arg1 main_v98 ((extractStridedSlice S1x320000 ![0, 0] · slices_S2x320000_S1x320000_0_0) : (⟨S2x320000, .i32⟩ : BufTy).Contents (Elt F) → (⟨S1x320000, .i32⟩ : BufTy).Contents (Elt F)),
    reshape main_v98 main_v99 rfl shapeCasts_S1x320000_S320000,
    binary main_v99 main_v97 main_v100 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    unary main_arg1 main_v101 ((extractStridedSlice S1x320000 ![1, 0] · slices_S2x320000_S1x320000_1_0) : (⟨S2x320000, .i32⟩ : BufTy).Contents (Elt F) → (⟨S1x320000, .i32⟩ : BufTy).Contents (Elt F)),
    reshape main_v101 main_v102 rfl shapeCasts_S1x320000_S320000,
    binary main_v102 main_v97 main_v103 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    nullary main_cst_20 (constant S_ .f32 0x3F800000#32),
    unary main_cst_20 main_v104 (broadcastInDim S330000 ![] bcast_S_S330000 : (⟨S_, .f32⟩ : BufTy).Contents (Elt F) → (⟨S330000, .f32⟩ : BufTy).Contents (Elt F)),
    nullary main_cst_21 (constant S_ .f32 0x00000000#32),
    unary main_cst_21 main_v105 (broadcastInDim S10000 ![] bcast_S_S10000 : (⟨S_, .f32⟩ : BufTy).Contents (Elt F) → (⟨S10000, .f32⟩ : BufTy).Contents (Elt F)),
    unary main_v103 main_v106 (broadcastInDim S330000x1 ![0] bcast_S330000_S330000x1_0 : (⟨S330000, .i32⟩ : BufTy).Contents (Elt F) → (⟨S330000x1, .i32⟩ : BufTy).Contents (Elt F)),
    ternary main_v105 main_v106 main_v104 main_v107 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_22 (constant S_ .f32 0x00000000#32),
    unary main_cst_22 main_v108 (broadcastInDim S10000 ![] bcast_S_S10000 : (⟨S_, .f32⟩ : BufTy).Contents (Elt F) → (⟨S10000, .f32⟩ : BufTy).Contents (Elt F)),
    binary main_v107 main_v108 main_v109 (cmpf .ogt : (⟨S10000, .f32⟩ : BufTy).Contents (Elt F) → (⟨S10000, .f32⟩ : BufTy).Contents (Elt F) → (⟨S10000, .i1⟩ : BufTy).Contents (Elt F)),
    unary main_v107 main_v110 (Host.rsqrt : (⟨S10000, .f32⟩ : BufTy).Contents (Elt F) → (⟨S10000, .f32⟩ : BufTy).Contents (Elt F)),
    nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S10000, .f32⟩) main_call4_v1) (broadcastInDim S10000 ![] bcast_S_S10000),
    TRef.ternary (TRef.of (T := ⟨S10000, .i1⟩) main_v109) (TRef.of (T := ⟨S10000, .f32⟩) main_v110) (TRef.of (T := ⟨S10000, .f32⟩) main_call4_v1) (TRef.of (T := ⟨S10000, .f32⟩) main_v111) select,
    nullary main_c_24 (constantI S_ 32 0#32),
    unary main_c_24 main_v112 (broadcastInDim S330000 ![] bcast_S_S330000 : (⟨S_, .i32⟩ : BufTy).Contents (Elt F) → (⟨S330000, .i32⟩ : BufTy).Contents (Elt F)),
    binary main_v100 main_v112 main_v113 (cmpi .slt : (⟨S330000, .i32⟩ : BufTy).Contents (Elt F) → (⟨S330000, .i32⟩ : BufTy).Contents (Elt F) → (⟨S330000, .i1⟩ : BufTy).Contents (Elt F)),
    nullary main_c_25 (constantI S_ 32 10000#32),
    unary main_c_25 main_v114 (broadcastInDim S330000 ![] bcast_S_S330000 : (⟨S_, .i32⟩ : BufTy).Contents (Elt F) → (⟨S330000, .i32⟩ : BufTy).Contents (Elt F)),
    binary main_v100 main_v114 main_v115 (addi : (⟨S330000, .i32⟩ : BufTy).Contents (Elt F) → (⟨S330000, .i32⟩ : BufTy).Contents (Elt F) → (⟨S330000, .i32⟩ : BufTy).Contents (Elt F)),
    ternary main_v113 main_v115 main_v100 main_v116 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v116 main_v117 (broadcastInDim S330000x1 ![0] bcast_S330000_S330000x1_0 : (⟨S330000, .i32⟩ : BufTy).Contents (Elt F) → (⟨S330000x1, .i32⟩ : BufTy).Contents (Elt F)),
    binary main_v111 main_v117 main_v118 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_26 (constantI S_ 32 0#32),
    unary main_c_26 main_v119 (broadcastInDim S330000 ![] bcast_S_S330000 : (⟨S_, .i32⟩ : BufTy).Contents (Elt F) → (⟨S330000, .i32⟩ : BufTy).Contents (Elt F)),
    binary main_v103 main_v119 main_v120 (cmpi .slt : (⟨S330000, .i32⟩ : BufTy).Contents (Elt F) → (⟨S330000, .i32⟩ : BufTy).Contents (Elt F) → (⟨S330000, .i1⟩ : BufTy).Contents (Elt F)),
    nullary main_c_27 (constantI S_ 32 10000#32),
    unary main_c_27 main_v121 (broadcastInDim S330000 ![] bcast_S_S330000 : (⟨S_, .i32⟩ : BufTy).Contents (Elt F) → (⟨S330000, .i32⟩ : BufTy).Contents (Elt F)),
    binary main_v103 main_v121 main_v122 (addi : (⟨S330000, .i32⟩ : BufTy).Contents (Elt F) → (⟨S330000, .i32⟩ : BufTy).Contents (Elt F) → (⟨S330000, .i32⟩ : BufTy).Contents (Elt F)),
    ternary main_v120 main_v122 main_v103 main_v123 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v123 main_v124 (broadcastInDim S330000x1 ![0] bcast_S330000_S330000x1_0 : (⟨S330000, .i32⟩ : BufTy).Contents (Elt F) → (⟨S330000x1, .i32⟩ : BufTy).Contents (Elt F)),
    binary main_v111 main_v124 main_v125 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v118 main_v125 main_v126 (mulf : (⟨S330000, .f32⟩ : BufTy).Contents (Elt F) → (⟨S330000, .f32⟩ : BufTy).Contents (Elt F) → (⟨S330000, .f32⟩ : BufTy).Contents (Elt F)),
    nullary main_c_28 (constantI S_ 32 0#32),
    unary main_c_28 main_v127 (broadcastInDim S330000 ![] bcast_S_S330000 : (⟨S_, .i32⟩ : BufTy).Contents (Elt F) → (⟨S330000, .i32⟩ : BufTy).Contents (Elt F)),
    binary main_v100 main_v127 main_v128 (cmpi .slt : (⟨S330000, .i32⟩ : BufTy).Contents (Elt F) → (⟨S330000, .i32⟩ : BufTy).Contents (Elt F) → (⟨S330000, .i1⟩ : BufTy).Contents (Elt F)),
    nullary main_c_29 (constantI S_ 32 10000#32),
    unary main_c_29 main_v129 (broadcastInDim S330000 ![] bcast_S_S330000 : (⟨S_, .i32⟩ : BufTy).Contents (Elt F) → (⟨S330000, .i32⟩ : BufTy).Contents (Elt F)),
    binary main_v100 main_v129 main_v130 (addi : (⟨S330000, .i32⟩ : BufTy).Contents (Elt F) → (⟨S330000, .i32⟩ : BufTy).Contents (Elt F) → (⟨S330000, .i32⟩ : BufTy).Contents (Elt F)),
    ternary main_v128 main_v130 main_v100 main_v131 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v131 main_v132 (broadcastInDim S330000x1 ![0] bcast_S330000_S330000x1_0 : (⟨S330000, .i32⟩ : BufTy).Contents (Elt F) → (⟨S330000x1, .i32⟩ : BufTy).Contents (Elt F)),
    binary main_v96 main_v132 main_v133 ((fun x i => Host.gather gather_S10000x16_S330000x1_S330000x16_1_0_n_n_0_1_116 x i) : (⟨S10000x16, .f32⟩ : BufTy).Contents (Elt F) → (⟨S330000x1, .i32⟩ : BufTy).Contents (Elt F) → (⟨S330000x16, .f32⟩ : BufTy).Contents (Elt F)),
    unary main_v126 main_v134 (broadcastInDim S330000x1 ![0] bcast_S330000_S330000x1_0 : (⟨S330000, .f32⟩ : BufTy).Contents (Elt F) → (⟨S330000x1, .f32⟩ : BufTy).Contents (Elt F)),
    unary main_v134 main_v135 (broadcastInDim S330000x16 ![0, 1] bcast_S330000x1_S330000x16_0_1 : (⟨S330000x1, .f32⟩ : BufTy).Contents (Elt F) → (⟨S330000x16, .f32⟩ : BufTy).Contents (Elt F)),
    binary main_v133 main_v135 main_v136 (mulf : (⟨S330000x16, .f32⟩ : BufTy).Contents (Elt F) → (⟨S330000x16, .f32⟩ : BufTy).Contents (Elt F) → (⟨S330000x16, .f32⟩ : BufTy).Contents (Elt F)),
    nullary main_cst_30 (constant S_ .f32 0x00000000#32),
    unary main_cst_30 main_v137 (broadcastInDim S10000x16 ![] bcast_S_S10000x16 : (⟨S_, .f32⟩ : BufTy).Contents (Elt F) → (⟨S10000x16, .f32⟩ : BufTy).Contents (Elt F)),
    unary main_v103 main_v138 (broadcastInDim S330000x1 ![0] bcast_S330000_S330000x1_0 : (⟨S330000, .i32⟩ : BufTy).Contents (Elt F) → (⟨S330000x1, .i32⟩ : BufTy).Contents (Elt F)),
    ternary main_v137 main_v138 main_v136 main_v139 ((fun x i u => Host.scatterAdd scatter_S10000x16_S330000x1_S330000x16_1_0_0_1 x i u) : (⟨S10000x16, .f32⟩ : BufTy).Contents (Elt F) → (⟨S330000x1, .i32⟩ : BufTy).Contents (Elt F) → (⟨S330000x16, .f32⟩ : BufTy).Contents (Elt F) → (⟨S10000x16, .f32⟩ : BufTy).Contents (Elt F)),
    unary main_arg7 main_v140 (broadcastInDim S1x16 ![1] bcast_S16_S1x16_1 : (⟨S16, .f32⟩ : BufTy).Contents (Elt F) → (⟨S1x16, .f32⟩ : BufTy).Contents (Elt F)),
    unary main_v140 main_v141 (broadcastInDim S10000x16 ![0, 1] bcast_S1x16_S10000x16_0_1 : (⟨S1x16, .f32⟩ : BufTy).Contents (Elt F) → (⟨S10000x16, .f32⟩ : BufTy).Contents (Elt F)),
    binary main_v139 main_v141 main_v142 (addf : (⟨S10000x16, .f32⟩ : BufTy).Contents (Elt F) → (⟨S10000x16, .f32⟩ : BufTy).Contents (Elt F) → (⟨S10000x16, .f32⟩ : BufTy).Contents (Elt F)),
    nullary main_cst_31 (constant S_ .f32 0xFF800000#32),
    binary main_v142 main_cst_31 main_v143 ((fun x v => Host.reduce FloatOps.maximumf x v reducesTo_S10000x16_S10000_d1 h_S_) : (⟨S10000x16, .f32⟩ : BufTy).Contents (Elt F) → (⟨S_, .f32⟩ : BufTy).Contents (Elt F) → (⟨S10000, .f32⟩ : BufTy).Contents (Elt F)),
    nullary main_cst_32 (constant S_ .f32 0xFF800000#32),
    unary main_cst_32 main_v144 (broadcastInDim S10000 ![] bcast_S_S10000 : (⟨S_, .f32⟩ : BufTy).Contents (Elt F) → (⟨S10000, .f32⟩ : BufTy).Contents (Elt F)),
    binary main_v144 main_v143 main_v145 (maximumf : (⟨S10000, .f32⟩ : BufTy).Contents (Elt F) → (⟨S10000, .f32⟩ : BufTy).Contents (Elt F) → (⟨S10000, .f32⟩ : BufTy).Contents (Elt F)),
    unary main_v145 main_v146 (broadcastInDim S10000x1 ![0] bcast_S10000_S10000x1_0 : (⟨S10000, .f32⟩ : BufTy).Contents (Elt F) → (⟨S10000x1, .f32⟩ : BufTy).Contents (Elt F)),
    unary main_v146 main_v147 (broadcastInDim S10000x16 ![0, 1] bcast_S10000x1_S10000x16_0_1 : (⟨S10000x1, .f32⟩ : BufTy).Contents (Elt F) → (⟨S10000x16, .f32⟩ : BufTy).Contents (Elt F)),
    binary main_v142 main_v147 main_v148 (subf : (⟨S10000x16, .f32⟩ : BufTy).Contents (Elt F) → (⟨S10000x16, .f32⟩ : BufTy).Contents (Elt F) → (⟨S10000x16, .f32⟩ : BufTy).Contents (Elt F)),
    unary main_v148 main_v149 (Host.exp : (⟨S10000x16, .f32⟩ : BufTy).Contents (Elt F) → (⟨S10000x16, .f32⟩ : BufTy).Contents (Elt F)),
    nullary main_cst_33 (constant S_ .f32 0x00000000#32),
    binary main_v149 main_cst_33 main_v150 ((fun x v => Host.reduceAdd x v reducesTo_S10000x16_S10000_d1 h_S_) : (⟨S10000x16, .f32⟩ : BufTy).Contents (Elt F) → (⟨S_, .f32⟩ : BufTy).Contents (Elt F) → (⟨S10000, .f32⟩ : BufTy).Contents (Elt F)),
    unary main_v150 main_v151 (broadcastInDim S10000x1 ![0] bcast_S10000_S10000x1_0 : (⟨S10000, .f32⟩ : BufTy).Contents (Elt F) → (⟨S10000x1, .f32⟩ : BufTy).Contents (Elt F)),
    unary main_v151 main_v152 (broadcastInDim S10000x16 ![0, 1] bcast_S10000x1_S10000x16_0_1 : (⟨S10000x1, .f32⟩ : BufTy).Contents (Elt F) → (⟨S10000x16, .f32⟩ : BufTy).Contents (Elt F)),
    binary main_v149 main_v152 main_v153 (Host.divf : (⟨S10000x16, .f32⟩ : BufTy).Contents (Elt F) → (⟨S10000x16, .f32⟩ : BufTy).Contents (Elt F) → (⟨S10000x16, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- The buffers the operations assign, in order. -/
abbrev assigned : List (Ref sig .tc) :=
  [main_v0, main_v1, main_v2, main_v3, main_v4, main_v5, main_v6, main_v7, main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_call1_cst, main_call1_v0, main_v47, main_v48, main_v49, main_v50, main_v51, main_v52, main_v53, main_v54, main_v55, main_cst_9, main_v56, main_cst_10, main_v57, main_v58, main_v59, main_cst_11, main_v60, main_v61, main_v62, main_cst_12, main_call2_v0, main_call2_v1, main_v63, main_c_13, main_v64, main_v65, main_c_14, main_v66, main_v67, main_v68, main_v69, main_v70, main_c_15, main_v71, main_v72, main_c_16, main_v73, main_v74, main_v75, main_v76, main_v77, main_v78, main_c_17, main_v79, main_v80, main_c_18, main_v81, main_v82, main_v83, main_v84, main_v85, main_v86, main_v87, main_v88, main_cst_19, main_v89, main_v90, main_v91, main_v92, main_v93, main_v94, main_call3_cst, main_call3_v0, main_v95, main_v96, main_v97, main_v98, main_v99, main_v100, main_v101, main_v102, main_v103, main_cst_20, main_v104, main_cst_21, main_v105, main_v106, main_v107, main_cst_22, main_v108, main_v109, main_v110, main_cst_23, main_call4_v0, main_call4_v1, main_v111, main_c_24, main_v112, main_v113, main_c_25, main_v114, main_v115, main_v116, main_v117, main_v118, main_c_26, main_v119, main_v120, main_c_27, main_v121, main_v122, main_v123, main_v124, main_v125, main_v126, main_c_28, main_v127, main_v128, main_c_29, main_v129, main_v130, main_v131, main_v132, main_v133, main_v134, main_v135, main_v136, main_cst_30, main_v137, main_v138, main_v139, main_v140, main_v141, main_v142, main_cst_31, main_v143, main_cst_32, main_v144, main_v145, main_v146, main_v147, main_v148, main_v149, main_cst_33, main_v150, main_v151, main_v152, main_v153]

set_option maxRecDepth 65536 in
/-- Their indices among the program's buffers are pairwise different. -/
theorem assigned_idx_nodup : ([8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139, 140, 141, 142, 143, 144, 145, 146, 147, 148, 149, 150, 151, 152, 153, 154, 155, 156, 157, 158, 159, 160, 161, 162, 163, 164, 165, 166, 167, 168, 169, 170, 171, 172, 173, 174, 175, 176, 177, 178, 179, 180, 181, 182, 183, 184, 185, 186, 187, 188, 189, 190, 191, 192, 193, 194, 195, 196, 197, 198, 199, 200, 201, 202, 203, 204, 205, 206, 207] : List Nat).Nodup := by decide

set_option maxRecDepth 65536 in
/-- The line is in single-assignment form. -/
theorem singleAssign : SingleAssign (ops (F := F)) assigned :=
  ⟨rfl, List.Nodup.of_map (fun r : Ref sig .tc => r.idx.val) (show (assigned.map fun r : Ref sig .tc => r.idx.val).Nodup from assigned_idx_nodup)⟩

set_option maxRecDepth 8192 in
set_option maxHeartbeats 4000000 in
/-- Every weakly fair execution of @main terminates, every buffer ending at the fold of the operations over the launch
    memory. -/
theorem run_line (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- An argument is assigned by no operation: it ends as launched. -/
theorem arg_kept (m : (ℓ : Loc nD τ sig) → Buf (Elt F) ℓ) (d : Dev nD) (r : Ref sig .tc) (hr : r ∉ assigned) :
    after (ops (F := F)) (launchContents m d) (Proc.devRef .tc r) = m ((d.tc : Thread nD τ).loc r) :=
  after_of_not_assigned singleAssign _ hr

/-- The run read at the result buffer and the eight arguments. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v153) = after ops (launchContents m c) (Proc.devRef .tc main_v153)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨h c main_v153,
     (h c main_arg0).trans (arg_kept m c main_arg0 (by decide)), (h c main_arg1).trans (arg_kept m c main_arg1 (by decide)),
     (h c main_arg2).trans (arg_kept m c main_arg2 (by decide)), (h c main_arg3).trans (arg_kept m c main_arg3 (by decide)),
     (h c main_arg4).trans (arg_kept m c main_arg4 (by decide)), (h c main_arg5).trans (arg_kept m c main_arg5 (by decide)),
     (h c main_arg6).trans (arg_kept m c main_arg6 (by decide)), (h c main_arg7).trans (arg_kept m c main_arg7 (by decide))⟩)
    (run_line m ρ)

end Cert.ReferenceIdeal.Line

end
-- ==== Proof.KernelIdealLine.lean ====
/-
  The host lines of the kernel program on either side of its region are, like the reference's, in single-assignment
  form. The valuation the later lines start from holds the region's three arrays at what the pipeline computes and every
  other buffer at what the region found; so a buffer that the later lines do not assign and the region does not stage ends
  at its region-entry contents, and the region's result array ends at the pipeline's value for it.
-/
import proofs.«144734_j48318382080226_1_alg».proof.Proof.KernelIdealRun
import proofs.«144734_j48318382080226_1_alg».proof.Proof.LibSingleAssign

set_option maxRecDepth 65536

noncomputable section

namespace Cert.KernelIdeal.Around

open Cert.KernelIdeal Cert.KernelIdeal.Gen
open Idealize.ShloMosaic Idealize.ShloMosaic.TcCoe Idealize.ShloMosaic.StableHlo
open Idealize.SL.Sem
open Idealize.ShloMosaic.Pipeline (Dat)

variable {F : FTy → Type} [FloatOps F]

theorem writtenBefore_idx_nodup : ([8, 9, 10, 11, 12, 13, 14, 15, 16, 17, 18, 19, 20, 21, 22, 23, 24, 25, 26, 27, 28, 29, 30, 31, 32, 33, 34, 35, 36, 37, 38, 39, 40, 41, 42, 43, 44, 45, 46, 47] : List Nat).Nodup := by decide
theorem writtenAfter_idx_nodup : ([49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] : List Nat).Nodup := by decide

/-- The lines before the region assign each of their result buffers once. -/
theorem singleAssignBefore : SingleAssign (linesBefore (F := F)).flatten writtenBefore :=
  ⟨linesBefore_writes, List.Nodup.of_map (fun r : Ref sig .tc => r.idx.val)
    (show (writtenBefore.map fun r : Ref sig .tc => r.idx.val).Nodup from writtenBefore_idx_nodup)⟩
/-- The lines after the region assign each of their result buffers once. -/
theorem singleAssignAfter : SingleAssign (linesAfter (F := F)).flatten writtenAfter :=
  ⟨linesAfter_writes, List.Nodup.of_map (fun r : Ref sig .tc => r.idx.val)
    (show (writtenAfter.map fun r : Ref sig .tc => r.idx.val).Nodup from writtenAfter_idx_nodup)⟩

variable (m : (ℓ : Loc nD τ sig) → Buf (Elt F) ℓ)

/-- Core `c`'s buffer contents when the region is left: its three arrays at what the pipeline computes, every other
    buffer as the region found it. -/
abbrev exitVal (c : Dev nD) : Valuation τ sig (Elt F) :=
  Pipeline.withArrays spec0 c (V0 m c) fun w => (dats m 0 c).arrAt w cfg0.N

/-- The end contents are the later lines applied to the exit contents. -/
theorem endAt_eq (c : Dev nD) (b : Ref sig .tc) :
    endAt m c b = after (linesAfter (F := F)).flatten (exitVal m c) (Proc.devRef .tc b) := rfl

/-- A buffer the later lines do not assign and the region does not stage ends as the region found it. -/
theorem final_of_bypass (c : Dev nD) (k : Ref sig .tc) (hk : k ∉ writtenAfter) (harr : ∀ w, Pipeline.arrRef spec0 w ≠ k) :
    after (linesAfter (F := F)).flatten (exitVal m c) (Proc.devRef .tc k)
      = after (linesBefore (F := F)).flatten (launchContents m c) (Proc.devRef .tc k) := by
  rw [after_of_not_assigned singleAssignAfter _ hk]
  exact Pipeline.withArrays_of_ne _ c (V0 m c) _ k harr

/-- The region's result array ends at the pipeline's value for it. -/
theorem final_of_out (c : Dev nD) :
    after (linesAfter (F := F)).flatten (exitVal m c) (Proc.devRef .tc main_v30) = (dats m 0 c).arrAt 2 cfg0.N := by
  rw [after_of_not_assigned singleAssignAfter _ (by decide : main_v30 ∉ writtenAfter)]
  exact Pipeline.withArrays_arr spec0 launch0.win.arr_inj c _ _ 2

/-- An argument that bypasses the region ends as launched. -/
theorem final_of_arg (c : Dev nD) (k : Ref sig .tc) (hb : k ∉ writtenBefore) (ha : k ∉ writtenAfter) (harr : ∀ w, Pipeline.arrRef spec0 w ≠ k) :
    after (linesAfter (F := F)).flatten (exitVal m c) (Proc.devRef .tc k) = m ((c.tc : Thread nD τ).loc k) :=
  (final_of_bypass m c k ha harr).trans (after_of_not_assigned singleAssignBefore _ hb)

end Cert.KernelIdeal.Around

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.KernelIdealProduct.lean ====
/-
  What the kernel region leaves in its result array, at the ideal instance. At grid point `t` the body stores, over rows
  200·t … 200·t + 199 of the result, the product of the same rows of the left operand with the whole right operand (the two
  changes of float format in front of the product are the identity on the extended reals, and the product accumulates
  from zero). The 50 row blocks tile the 10000 rows, so the array ends as the whole product: entry (r, j) is
  ∑ₖ x(r, k) · w(k, j).
-/
import proofs.«144734_j48318382080226_1_alg».proof.Proof.KernelIdealRun
import proofs.«144734_j48318382080226_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Around

open Cert.KernelIdeal Cert.KernelIdeal.Gen
open Idealize.ShloMosaic Idealize.ShloMosaic.TcCoe Idealize.ShloMosaic.ValueIdx
open Idealize.SL.Sem
open Idealize.ShloMosaic.Pipeline (Dat)

/-- The matrix product of a 10000 × 10000 with a 10000 × 64 array of extended reals, entry by entry. -/
def product (x : S10000x10000.Idx → EReal) (w : S10000x64.Idx → EReal) : S10000x64.Idx → EReal :=
  fun i => ∑ k : Fin 10000, x (ix2 (i 0) k) * w (ix2 k (i 1))

/-- The body's payload at an entry of the block: the product of the loaded blocks there. -/
theorem payload_apply (x0 : Vec Ideal S200x10000 .f32) (x1 : Vec Ideal S10000x64 .f32) (p : Fin 200) (q : Fin 64) :
    k0_pay1 (F := Ideal) x0 x1 (ix2 p q) = ∑ k : Fin 10000, x0 (ix2 p k) * x1 (ix2 k q) := by
  unfold k0_pay1
  exact Cert.Lib.PlainDot.matmul_zero_apply (M := 200) (K := 10000) (N := 64) none _ _ p q

theorem origin2 : (![0, 0] : Fin 2 → Nat) = fun _ => 0 := funext fun a => by fin_cases a <;> rfl

/-- The printed index maps over the grid: the left operand's and the result's row block is the point, everything else
    block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (m : (ℓ : Loc nD τ sig) → Buf (Elt Ideal) ℓ)

/-- What point `t` writes back is block `t` of the whole product of the two operand arrays. -/
theorem flushed_out (c : Dev nD) (t : Fin cfg0.N) :
    (dats m 0 c).flushed 2 t = ((cfg0.win 2).blk t).view.read (Elt Ideal) (product (V m c main_arg0) (V m c main_arg2)) := by
  show (cfg0.win 2).cut (grid0.coords t) ((dats m 0 c).after 2 t) = _
  rw [after_out]
  unfold productBlock
  rw [View.canon_unit_zero origin2]
  simp only [View.ld_unit_zero (S := S200x10000) origin2, View.ld_unit_zero (S := S10000x64) origin2]
  obtain ⟨e0, e1, e2, e3, e4, e5⟩ := index_facts t
  refine funext fun (j : S200x64.Idx) => ?_
  obtain ⟨p, q, rfl⟩ : ∃ (p : Fin 200) (q : Fin 64), j = ix2 p q := ⟨j 0, j 1, eq_ix2 j⟩
  show k0_pay1 (F := Ideal) (blockAt m c 0 t) (blockAt m c 1 t) (ix2 p q)
    = product (V m c main_arg0) (V m c main_arg2) (((cfg0.win 2).blk t).view.emb (ix2 p q))
  rw [payload_apply]
  unfold product
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 200 + 1 * p.val = win0_2.index t (0 : Fin 2) * 200 + 1 * p.val; omega
    | ⟨1, _⟩ => show win0_0.index t (1 : Fin 2) * 10000 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 10000 + 1 * k.val = k.val; omega
    | ⟨1, _⟩ => show win0_1.index t (1 : Fin 2) * 64 + 1 * q.val = win0_2.index t (1 : Fin 2) * 64 + 1 * q.val; omega
  refine congrArg₂ (HMul.hMul (α := EReal) (β := EReal)) ?_ ?_
  · show V m c main_arg0 (((cfg0.win 0).blk t).view.emb (ix2 p k)) = _
    exact congrArg (V m c main_arg0) h0
  · show V m c main_arg2 (((cfg0.win 1).blk t).view.emb (ix2 k q)) = _
    exact congrArg (V m c main_arg2) h1

/-- An index of the result array is in point `t`'s block iff each coordinate is in the block's range on its axis. -/
theorem mem_block_out (t : Fin cfg0.N) (i : S10000x64.Idx) :
    i ∈ ((cfg0.win 2).blk t).view.set ↔ ∀ a : Fin 2, win0_2.index t a * S200x64.size a ≤ (i a).val ∧ (i a).val < win0_2.index t a * S200x64.size a + S200x64.size a := by
  show i ∈ ((View.whole main_v30).slice (win0_2.rect t)).set ↔ _
  rw [View.set_slice_whole, Rect.mem_set_unit]
  exact Iff.rfl

/-- The 50 row blocks cover the array: row `r` is in the block of point `r / 200`. -/
theorem covered (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  have hN : cfg0.N = 50 := N_0
  let t : Fin cfg0.N := ⟨(i 0).val / 200, by rw [hN]; omega⟩
  obtain ⟨e0, e1, e2, e3, e4, e5⟩ := index_facts t
  have ht : t.val = (i 0).val / 200 := rfl
  refine ⟨t, flush0_2 t, ?_⟩
  rw [mem_block_out]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 64 ≤ (i 1).val ∧ (i 1).val < win0_2.index t (1 : Fin 2) * 64 + 64; omega

/-- The result array after the region is the whole product of the two operand arrays as launched. -/
theorem out_array (c : Dev nD) :
    (dats m 0 c).arrAt 2 cfg0.N = product (m ((c.tc : Thread nD τ).loc main_arg0)) (m ((c.tc : Thread nD τ).loc main_arg2)) := by
  rw [(dats m 0 c).arrAt_eq_of_cover 2 (product (V m c main_arg0) (V m c main_arg2)) (fun t _ => flushed_out m c t) covered,
    V_of_not_written m c main_arg0 (by decide), V_of_not_written m c main_arg2 (by decide)]

end Cert.KernelIdeal.Around

end
-- ==== Proof.Compare.lean ====
/-
  The two idealized programs compute the same result. Apart from the first matrix product — a kernel region on one side,
  one host operation on the other, both the sum over the contracted coordinate — the two programs are the same graph of
  host operations: three rounds of (gather the rows at the edges' sources, scale by the symmetric degree normalization,
  scatter-add to the edges' targets, add the bias), a relu after the first two, a dense product before the last two, a
  softmax over each row at the end. The reference recomputes the edge lists, the degrees and the normalization in every
  round; the kernel program computes them once. Both lines are in single-assignment form, so the final value of every
  variable is its operation's function of the final values of its operands; the lemmas below pair each variable of the
  reference with the variable of the kernel program that is the same function of the same operands (a variable the
  reference recomputes is paired with the kernel program's one copy), operands first, and end at the pair of results.
-/
import proofs.«144734_j48318382080226_1_alg».proof.Proof.ReferenceLine
import proofs.«144734_j48318382080226_1_alg».proof.Proof.KernelIdealLine
import proofs.«144734_j48318382080226_1_alg».proof.Proof.KernelIdealProduct
import proofs.«144734_j48318382080226_1_alg».proof.Proof.LibPlainDot
import proofs.«144734_j48318382080226_1_alg».proof.Proof.LibSingleAssign

set_option maxRecDepth 65536

noncomputable section

namespace Cert.Proof.Compare

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))

-- the final value of a reference variable
set_option quotPrecheck false in
local notation "rfin(" r ")" => after (Cert.ReferenceIdeal.Line.ops (F := Ideal)) (launchContents m' c) (Proc.devRef Proc.tc r)
-- the final value of a variable of the kernel program
set_option quotPrecheck false in
local notation "kfin(" k ")" => after (List.flatten (Cert.KernelIdeal.Around.linesAfter (F := Ideal))) (Cert.KernelIdeal.Around.exitVal m c) (Proc.devRef Proc.tc k)

include hag

theorem eq_main_cst_30__main_cst_14 : rfin(Cert.ReferenceIdeal.main_cst_30) = kfin(Cert.KernelIdeal.main_cst_14) := by
  rw [final_nullary Cert.ReferenceIdeal.Line.singleAssign (launchContents m' c) 179  (y := Cert.ReferenceIdeal.main_cst_30) rfl rfl ,
    final_nullary Cert.KernelIdeal.Around.singleAssignAfter (Cert.KernelIdeal.Around.exitVal m c) 58  (y := Cert.KernelIdeal.main_cst_14) rfl rfl ]
  try rfl

theorem eq_main_v137__main_v77 : rfin(Cert.ReferenceIdeal.main_v137) = kfin(Cert.KernelIdeal.main_v77) := by
  rw [final_unary Cert.ReferenceIdeal.Line.singleAssign (launchContents m' c) 180 (x := Cert.ReferenceIdeal.main_cst_30) (y := Cert.ReferenceIdeal.main_v137) rfl rfl (after_take_of_lt Cert.ReferenceIdeal.Line.singleAssign _ (i := 179) rfl (by decide)),
    final_unary Cert.KernelIdeal.Around.singleAssignAfter (Cert.KernelIdeal.Around.exitVal m c) 59 (x := Cert.KernelIdeal.main_cst_14) (y := Cert.KernelIdeal.main_v77) rfl rfl (after_take_of_lt Cert.KernelIdeal.Around.singleAssignAfter _ (i := 58) rfl (by decide)),
    eq_main_cst_30__main_cst_14 m m' c hag]
  try rfl

theorem eq_main_arg1__main_arg1 : rfin(Cert.ReferenceIdeal.main_arg1) = kfin(Cert.KernelIdeal.main_arg1) := by
  rw [Cert.ReferenceIdeal.Line.arg_kept m' c Cert.ReferenceIdeal.main_arg1 (by decide), Cert.KernelIdeal.Around.final_of_arg m c Cert.KernelIdeal.main_arg1 (by decide) (by decide) (by decide)]
  exact hag.2.1

theorem eq_main_v101__main_v4 : rfin(Cert.ReferenceIdeal.main_v101) = kfin(Cert.KernelIdeal.main_v4) := by
  rw [final_unary Cert.ReferenceIdeal.Line.singleAssign (launchContents m' c) 131 (x := Cert.ReferenceIdeal.main_arg1) (y := Cert.ReferenceIdeal.main_v101) rfl rfl (after_take_of_not_assigned Cert.ReferenceIdeal.Line.singleAssign _ 131 (by decide)),
    Cert.KernelIdeal.Around.final_of_bypass m c Cert.KernelIdeal.main_v4 (by decide) (by decide),
    final_unary Cert.KernelIdeal.Around.singleAssignBefore (launchContents m c) 4 (x := Cert.KernelIdeal.main_arg1) (y := Cert.KernelIdeal.main_v4) rfl rfl (after_take_of_not_assigned Cert.KernelIdeal.Around.singleAssignBefore _ 4 (by decide)),
    eq_main_arg1__main_arg1 m m' c hag,
    Cert.KernelIdeal.Around.final_of_bypass m c Cert.KernelIdeal.main_arg1 (by decide) (by decide)]
  try rfl

theorem eq_main_v102__main_v5 : rfin(Cert.ReferenceIdeal.main_v102) = kfin(Cert.KernelIdeal.main_v5) := by
  rw [final_reshape Cert.ReferenceIdeal.Line.singleAssign (launchContents m' c) 132 (x := Cert.ReferenceIdeal.main_v101) (y := Cert.ReferenceIdeal.main_v102) rfl rfl (after_take_of_lt Cert.ReferenceIdeal.Line.singleAssign _ (i := 131) rfl (by decide)),
    Cert.KernelIdeal.Around.final_of_bypass m c Cert.KernelIdeal.main_v5 (by decide) (by decide),
    final_reshape Cert.KernelIdeal.Around.singleAssignBefore (launchContents m c) 5 (x := Cert.KernelIdeal.main_v4) (y := Cert.KernelIdeal.main_v5) rfl rfl (after_take_of_lt Cert.KernelIdeal.Around.singleAssignBefore _ (i := 4) rfl (by decide)),
    eq_main_v101__main_v4 m m' c hag,
    Cert.KernelIdeal.Around.final_of_bypass m c Cert.KernelIdeal.main_v4 (by decide) (by decide)]
  try rfl

theorem eq_main_v97__main_v0 : rfin(Cert.ReferenceIdeal.main_v97) = kfin(Cert.KernelIdeal.main_v0) := by
  rw [final_nullary Cert.ReferenceIdeal.Line.singleAssign (launchContents m' c) 127  (y := Cert.ReferenceIdeal.main_v97) rfl rfl ,
    Cert.KernelIdeal.Around.final_of_bypass m c Cert.KernelIdeal.main_v0 (by decide) (by decide),
    final_nullary Cert.KernelIdeal.Around.singleAssignBefore (launchContents m c) 0  (y := Cert.KernelIdeal.main_v0) rfl rfl ]
  try rfl

theorem eq_main_v103__main_v6 : rfin(Cert.ReferenceIdeal.main_v103) = kfin(Cert.KernelIdeal.main_v6) := by
  rw [final_binary Cert.ReferenceIdeal.Line.singleAssign (launchContents m' c) 133 (a := Cert.ReferenceIdeal.main_v102) (b := Cert.ReferenceIdeal.main_v97) (y := Cert.ReferenceIdeal.main_v103) rfl rfl (after_take_of_lt Cert.ReferenceIdeal.Line.singleAssign _ (i := 132) rfl (by decide)) (after_take_of_lt Cert.ReferenceIdeal.Line.singleAssign _ (i := 127) rfl (by decide)),
    Cert.KernelIdeal.Around.final_of_bypass m c Cert.KernelIdeal.main_v6 (by decide) (by decide),
    final_binary Cert.KernelIdeal.Around.singleAssignBefore (launchContents m c) 6 (a := Cert.KernelIdeal.main_v5) (b := Cert.KernelIdeal.main_v0) (y := Cert.KernelIdeal.main_v6) rfl rfl (after_take_of_lt Cert.KernelIdeal.Around.singleAssignBefore _ (i := 5) rfl (by decide)) (after_take_of_lt Cert.KernelIdeal.Around.singleAssignBefore _ (i := 0) rfl (by decide)),
    eq_main_v102__main_v5 m m' c hag,
    eq_main_v97__main_v0 m m' c hag,
    Cert.KernelIdeal.Around.final_of_bypass m c Cert.KernelIdeal.main_v5 (by decide) (by decide),
    Cert.KernelIdeal.Around.final_of_bypass m c Cert.KernelIdeal.main_v0 (by decide) (by decide)]
  try rfl

theorem eq_main_v138__main_v78 : rfin(Cert.ReferenceIdeal.main_v138) = kfin(Cert.KernelIdeal.main_v78) := by
  rw [final_unary Cert.ReferenceIdeal.Line.singleAssign (launchContents m' c) 181 (x := Cert.ReferenceIdeal.main_v103) (y := Cert.ReferenceIdeal.main_v138) rfl rfl (after_take_of_lt Cert.ReferenceIdeal.Line.singleAssign _ (i := 133) rfl (by decide)),
    final_unary Cert.KernelIdeal.Around.singleAssignAfter (Cert.KernelIdeal.Around.exitVal m c) 60 (x := Cert.KernelIdeal.main_v6) (y := Cert.KernelIdeal.main_v78) rfl rfl (after_take_of_not_assigned Cert.KernelIdeal.Around.singleAssignAfter _ 60 (by decide)),
    eq_main_v103__main_v6 m m' c hag]
  try rfl

theorem eq_main_cst_19__main_cst_11 : rfin(Cert.ReferenceIdeal.main_cst_19) = kfin(Cert.KernelIdeal.main_cst_11) := by
  rw [final_nullary Cert.ReferenceIdeal.Line.singleAssign (launchContents m' c) 116  (y := Cert.ReferenceIdeal.main_cst_19) rfl rfl ,
    final_nullary Cert.KernelIdeal.Around.singleAssignAfter (Cert.KernelIdeal.Around.exitVal m c) 35  (y := Cert.KernelIdeal.main_cst_11) rfl rfl ]
  try rfl

theorem eq_main_v89__main_v59 : rfin(Cert.ReferenceIdeal.main_v89) = kfin(Cert.KernelIdeal.main_v59) := by
  rw [final_unary Cert.ReferenceIdeal.Line.singleAssign (launchContents m' c) 117 (x := Cert.ReferenceIdeal.main_cst_19) (y := Cert.ReferenceIdeal.main_v89) rfl rfl (after_take_of_lt Cert.ReferenceIdeal.Line.singleAssign _ (i := 116) rfl (by decide)),
    final_unary Cert.KernelIdeal.Around.singleAssignAfter (Cert.KernelIdeal.Around.exitVal m c) 36 (x := Cert.KernelIdeal.main_cst_11) (y := Cert.KernelIdeal.main_v59) rfl rfl (after_take_of_lt Cert.KernelIdeal.Around.singleAssignAfter _ (i := 35) rfl (by decide)),
    eq_main_cst_19__main_cst_11 m m' c hag]
  try rfl

theorem eq_main_v53__main_v4 : rfin(Cert.ReferenceIdeal.main_v53) = kfin(Cert.KernelIdeal.main_v4) := by
  rw [final_unary Cert.ReferenceIdeal.Line.singleAssign (launchContents m' c) 68 (x := Cert.ReferenceIdeal.main_arg1) (y := Cert.ReferenceIdeal.main_v53) rfl rfl (after_take_of_not_assigned Cert.ReferenceIdeal.Line.singleAssign _ 68 (by decide)),
    Cert.KernelIdeal.Around.final_of_bypass m c Cert.KernelIdeal.main_v4 (by decide) (by decide),
    final_unary Cert.KernelIdeal.Around.singleAssignBefore (launchContents m c) 4 (x := Cert.KernelIdeal.main_arg1) (y := Cert.KernelIdeal.main_v4) rfl rfl (after_take_of_not_assigned Cert.KernelIdeal.Around.singleAssignBefore _ 4 (by decide)),
    eq_main_arg1__main_arg1 m m' c hag,
    Cert.KernelIdeal.Around.final_of_bypass m c Cert.KernelIdeal.main_arg1 (by decide) (by decide)]
  try rfl

theorem eq_main_v54__main_v5 : rfin(Cert.ReferenceIdeal.main_v54) = kfin(Cert.KernelIdeal.main_v5) := by
  rw [final_reshape Cert.ReferenceIdeal.Line.singleAssign (launchContents m' c) 69 (x := Cert.ReferenceIdeal.main_v53) (y := Cert.ReferenceIdeal.main_v54) rfl rfl (after_take_of_lt Cert.ReferenceIdeal.Line.singleAssign _ (i := 68) rfl (by decide)),
    Cert.KernelIdeal.Around.final_of_bypass m c Cert.KernelIdeal.main_v5 (by decide) (by decide),
    final_reshape Cert.KernelIdeal.Around.singleAssignBefore (launchContents m c) 5 (x := Cert.KernelIdeal.main_v4) (y := Cert.KernelIdeal.main_v5) rfl rfl (after_take_of_lt Cert.KernelIdeal.Around.singleAssignBefore _ (i := 4) rfl (by decide)),
    eq_main_v53__main_v4 m m' c hag,
    Cert.KernelIdeal.Around.final_of_bypass m c Cert.KernelIdeal.main_v4 (by decide) (by decide)]
  try rfl

theorem eq_main_v49__main_v0 : rfin(Cert.ReferenceIdeal.main_v49) = kfin(Cert.KernelIdeal.main_v0) := by
  rw [final_nullary Cert.ReferenceIdeal.Line.singleAssign (launchContents m' c) 64  (y := Cert.ReferenceIdeal.main_v49) rfl rfl ,
    Cert.KernelIdeal.Around.final_of_bypass m c Cert.KernelIdeal.main_v0 (by decide) (by decide),
    final_nullary Cert.KernelIdeal.Around.singleAssignBefore (launchContents m c) 0  (y := Cert.KernelIdeal.main_v0) rfl rfl ]
  try rfl

theorem eq_main_v55__main_v6 : rfin(Cert.ReferenceIdeal.main_v55) = kfin(Cert.KernelIdeal.main_v6) := by
  rw [final_binary Cert.ReferenceIdeal.Line.singleAssign (launchContents m' c) 70 (a := Cert.ReferenceIdeal.main_v54) (b := Cert.ReferenceIdeal.main_v49) (y := Cert.ReferenceIdeal.main_v55) rfl rfl (after_take_of_lt Cert.ReferenceIdeal.Line.singleAssign _ (i := 69) rfl (by decide)) (after_take_of_lt Cert.ReferenceIdeal.Line.singleAssign _ (i := 64) rfl (by decide)),
    Cert.KernelIdeal.Around.final_of_bypass m c Cert.KernelIdeal.main_v6 (by decide) (by decide),
    final_binary Cert.KernelIdeal.Around.singleAssignBefore (launchContents m c) 6 (a := Cert.KernelIdeal.main_v5) (b := Cert.KernelIdeal.main_v0) (y := Cert.KernelIdeal.main_v6) rfl rfl (after_take_of_lt Cert.KernelIdeal.Around.singleAssignBefore _ (i := 5) rfl (by decide)) (after_take_of_lt Cert.KernelIdeal.Around.singleAssignBefore _ (i := 0) rfl (by decide)),
    eq_main_v54__main_v5 m m' c hag,
    eq_main_v49__main_v0 m m' c hag,
    Cert.KernelIdeal.Around.final_of_bypass m c Cert.KernelIdeal.main_v5 (by decide) (by decide),
    Cert.KernelIdeal.Around.final_of_bypass m c Cert.KernelIdeal.main_v0 (by decide) (by decide)]
  try rfl

theorem eq_main_v90__main_v60 : rfin(Cert.ReferenceIdeal.main_v90) = kfin(Cert.KernelIdeal.main_v60) := by
  rw [final_unary Cert.ReferenceIdeal.Line.singleAssign (launchContents m' c) 118 (x := Cert.ReferenceIdeal.main_v55) (y := Cert.ReferenceIdeal.main_v90) rfl rfl (after_take_of_lt Cert.ReferenceIdeal.Line.singleAssign _ (i := 70) rfl (by decide)),
    final_unary Cert.KernelIdeal.Around.singleAssignAfter (Cert.KernelIdeal.Around.exitVal m c) 37 (x := Cert.KernelIdeal.main_v6) (y := Cert.KernelIdeal.main_v60) rfl rfl (after_take_of_not_assigned Cert.KernelIdeal.Around.singleAssignAfter _ 37 (by decide)),
    eq_main_v55__main_v6 m m' c hag]
  try rfl

theorem eq_main_cst_8__main_cst_8 : rfin(Cert.ReferenceIdeal.main_cst_8) = kfin(Cert.KernelIdeal.main_cst_8) := by
  rw [final_nullary Cert.ReferenceIdeal.Line.singleAssign (launchContents m' c) 53  (y := Cert.ReferenceIdeal.main_cst_8) rfl rfl ,
    final_nullary Cert.KernelIdeal.Around.singleAssignAfter (Cert.KernelIdeal.Around.exitVal m c) 12  (y := Cert.KernelIdeal.main_cst_8) rfl rfl ]
  try rfl

theorem eq_main_v41__main_v41 : rfin(Cert.ReferenceIdeal.main_v41) = kfin(Cert.KernelIdeal.main_v41) := by
  rw [final_unary Cert.ReferenceIdeal.Line.singleAssign (launchContents m' c) 54 (x := Cert.ReferenceIdeal.main_cst_8) (y := Cert.ReferenceIdeal.main_v41) rfl rfl (after_take_of_lt Cert.ReferenceIdeal.Line.singleAssign _ (i := 53) rfl (by decide)),
    final_unary Cert.KernelIdeal.Around.singleAssignAfter (Cert.KernelIdeal.Around.exitVal m c) 13 (x := Cert.KernelIdeal.main_cst_8) (y := Cert.KernelIdeal.main_v41) rfl rfl (after_take_of_lt Cert.KernelIdeal.Around.singleAssignAfter _ (i := 12) rfl (by decide)),
    eq_main_cst_8__main_cst_8 m m' c hag]
  try rfl

theorem eq_main_v5__main_v4 : rfin(Cert.ReferenceIdeal.main_v5) = kfin(Cert.KernelIdeal.main_v4) := by
  rw [final_unary Cert.ReferenceIdeal.Line.singleAssign (launchContents m' c) 5 (x := Cert.ReferenceIdeal.main_arg1) (y := Cert.ReferenceIdeal.main_v5) rfl rfl (after_take_of_not_assigned Cert.ReferenceIdeal.Line.singleAssign _ 5 (by decide)),
    Cert.KernelIdeal.Around.final_of_bypass m c Cert.KernelIdeal.main_v4 (by decide) (by decide),
    final_unary Cert.KernelIdeal.Around.singleAssignBefore (launchContents m c) 4 (x := Cert.KernelIdeal.main_arg1) (y := Cert.KernelIdeal.main_v4) rfl rfl (after_take_of_not_assigned Cert.KernelIdeal.Around.singleAssignBefore _ 4 (by decide)),
    eq_main_arg1__main_arg1 m m' c hag,
    Cert.KernelIdeal.Around.final_of_bypass m c Cert.KernelIdeal.main_arg1 (by decide) (by decide)]
  try rfl

theorem eq_main_v6__main_v5 : rfin(Cert.ReferenceIdeal.main_v6) = kfin(Cert.KernelIdeal.main_v5) := by
  rw [final_reshape Cert.ReferenceIdeal.Line.singleAssign (launchContents m' c) 6 (x := Cert.ReferenceIdeal.main_v5) (y := Cert.ReferenceIdeal.main_v6) rfl rfl (after_take_of_lt Cert.ReferenceIdeal.Line.singleAssign _ (i := 5) rfl (by decide)),
    Cert.KernelIdeal.Around.final_of_bypass m c Cert.KernelIdeal.main_v5 (by decide) (by decide),
    final_reshape Cert.KernelIdeal.Around.singleAssignBefore (launchContents m c) 5 (x := Cert.KernelIdeal.main_v4) (y := Cert.KernelIdeal.main_v5) rfl rfl (after_take_of_lt Cert.KernelIdeal.Around.singleAssignBefore _ (i := 4) rfl (by decide)),
    eq_main_v5__main_v4 m m' c hag,
    Cert.KernelIdeal.Around.final_of_bypass m c Cert.KernelIdeal.main_v4 (by decide) (by decide)]
  try rfl

theorem eq_main_v1__main_v0 : rfin(Cert.ReferenceIdeal.main_v1) = kfin(Cert.KernelIdeal.main_v0) := by
  rw [final_nullary Cert.ReferenceIdeal.Line.singleAssign (launchContents m' c) 1  (y := Cert.ReferenceIdeal.main_v1) rfl rfl ,
    Cert.KernelIdeal.Around.final_of_bypass m c Cert.KernelIdeal.main_v0 (by decide) (by decide),
    final_nullary Cert.KernelIdeal.Around.singleAssignBefore (launchContents m c) 0  (y := Cert.KernelIdeal.main_v0) rfl rfl ]
  try rfl

theorem eq_main_v7__main_v6 : rfin(Cert.ReferenceIdeal.main_v7) = kfin(Cert.KernelIdeal.main_v6) := by
  rw [final_binary Cert.ReferenceIdeal.Line.singleAssign (launchContents m' c) 7 (a := Cert.ReferenceIdeal.main_v6) (b := Cert.ReferenceIdeal.main_v1) (y := Cert.ReferenceIdeal.main_v7) rfl rfl (after_take_of_lt Cert.ReferenceIdeal.Line.singleAssign _ (i := 6) rfl (by decide)) (after_take_of_lt Cert.ReferenceIdeal.Line.singleAssign _ (i := 1) rfl (by decide)),
    Cert.KernelIdeal.Around.final_of_bypass m c Cert.KernelIdeal.main_v6 (by decide) (by decide),
    final_binary Cert.KernelIdeal.Around.singleAssignBefore (launchContents m c) 6 (a := Cert.KernelIdeal.main_v5) (b := Cert.KernelIdeal.main_v0) (y := Cert.KernelIdeal.main_v6) rfl rfl (after_take_of_lt Cert.KernelIdeal.Around.singleAssignBefore _ (i := 5) rfl (by decide)) (after_take_of_lt Cert.KernelIdeal.Around.singleAssignBefore _ (i := 0) rfl (by decide)),
    eq_main_v6__main_v5 m m' c hag,
    eq_main_v1__main_v0 m m' c hag,
    Cert.KernelIdeal.Around.final_of_bypass m c Cert.KernelIdeal.main_v5 (by decide) (by decide),
    Cert.KernelIdeal.Around.final_of_bypass m c Cert.KernelIdeal.main_v0 (by decide) (by decide)]
  try rfl

theorem eq_main_v42__main_v42 : rfin(Cert.ReferenceIdeal.main_v42) = kfin(Cert.KernelIdeal.main_v42) := by
  rw [final_unary Cert.ReferenceIdeal.Line.singleAssign (launchContents m' c) 55 (x := Cert.ReferenceIdeal.main_v7) (y := Cert.ReferenceIdeal.main_v42) rfl rfl (after_take_of_lt Cert.ReferenceIdeal.Line.singleAssign _ (i := 7) rfl (by decide)),
    final_unary Cert.KernelIdeal.Around.singleAssignAfter (Cert.KernelIdeal.Around.exitVal m c) 14 (x := Cert.KernelIdeal.main_v6) (y := Cert.KernelIdeal.main_v42) rfl rfl (after_take_of_not_assigned Cert.KernelIdeal.Around.singleAssignAfter _ 14 (by decide)),
    eq_main_v7__main_v6 m m' c hag]
  try rfl

/-- The reference's first operation is the product of the two operands on the host; the kernel's region leaves the same
    product in its result array: both are, entry by entry, the sum over the contracted coordinate. -/
theorem eq_main_v0__main_v30 : rfin(Cert.ReferenceIdeal.main_v0) = kfin(Cert.KernelIdeal.main_v30) := by
  rw [final_binary Cert.ReferenceIdeal.Line.singleAssign (launchContents m' c) 0 (a := Cert.ReferenceIdeal.main_arg0) (b := Cert.ReferenceIdeal.main_arg2) (y := Cert.ReferenceIdeal.main_v0) rfl rfl
      (after_take_of_not_assigned Cert.ReferenceIdeal.Line.singleAssign _ 0 (by decide)) (after_take_of_not_assigned Cert.ReferenceIdeal.Line.singleAssign _ 0 (by decide)),
    Cert.ReferenceIdeal.Line.arg_kept m' c Cert.ReferenceIdeal.main_arg0 (by decide), Cert.ReferenceIdeal.Line.arg_kept m' c Cert.ReferenceIdeal.main_arg2 (by decide),
    Cert.KernelIdeal.Around.final_of_out m c, Cert.KernelIdeal.Around.out_array m c, hag.1, hag.2.2.1]
  refine funext fun (i : Cert.KernelIdeal.S10000x64.Idx) => ?_
  obtain ⟨p, q, rfl⟩ : ∃ (p : Fin 10000) (q : Fin 64), i = ValueIdx.ix2 p q := ⟨i 0, i 1, ValueIdx.eq_ix2 i⟩
  exact Cert.Lib.PlainDot.dotGeneral_apply (M := 10000) (K := 10000) (N := 64) none .single _ _ p q

theorem eq_main_v2__main_v1 : rfin(Cert.ReferenceIdeal.main_v2) = kfin(Cert.KernelIdeal.main_v1) := by
  rw [final_unary Cert.ReferenceIdeal.Line.singleAssign (launchContents m' c) 2 (x := Cert.ReferenceIdeal.main_arg1) (y := Cert.ReferenceIdeal.main_v2) rfl rfl (after_take_of_not_assigned Cert.ReferenceIdeal.Line.singleAssign _ 2 (by decide)),
    Cert.KernelIdeal.Around.final_of_bypass m c Cert.KernelIdeal.main_v1 (by decide) (by decide),
    final_unary Cert.KernelIdeal.Around.singleAssignBefore (launchContents m c) 1 (x := Cert.KernelIdeal.main_arg1) (y := Cert.KernelIdeal.main_v1) rfl rfl (after_take_of_not_assigned Cert.KernelIdeal.Around.singleAssignBefore _ 1 (by decide)),
    eq_main_arg1__main_arg1 m m' c hag,
    Cert.KernelIdeal.Around.final_of_bypass m c Cert.KernelIdeal.main_arg1 (by decide) (by decide)]
  try rfl

theorem eq_main_v3__main_v2 : rfin(Cert.ReferenceIdeal.main_v3) = kfin(Cert.KernelIdeal.main_v2) := by
  rw [final_reshape Cert.ReferenceIdeal.Line.singleAssign (launchContents m' c) 3 (x := Cert.ReferenceIdeal.main_v2) (y := Cert.ReferenceIdeal.main_v3) rfl rfl (after_take_of_lt Cert.ReferenceIdeal.Line.singleAssign _ (i := 2) rfl (by decide)),
    Cert.KernelIdeal.Around.final_of_bypass m c Cert.KernelIdeal.main_v2 (by decide) (by decide),
    final_reshape Cert.KernelIdeal.Around.singleAssignBefore (launchContents m c) 2 (x := Cert.KernelIdeal.main_v1) (y := Cert.KernelIdeal.main_v2) rfl rfl (after_take_of_lt Cert.KernelIdeal.Around.singleAssignBefore _ (i := 1) rfl (by decide)),
    eq_main_v2__main_v1 m m' c hag,
    Cert.KernelIdeal.Around.final_of_bypass m c Cert.KernelIdeal.main_v1 (by decide) (by decide)]
  try rfl

theorem eq_main_v4__main_v3 : rfin(Cert.ReferenceIdeal.main_v4) = kfin(Cert.KernelIdeal.main_v3) := by
  rw [final_binary Cert.ReferenceIdeal.Line.singleAssign (launchContents m' c) 4 (a := Cert.ReferenceIdeal.main_v3) (b := Cert.ReferenceIdeal.main_v1) (y := Cert.ReferenceIdeal.main_v4) rfl rfl (after_take_of_lt Cert.ReferenceIdeal.Line.singleAssign _ (i := 3) rfl (by decide)) (after_take_of_lt Cert.ReferenceIdeal.Line.singleAssign _ (i := 1) rfl (by decide)),
    Cert.KernelIdeal.Around.final_of_bypass m c Cert.KernelIdeal.main_v3 (by decide) (by decide),
    final_binary Cert.KernelIdeal.Around.singleAssignBefore (launchContents m c) 3 (a := Cert.KernelIdeal.main_v2) (b := Cert.KernelIdeal.main_v0) (y := Cert.KernelIdeal.main_v3) rfl rfl (after_take_of_lt Cert.KernelIdeal.Around.singleAssignBefore _ (i := 2) rfl (by decide)) (after_take_of_lt Cert.KernelIdeal.Around.singleAssignBefore _ (i := 0) rfl (by decide)),
    eq_main_v3__main_v2 m m' c hag,
    eq_main_v1__main_v0 m m' c hag,
    Cert.KernelIdeal.Around.final_of_bypass m c Cert.KernelIdeal.main_v2 (by decide) (by decide),
    Cert.KernelIdeal.Around.final_of_bypass m c Cert.KernelIdeal.main_v0 (by decide) (by decide)]
  try rfl

theorem eq_main_c_6__main_c_6 : rfin(Cert.ReferenceIdeal.main_c_6) = kfin(Cert.KernelIdeal.main_c_6) := by
  rw [final_nullary Cert.ReferenceIdeal.Line.singleAssign (launchContents m' c) 41  (y := Cert.ReferenceIdeal.main_c_6) rfl rfl ,
    final_nullary Cert.KernelIdeal.Around.singleAssignAfter (Cert.KernelIdeal.Around.exitVal m c) 0  (y := Cert.KernelIdeal.main_c_6) rfl rfl ]
  try rfl

theorem eq_main_v31__main_v31 : rfin(Cert.ReferenceIdeal.main_v31) = kfin(Cert.KernelIdeal.main_v31) := by
  rw [final_unary Cert.ReferenceIdeal.Line.singleAssign (launchContents m' c) 42 (x := Cert.ReferenceIdeal.main_c_6) (y := Cert.ReferenceIdeal.main_v31) rfl rfl (after_take_of_lt Cert.ReferenceIdeal.Line.singleAssign _ (i := 41) rfl (by decide)),
    final_unary Cert.KernelIdeal.Around.singleAssignAfter (Cert.KernelIdeal.Around.exitVal m c) 1 (x := Cert.KernelIdeal.main_c_6) (y := Cert.KernelIdeal.main_v31) rfl rfl (after_take_of_lt Cert.KernelIdeal.Around.singleAssignAfter _ (i := 0) rfl (by decide)),
    eq_main_c_6__main_c_6 m m' c hag]
  try rfl

theorem eq_main_v32__main_v32 : rfin(Cert.ReferenceIdeal.main_v32) = kfin(Cert.KernelIdeal.main_v32) := by
  rw [final_binary Cert.ReferenceIdeal.Line.singleAssign (launchContents m' c) 43 (a := Cert.ReferenceIdeal.main_v4) (b := Cert.ReferenceIdeal.main_v31) (y := Cert.ReferenceIdeal.main_v32) rfl rfl (after_take_of_lt Cert.ReferenceIdeal.Line.singleAssign _ (i := 4) rfl (by decide)) (after_take_of_lt Cert.ReferenceIdeal.Line.singleAssign _ (i := 42) rfl (by decide)),
    final_binary Cert.KernelIdeal.Around.singleAssignAfter (Cert.KernelIdeal.Around.exitVal m c) 2 (a := Cert.KernelIdeal.main_v3) (b := Cert.KernelIdeal.main_v31) (y := Cert.KernelIdeal.main_v32) rfl rfl (after_take_of_not_assigned Cert.KernelIdeal.Around.singleAssignAfter _ 2 (by decide)) (after_take_of_lt Cert.KernelIdeal.Around.singleAssignAfter _ (i := 1) rfl (by decide)),
    eq_main_v4__main_v3 m m' c hag,
    eq_main_v31__main_v31 m m' c hag]
  try rfl

theorem eq_main_c_7__main_c_7 : rfin(Cert.ReferenceIdeal.main_c_7) = kfin(Cert.KernelIdeal.main_c_7) := by
  rw [final_nullary Cert.ReferenceIdeal.Line.singleAssign (launchContents m' c) 44  (y := Cert.ReferenceIdeal.main_c_7) rfl rfl ,
    final_nullary Cert.KernelIdeal.Around.singleAssignAfter (Cert.KernelIdeal.Around.exitVal m c) 3  (y := Cert.KernelIdeal.main_c_7) rfl rfl ]
  try rfl

theorem eq_main_v33__main_v33 : rfin(Cert.ReferenceIdeal.main_v33) = kfin(Cert.KernelIdeal.main_v33) := by
  rw [final_unary Cert.ReferenceIdeal.Line.singleAssign (launchContents m' c) 45 (x := Cert.ReferenceIdeal.main_c_7) (y := Cert.ReferenceIdeal.main_v33) rfl rfl (after_take_of_lt Cert.ReferenceIdeal.Line.singleAssign _ (i := 44) rfl (by decide)),
    final_unary Cert.KernelIdeal.Around.singleAssignAfter (Cert.KernelIdeal.Around.exitVal m c) 4 (x := Cert.KernelIdeal.main_c_7) (y := Cert.KernelIdeal.main_v33) rfl rfl (after_take_of_lt Cert.KernelIdeal.Around.singleAssignAfter _ (i := 3) rfl (by decide)),
    eq_main_c_7__main_c_7 m m' c hag]
  try rfl

theorem eq_main_v34__main_v34 : rfin(Cert.ReferenceIdeal.main_v34) = kfin(Cert.KernelIdeal.main_v34) := by
  rw [final_binary Cert.ReferenceIdeal.Line.singleAssign (launchContents m' c) 46 (a := Cert.ReferenceIdeal.main_v4) (b := Cert.ReferenceIdeal.main_v33) (y := Cert.ReferenceIdeal.main_v34) rfl rfl (after_take_of_lt Cert.ReferenceIdeal.Line.singleAssign _ (i := 4) rfl (by decide)) (after_take_of_lt Cert.ReferenceIdeal.Line.singleAssign _ (i := 45) rfl (by decide)),
    final_binary Cert.KernelIdeal.Around.singleAssignAfter (Cert.KernelIdeal.Around.exitVal m c) 5 (a := Cert.KernelIdeal.main_v3) (b := Cert.KernelIdeal.main_v33) (y := Cert.KernelIdeal.main_v34) rfl rfl (after_take_of_not_assigned Cert.KernelIdeal.Around.singleAssignAfter _ 5 (by decide)) (after_take_of_lt Cert.KernelIdeal.Around.singleAssignAfter _ (i := 4) rfl (by decide)),
    eq_main_v4__main_v3 m m' c hag,
    eq_main_v33__main_v33 m m' c hag]
  try rfl

theorem eq_main_v35__main_v35 : rfin(Cert.ReferenceIdeal.main_v35) = kfin(Cert.KernelIdeal.main_v35) := by
  rw [final_ternary Cert.ReferenceIdeal.Line.singleAssign (launchContents m' c) 47 (c := Cert.ReferenceIdeal.main_v32) (a := Cert.ReferenceIdeal.main_v34) (b := Cert.ReferenceIdeal.main_v4) (y := Cert.ReferenceIdeal.main_v35) rfl rfl (after_take_of_lt Cert.ReferenceIdeal.Line.singleAssign _ (i := 43) rfl (by decide)) (after_take_of_lt Cert.ReferenceIdeal.Line.singleAssign _ (i := 46) rfl (by decide)) (after_take_of_lt Cert.ReferenceIdeal.Line.singleAssign _ (i := 4) rfl (by decide)),
    final_ternary Cert.KernelIdeal.Around.singleAssignAfter (Cert.KernelIdeal.Around.exitVal m c) 6 (c := Cert.KernelIdeal.main_v32) (a := Cert.KernelIdeal.main_v34) (b := Cert.KernelIdeal.main_v3) (y := Cert.KernelIdeal.main_v35) rfl rfl (after_take_of_lt Cert.KernelIdeal.Around.singleAssignAfter _ (i := 2) rfl (by decide)) (after_take_of_lt Cert.KernelIdeal.Around.singleAssignAfter _ (i := 5) rfl (by decide)) (after_take_of_not_assigned Cert.KernelIdeal.Around.singleAssignAfter _ 6 (by decide)),
    eq_main_v32__main_v32 m m' c hag,
    eq_main_v34__main_v34 m m' c hag,
    eq_main_v4__main_v3 m m' c hag]
  try rfl

theorem eq_main_v36__main_v36 : rfin(Cert.ReferenceIdeal.main_v36) = kfin(Cert.KernelIdeal.main_v36) := by
  rw [final_unary Cert.ReferenceIdeal.Line.singleAssign (launchContents m' c) 48 (x := Cert.ReferenceIdeal.main_v35) (y := Cert.ReferenceIdeal.main_v36) rfl rfl (after_take_of_lt Cert.ReferenceIdeal.Line.singleAssign _ (i := 47) rfl (by decide)),
    final_unary Cert.KernelIdeal.Around.singleAssignAfter (Cert.KernelIdeal.Around.exitVal m c) 7 (x := Cert.KernelIdeal.main_v35) (y := Cert.KernelIdeal.main_v36) rfl rfl (after_take_of_lt Cert.KernelIdeal.Around.singleAssignAfter _ (i := 6) rfl (by decide)),
    eq_main_v35__main_v35 m m' c hag]
  try rfl

theorem eq_main_v37__main_v37 : rfin(Cert.ReferenceIdeal.main_v37) = kfin(Cert.KernelIdeal.main_v37) := by
  rw [final_binary Cert.ReferenceIdeal.Line.singleAssign (launchContents m' c) 49 (a := Cert.ReferenceIdeal.main_v0) (b := Cert.ReferenceIdeal.main_v36) (y := Cert.ReferenceIdeal.main_v37) rfl rfl (after_take_of_lt Cert.ReferenceIdeal.Line.singleAssign _ (i := 0) rfl (by decide)) (after_take_of_lt Cert.ReferenceIdeal.Line.singleAssign _ (i := 48) rfl (by decide)),
    final_binary Cert.KernelIdeal.Around.singleAssignAfter (Cert.KernelIdeal.Around.exitVal m c) 8 (a := Cert.KernelIdeal.main_v30) (b := Cert.KernelIdeal.main_v36) (y := Cert.KernelIdeal.main_v37) rfl rfl (after_take_of_not_assigned Cert.KernelIdeal.Around.singleAssignAfter _ 8 (by decide)) (after_take_of_lt Cert.KernelIdeal.Around.singleAssignAfter _ (i := 7) rfl (by decide)),
    eq_main_v0__main_v30 m m' c hag,
    eq_main_v36__main_v36 m m' c hag]
  try rfl

theorem eq_main_cst_0__main_cst_0 : rfin(Cert.ReferenceIdeal.main_cst_0) = kfin(Cert.KernelIdeal.main_cst_0) := by
  rw [final_nullary Cert.ReferenceIdeal.Line.singleAssign (launchContents m' c) 10  (y := Cert.ReferenceIdeal.main_cst_0) rfl rfl ,
    Cert.KernelIdeal.Around.final_of_bypass m c Cert.KernelIdeal.main_cst_0 (by decide) (by decide),
    final_nullary Cert.KernelIdeal.Around.singleAssignBefore (launchContents m c) 9  (y := Cert.KernelIdeal.main_cst_0) rfl rfl ]
  try rfl

theorem eq_main_v9__main_v8 : rfin(Cert.ReferenceIdeal.main_v9) = kfin(Cert.KernelIdeal.main_v8) := by
  rw [final_unary Cert.ReferenceIdeal.Line.singleAssign (launchContents m' c) 11 (x := Cert.ReferenceIdeal.main_cst_0) (y := Cert.ReferenceIdeal.main_v9) rfl rfl (after_take_of_lt Cert.ReferenceIdeal.Line.singleAssign _ (i := 10) rfl (by decide)),
    Cert.KernelIdeal.Around.final_of_bypass m c Cert.KernelIdeal.main_v8 (by decide) (by decide),
    final_unary Cert.KernelIdeal.Around.singleAssignBefore (launchContents m c) 10 (x := Cert.KernelIdeal.main_cst_0) (y := Cert.KernelIdeal.main_v8) rfl rfl (after_take_of_lt Cert.KernelIdeal.Around.singleAssignBefore _ (i := 9) rfl (by decide)),
    eq_main_cst_0__main_cst_0 m m' c hag,
    Cert.KernelIdeal.Around.final_of_bypass m c Cert.KernelIdeal.main_cst_0 (by decide) (by decide)]
  try rfl

theorem eq_main_v10__main_v9 : rfin(Cert.ReferenceIdeal.main_v10) = kfin(Cert.KernelIdeal.main_v9) := by
  rw [final_unary Cert.ReferenceIdeal.Line.singleAssign (launchContents m' c) 12 (x := Cert.ReferenceIdeal.main_v7) (y := Cert.ReferenceIdeal.main_v10) rfl rfl (after_take_of_lt Cert.ReferenceIdeal.Line.singleAssign _ (i := 7) rfl (by decide)),
    Cert.KernelIdeal.Around.final_of_bypass m c Cert.KernelIdeal.main_v9 (by decide) (by decide),
    final_unary Cert.KernelIdeal.Around.singleAssignBefore (launchContents m c) 11 (x := Cert.KernelIdeal.main_v6) (y := Cert.KernelIdeal.main_v9) rfl rfl (after_take_of_lt Cert.KernelIdeal.Around.singleAssignBefore _ (i := 6) rfl (by decide)),
    eq_main_v7__main_v6 m m' c hag,
    Cert.KernelIdeal.Around.final_of_bypass m c Cert.KernelIdeal.main_v6 (by decide) (by decide)]
  try rfl

theorem eq_main_cst__main_cst : rfin(Cert.ReferenceIdeal.main_cst) = kfin(Cert.KernelIdeal.main_cst) := by
  rw [final_nullary Cert.ReferenceIdeal.Line.singleAssign (launchContents m' c) 8  (y := Cert.ReferenceIdeal.main_cst) rfl rfl ,
    Cert.KernelIdeal.Around.final_of_bypass m c Cert.KernelIdeal.main_cst (by decide) (by decide),
    final_nullary Cert.KernelIdeal.Around.singleAssignBefore (launchContents m c) 7  (y := Cert.KernelIdeal.main_cst) rfl rfl ]
  try rfl

theorem eq_main_v8__main_v7 : rfin(Cert.ReferenceIdeal.main_v8) = kfin(Cert.KernelIdeal.main_v7) := by
  rw [final_unary Cert.ReferenceIdeal.Line.singleAssign (launchContents m' c) 9 (x := Cert.ReferenceIdeal.main_cst) (y := Cert.ReferenceIdeal.main_v8) rfl rfl (after_take_of_lt Cert.ReferenceIdeal.Line.singleAssign _ (i := 8) rfl (by decide)),
    Cert.KernelIdeal.Around.final_of_bypass m c Cert.KernelIdeal.main_v7 (by decide) (by decide),
    final_unary Cert.KernelIdeal.Around.singleAssignBefore (launchContents m c) 8 (x := Cert.KernelIdeal.main_cst) (y := Cert.KernelIdeal.main_v7) rfl rfl (after_take_of_lt Cert.KernelIdeal.Around.singleAssignBefore _ (i := 7) rfl (by decide)),
    eq_main_cst__main_cst m m' c hag,
    Cert.KernelIdeal.Around.final_of_bypass m c Cert.KernelIdeal.main_cst (by decide) (by decide)]
  try rfl

theorem eq_main_v11__main_v10 : rfin(Cert.ReferenceIdeal.main_v11) = kfin(Cert.KernelIdeal.main_v10) := by
  rw [final_ternary Cert.ReferenceIdeal.Line.singleAssign (launchContents m' c) 13 (c := Cert.ReferenceIdeal.main_v9) (a := Cert.ReferenceIdeal.main_v10) (b := Cert.ReferenceIdeal.main_v8) (y := Cert.ReferenceIdeal.main_v11) rfl rfl (after_take_of_lt Cert.ReferenceIdeal.Line.singleAssign _ (i := 11) rfl (by decide)) (after_take_of_lt Cert.ReferenceIdeal.Line.singleAssign _ (i := 12) rfl (by decide)) (after_take_of_lt Cert.ReferenceIdeal.Line.singleAssign _ (i := 9) rfl (by decide)),
    Cert.KernelIdeal.Around.final_of_bypass m c Cert.KernelIdeal.main_v10 (by decide) (by decide),
    final_ternary Cert.KernelIdeal.Around.singleAssignBefore (launchContents m c) 12 (c := Cert.KernelIdeal.main_v8) (a := Cert.KernelIdeal.main_v9) (b := Cert.KernelIdeal.main_v7) (y := Cert.KernelIdeal.main_v10) rfl rfl (after_take_of_lt Cert.KernelIdeal.Around.singleAssignBefore _ (i := 10) rfl (by decide)) (after_take_of_lt Cert.KernelIdeal.Around.singleAssignBefore _ (i := 11) rfl (by decide)) (after_take_of_lt Cert.KernelIdeal.Around.singleAssignBefore _ (i := 8) rfl (by decide)),
    eq_main_v9__main_v8 m m' c hag,
    eq_main_v10__main_v9 m m' c hag,
    eq_main_v8__main_v7 m m' c hag,
    Cert.KernelIdeal.Around.final_of_bypass m c Cert.KernelIdeal.main_v8 (by decide) (by decide),
    Cert.KernelIdeal.Around.final_of_bypass m c Cert.KernelIdeal.main_v9 (by decide) (by decide),
    Cert.KernelIdeal.Around.final_of_bypass m c Cert.KernelIdeal.main_v7 (by decide) (by decide)]
  try rfl

theorem eq_main_cst_1__main_cst_1 : rfin(Cert.ReferenceIdeal.main_cst_1) = kfin(Cert.KernelIdeal.main_cst_1) := by
  rw [final_nullary Cert.ReferenceIdeal.Line.singleAssign (launchContents m' c) 14  (y := Cert.ReferenceIdeal.main_cst_1) rfl rfl ,
    Cert.KernelIdeal.Around.final_of_bypass m c Cert.KernelIdeal.main_cst_1 (by decide) (by decide),
    final_nullary Cert.KernelIdeal.Around.singleAssignBefore (launchContents m c) 13  (y := Cert.KernelIdeal.main_cst_1) rfl rfl ]
  try rfl

theorem eq_main_v12__main_v11 : rfin(Cert.ReferenceIdeal.main_v12) = kfin(Cert.KernelIdeal.main_v11) := by
  rw [final_unary Cert.ReferenceIdeal.Line.singleAssign (launchContents m' c) 15 (x := Cert.ReferenceIdeal.main_cst_1) (y := Cert.ReferenceIdeal.main_v12) rfl rfl (after_take_of_lt Cert.ReferenceIdeal.Line.singleAssign _ (i := 14) rfl (by decide)),
    Cert.KernelIdeal.Around.final_of_bypass m c Cert.KernelIdeal.main_v11 (by decide) (by decide),
    final_unary Cert.KernelIdeal.Around.singleAssignBefore (launchContents m c) 14 (x := Cert.KernelIdeal.main_cst_1) (y := Cert.KernelIdeal.main_v11) rfl rfl (after_take_of_lt Cert.KernelIdeal.Around.singleAssignBefore _ (i := 13) rfl (by decide)),
    eq_main_cst_1__main_cst_1 m m' c hag,
    Cert.KernelIdeal.Around.final_of_bypass m c Cert.KernelIdeal.main_cst_1 (by decide) (by decide)]
  try rfl

theorem eq_main_v13__main_v12 : rfin(Cert.ReferenceIdeal.main_v13) = kfin(Cert.KernelIdeal.main_v12) := by
  rw [final_binary Cert.ReferenceIdeal.Line.singleAssign (launchContents m' c) 16 (a := Cert.ReferenceIdeal.main_v11) (b := Cert.ReferenceIdeal.main_v12) (y := Cert.ReferenceIdeal.main_v13) rfl rfl (after_take_of_lt Cert.ReferenceIdeal.Line.singleAssign _ (i := 13) rfl (by decide)) (after_take_of_lt Cert.ReferenceIdeal.Line.singleAssign _ (i := 15) rfl (by decide)),
    Cert.KernelIdeal.Around.final_of_bypass m c Cert.KernelIdeal.main_v12 (by decide) (by decide),
    final_binary Cert.KernelIdeal.Around.singleAssignBefore (launchContents m c) 15 (a := Cert.KernelIdeal.main_v10) (b := Cert.KernelIdeal.main_v11) (y := Cert.KernelIdeal.main_v12) rfl rfl (after_take_of_lt Cert.KernelIdeal.Around.singleAssignBefore _ (i := 12) rfl (by decide)) (after_take_of_lt Cert.KernelIdeal.Around.singleAssignBefore _ (i := 14) rfl (by decide)),
    eq_main_v11__main_v10 m m' c hag,
    eq_main_v12__main_v11 m m' c hag,
    Cert.KernelIdeal.Around.final_of_bypass m c Cert.KernelIdeal.main_v10 (by decide) (by decide),
    Cert.KernelIdeal.Around.final_of_bypass m c Cert.KernelIdeal.main_v11 (by decide) (by decide)]
  try rfl

theorem eq_main_v14__main_v13 : rfin(Cert.ReferenceIdeal.main_v14) = kfin(Cert.KernelIdeal.main_v13) := by
  rw [final_unary Cert.ReferenceIdeal.Line.singleAssign (launchContents m' c) 17 (x := Cert.ReferenceIdeal.main_v11) (y := Cert.ReferenceIdeal.main_v14) rfl rfl (after_take_of_lt Cert.ReferenceIdeal.Line.singleAssign _ (i := 13) rfl (by decide)),
    Cert.KernelIdeal.Around.final_of_bypass m c Cert.KernelIdeal.main_v13 (by decide) (by decide),
    final_unary Cert.KernelIdeal.Around.singleAssignBefore (launchContents m c) 16 (x := Cert.KernelIdeal.main_v10) (y := Cert.KernelIdeal.main_v13) rfl rfl (after_take_of_lt Cert.KernelIdeal.Around.singleAssignBefore _ (i := 12) rfl (by decide)),
    eq_main_v11__main_v10 m m' c hag,
    Cert.KernelIdeal.Around.final_of_bypass m c Cert.KernelIdeal.main_v10 (by decide) (by decide)]
  try rfl

theorem eq_main_cst_2__main_cst_2 : rfin(Cert.ReferenceIdeal.main_cst_2) = kfin(Cert.KernelIdeal.main_cst_2) := by
  rw [final_nullary Cert.ReferenceIdeal.Line.singleAssign (launchContents m' c) 18  (y := Cert.ReferenceIdeal.main_cst_2) rfl rfl ,
    Cert.KernelIdeal.Around.final_of_bypass m c Cert.KernelIdeal.main_cst_2 (by decide) (by decide),
    final_nullary Cert.KernelIdeal.Around.singleAssignBefore (launchContents m c) 17  (y := Cert.KernelIdeal.main_cst_2) rfl rfl ]
  try rfl

theorem eq_main_call0_v0__main_call0_v0 : rfin(Cert.ReferenceIdeal.main_call0_v0) = kfin(Cert.KernelIdeal.main_call0_v0) := by
  rw [final_unary Cert.ReferenceIdeal.Line.singleAssign (launchContents m' c) 19 (x := Cert.ReferenceIdeal.main_cst_2) (y := Cert.ReferenceIdeal.main_call0_v0) rfl rfl (after_take_of_lt Cert.ReferenceIdeal.Line.singleAssign _ (i := 18) rfl (by decide)),
    Cert.KernelIdeal.Around.final_of_bypass m c Cert.KernelIdeal.main_call0_v0 (by decide) (by decide),
    final_unary Cert.KernelIdeal.Around.singleAssignBefore (launchContents m c) 18 (x := Cert.KernelIdeal.main_cst_2) (y := Cert.KernelIdeal.main_call0_v0) rfl rfl (after_take_of_lt Cert.KernelIdeal.Around.singleAssignBefore _ (i := 17) rfl (by decide)),
    eq_main_cst_2__main_cst_2 m m' c hag,
    Cert.KernelIdeal.Around.final_of_bypass m c Cert.KernelIdeal.main_cst_2 (by decide) (by decide)]
  try rfl

theorem eq_main_call0_v1__main_call0_v1 : rfin(Cert.ReferenceIdeal.main_call0_v1) = kfin(Cert.KernelIdeal.main_call0_v1) := by
  rw [final_unary Cert.ReferenceIdeal.Line.singleAssign (launchContents m' c) 20 (x := Cert.ReferenceIdeal.main_call0_v0) (y := Cert.ReferenceIdeal.main_call0_v1) rfl rfl (after_take_of_lt Cert.ReferenceIdeal.Line.singleAssign _ (i := 19) rfl (by decide)),
    Cert.KernelIdeal.Around.final_of_bypass m c Cert.KernelIdeal.main_call0_v1 (by decide) (by decide),
    final_unary Cert.KernelIdeal.Around.singleAssignBefore (launchContents m c) 19 (x := Cert.KernelIdeal.main_call0_v0) (y := Cert.KernelIdeal.main_call0_v1) rfl rfl (after_take_of_lt Cert.KernelIdeal.Around.singleAssignBefore _ (i := 18) rfl (by decide)),
    eq_main_call0_v0__main_call0_v0 m m' c hag,
    Cert.KernelIdeal.Around.final_of_bypass m c Cert.KernelIdeal.main_call0_v0 (by decide) (by decide)]
  try rfl

theorem eq_main_v15__main_v14 : rfin(Cert.ReferenceIdeal.main_v15) = kfin(Cert.KernelIdeal.main_v14) := by
  rw [final_ternary Cert.ReferenceIdeal.Line.singleAssign (launchContents m' c) 21 (c := Cert.ReferenceIdeal.main_v13) (a := Cert.ReferenceIdeal.main_v14) (b := Cert.ReferenceIdeal.main_call0_v1) (y := Cert.ReferenceIdeal.main_v15) rfl rfl (after_take_of_lt Cert.ReferenceIdeal.Line.singleAssign _ (i := 16) rfl (by decide)) (after_take_of_lt Cert.ReferenceIdeal.Line.singleAssign _ (i := 17) rfl (by decide)) (after_take_of_lt Cert.ReferenceIdeal.Line.singleAssign _ (i := 20) rfl (by decide)),
    Cert.KernelIdeal.Around.final_of_bypass m c Cert.KernelIdeal.main_v14 (by decide) (by decide),
    final_ternary Cert.KernelIdeal.Around.singleAssignBefore (launchContents m c) 20 (c := Cert.KernelIdeal.main_v12) (a := Cert.KernelIdeal.main_v13) (b := Cert.KernelIdeal.main_call0_v1) (y := Cert.KernelIdeal.main_v14) rfl rfl (after_take_of_lt Cert.KernelIdeal.Around.singleAssignBefore _ (i := 15) rfl (by decide)) (after_take_of_lt Cert.KernelIdeal.Around.singleAssignBefore _ (i := 16) rfl (by decide)) (after_take_of_lt Cert.KernelIdeal.Around.singleAssignBefore _ (i := 19) rfl (by decide)),
    eq_main_v13__main_v12 m m' c hag,
    eq_main_v14__main_v13 m m' c hag,
    eq_main_call0_v1__main_call0_v1 m m' c hag,
    Cert.KernelIdeal.Around.final_of_bypass m c Cert.KernelIdeal.main_v12 (by decide) (by decide),
    Cert.KernelIdeal.Around.final_of_bypass m c Cert.KernelIdeal.main_v13 (by decide) (by decide),
    Cert.KernelIdeal.Around.final_of_bypass m c Cert.KernelIdeal.main_call0_v1 (by decide) (by decide)]
  try rfl

theorem eq_main_c__main_c : rfin(Cert.ReferenceIdeal.main_c) = kfin(Cert.KernelIdeal.main_c) := by
  rw [final_nullary Cert.ReferenceIdeal.Line.singleAssign (launchContents m' c) 22  (y := Cert.ReferenceIdeal.main_c) rfl rfl ,
    Cert.KernelIdeal.Around.final_of_bypass m c Cert.KernelIdeal.main_c (by decide) (by decide),
    final_nullary Cert.KernelIdeal.Around.singleAssignBefore (launchContents m c) 21  (y := Cert.KernelIdeal.main_c) rfl rfl ]
  try rfl

theorem eq_main_v16__main_v15 : rfin(Cert.ReferenceIdeal.main_v16) = kfin(Cert.KernelIdeal.main_v15) := by
  rw [final_unary Cert.ReferenceIdeal.Line.singleAssign (launchContents m' c) 23 (x := Cert.ReferenceIdeal.main_c) (y := Cert.ReferenceIdeal.main_v16) rfl rfl (after_take_of_lt Cert.ReferenceIdeal.Line.singleAssign _ (i := 22) rfl (by decide)),
    Cert.KernelIdeal.Around.final_of_bypass m c Cert.KernelIdeal.main_v15 (by decide) (by decide),
    final_unary Cert.KernelIdeal.Around.singleAssignBefore (launchContents m c) 22 (x := Cert.KernelIdeal.main_c) (y := Cert.KernelIdeal.main_v15) rfl rfl (after_take_of_lt Cert.KernelIdeal.Around.singleAssignBefore _ (i := 21) rfl (by decide)),
    eq_main_c__main_c m m' c hag,
    Cert.KernelIdeal.Around.final_of_bypass m c Cert.KernelIdeal.main_c (by decide) (by decide)]
  try rfl

theorem eq_main_v17__main_v16 : rfin(Cert.ReferenceIdeal.main_v17) = kfin(Cert.KernelIdeal.main_v16) := by
  rw [final_binary Cert.ReferenceIdeal.Line.singleAssign (launchContents m' c) 24 (a := Cert.ReferenceIdeal.main_v4) (b := Cert.ReferenceIdeal.main_v16) (y := Cert.ReferenceIdeal.main_v17) rfl rfl (after_take_of_lt Cert.ReferenceIdeal.Line.singleAssign _ (i := 4) rfl (by decide)) (after_take_of_lt Cert.ReferenceIdeal.Line.singleAssign _ (i := 23) rfl (by decide)),
    Cert.KernelIdeal.Around.final_of_bypass m c Cert.KernelIdeal.main_v16 (by decide) (by decide),
    final_binary Cert.KernelIdeal.Around.singleAssignBefore (launchContents m c) 23 (a := Cert.KernelIdeal.main_v3) (b := Cert.KernelIdeal.main_v15) (y := Cert.KernelIdeal.main_v16) rfl rfl (after_take_of_lt Cert.KernelIdeal.Around.singleAssignBefore _ (i := 3) rfl (by decide)) (after_take_of_lt Cert.KernelIdeal.Around.singleAssignBefore _ (i := 22) rfl (by decide)),
    eq_main_v4__main_v3 m m' c hag,
    eq_main_v16__main_v15 m m' c hag,
    Cert.KernelIdeal.Around.final_of_bypass m c Cert.KernelIdeal.main_v3 (by decide) (by decide),
    Cert.KernelIdeal.Around.final_of_bypass m c Cert.KernelIdeal.main_v15 (by decide) (by decide)]
  try rfl

theorem eq_main_c_3__main_c_3 : rfin(Cert.ReferenceIdeal.main_c_3) = kfin(Cert.KernelIdeal.main_c_3) := by
  rw [final_nullary Cert.ReferenceIdeal.Line.singleAssign (launchContents m' c) 25  (y := Cert.ReferenceIdeal.main_c_3) rfl rfl ,
    Cert.KernelIdeal.Around.final_of_bypass m c Cert.KernelIdeal.main_c_3 (by decide) (by decide),
    final_nullary Cert.KernelIdeal.Around.singleAssignBefore (launchContents m c) 24  (y := Cert.KernelIdeal.main_c_3) rfl rfl ]
  try rfl

theorem eq_main_v18__main_v17 : rfin(Cert.ReferenceIdeal.main_v18) = kfin(Cert.KernelIdeal.main_v17) := by
  rw [final_unary Cert.ReferenceIdeal.Line.singleAssign (launchContents m' c) 26 (x := Cert.ReferenceIdeal.main_c_3) (y := Cert.ReferenceIdeal.main_v18) rfl rfl (after_take_of_lt Cert.ReferenceIdeal.Line.singleAssign _ (i := 25) rfl (by decide)),
    Cert.KernelIdeal.Around.final_of_bypass m c Cert.KernelIdeal.main_v17 (by decide) (by decide),
    final_unary Cert.KernelIdeal.Around.singleAssignBefore (launchContents m c) 25 (x := Cert.KernelIdeal.main_c_3) (y := Cert.KernelIdeal.main_v17) rfl rfl (after_take_of_lt Cert.KernelIdeal.Around.singleAssignBefore _ (i := 24) rfl (by decide)),
    eq_main_c_3__main_c_3 m m' c hag,
    Cert.KernelIdeal.Around.final_of_bypass m c Cert.KernelIdeal.main_c_3 (by decide) (by decide)]
  try rfl

theorem eq_main_v19__main_v18 : rfin(Cert.ReferenceIdeal.main_v19) = kfin(Cert.KernelIdeal.main_v18) := by
  rw [final_binary Cert.ReferenceIdeal.Line.singleAssign (launchContents m' c) 27 (a := Cert.ReferenceIdeal.main_v4) (b := Cert.ReferenceIdeal.main_v18) (y := Cert.ReferenceIdeal.main_v19) rfl rfl (after_take_of_lt Cert.ReferenceIdeal.Line.singleAssign _ (i := 4) rfl (by decide)) (after_take_of_lt Cert.ReferenceIdeal.Line.singleAssign _ (i := 26) rfl (by decide)),
    Cert.KernelIdeal.Around.final_of_bypass m c Cert.KernelIdeal.main_v18 (by decide) (by decide),
    final_binary Cert.KernelIdeal.Around.singleAssignBefore (launchContents m c) 26 (a := Cert.KernelIdeal.main_v3) (b := Cert.KernelIdeal.main_v17) (y := Cert.KernelIdeal.main_v18) rfl rfl (after_take_of_lt Cert.KernelIdeal.Around.singleAssignBefore _ (i := 3) rfl (by decide)) (after_take_of_lt Cert.KernelIdeal.Around.singleAssignBefore _ (i := 25) rfl (by decide)),
    eq_main_v4__main_v3 m m' c hag,
    eq_main_v18__main_v17 m m' c hag,
    Cert.KernelIdeal.Around.final_of_bypass m c Cert.KernelIdeal.main_v3 (by decide) (by decide),
    Cert.KernelIdeal.Around.final_of_bypass m c Cert.KernelIdeal.main_v17 (by decide) (by decide)]
  try rfl

theorem eq_main_v20__main_v19 : rfin(Cert.ReferenceIdeal.main_v20) = kfin(Cert.KernelIdeal.main_v19) := by
  rw [final_ternary Cert.ReferenceIdeal.Line.singleAssign (launchContents m' c) 28 (c := Cert.ReferenceIdeal.main_v17) (a := Cert.ReferenceIdeal.main_v19) (b := Cert.ReferenceIdeal.main_v4) (y := Cert.ReferenceIdeal.main_v20) rfl rfl (after_take_of_lt Cert.ReferenceIdeal.Line.singleAssign _ (i := 24) rfl (by decide)) (after_take_of_lt Cert.ReferenceIdeal.Line.singleAssign _ (i := 27) rfl (by decide)) (after_take_of_lt Cert.ReferenceIdeal.Line.singleAssign _ (i := 4) rfl (by decide)),
    Cert.KernelIdeal.Around.final_of_bypass m c Cert.KernelIdeal.main_v19 (by decide) (by decide),
    final_ternary Cert.KernelIdeal.Around.singleAssignBefore (launchContents m c) 27 (c := Cert.KernelIdeal.main_v16) (a := Cert.KernelIdeal.main_v18) (b := Cert.KernelIdeal.main_v3) (y := Cert.KernelIdeal.main_v19) rfl rfl (after_take_of_lt Cert.KernelIdeal.Around.singleAssignBefore _ (i := 23) rfl (by decide)) (after_take_of_lt Cert.KernelIdeal.Around.singleAssignBefore _ (i := 26) rfl (by decide)) (after_take_of_lt Cert.KernelIdeal.Around.singleAssignBefore _ (i := 3) rfl (by decide)),
    eq_main_v17__main_v16 m m' c hag,
    eq_main_v19__main_v18 m m' c hag,
    eq_main_v4__main_v3 m m' c hag,
    Cert.KernelIdeal.Around.final_of_bypass m c Cert.KernelIdeal.main_v16 (by decide) (by decide),
    Cert.KernelIdeal.Around.final_of_bypass m c Cert.KernelIdeal.main_v18 (by decide) (by decide),
    Cert.KernelIdeal.Around.final_of_bypass m c Cert.KernelIdeal.main_v3 (by decide) (by decide)]
  try rfl

theorem eq_main_v21__main_v20 : rfin(Cert.ReferenceIdeal.main_v21) = kfin(Cert.KernelIdeal.main_v20) := by
  rw [final_unary Cert.ReferenceIdeal.Line.singleAssign (launchContents m' c) 29 (x := Cert.ReferenceIdeal.main_v20) (y := Cert.ReferenceIdeal.main_v21) rfl rfl (after_take_of_lt Cert.ReferenceIdeal.Line.singleAssign _ (i := 28) rfl (by decide)),
    Cert.KernelIdeal.Around.final_of_bypass m c Cert.KernelIdeal.main_v20 (by decide) (by decide),
    final_unary Cert.KernelIdeal.Around.singleAssignBefore (launchContents m c) 28 (x := Cert.KernelIdeal.main_v19) (y := Cert.KernelIdeal.main_v20) rfl rfl (after_take_of_lt Cert.KernelIdeal.Around.singleAssignBefore _ (i := 27) rfl (by decide)),
    eq_main_v20__main_v19 m m' c hag,
    Cert.KernelIdeal.Around.final_of_bypass m c Cert.KernelIdeal.main_v19 (by decide) (by decide)]
  try rfl

theorem eq_main_v22__main_v21 : rfin(Cert.ReferenceIdeal.main_v22) = kfin(Cert.KernelIdeal.main_v21) := by
  rw [final_binary Cert.ReferenceIdeal.Line.singleAssign (launchContents m' c) 30 (a := Cert.ReferenceIdeal.main_v15) (b := Cert.ReferenceIdeal.main_v21) (y := Cert.ReferenceIdeal.main_v22) rfl rfl (after_take_of_lt Cert.ReferenceIdeal.Line.singleAssign _ (i := 21) rfl (by decide)) (after_take_of_lt Cert.ReferenceIdeal.Line.singleAssign _ (i := 29) rfl (by decide)),
    Cert.KernelIdeal.Around.final_of_bypass m c Cert.KernelIdeal.main_v21 (by decide) (by decide),
    final_binary Cert.KernelIdeal.Around.singleAssignBefore (launchContents m c) 29 (a := Cert.KernelIdeal.main_v14) (b := Cert.KernelIdeal.main_v20) (y := Cert.KernelIdeal.main_v21) rfl rfl (after_take_of_lt Cert.KernelIdeal.Around.singleAssignBefore _ (i := 20) rfl (by decide)) (after_take_of_lt Cert.KernelIdeal.Around.singleAssignBefore _ (i := 28) rfl (by decide)),
    eq_main_v15__main_v14 m m' c hag,
    eq_main_v21__main_v20 m m' c hag,
    Cert.KernelIdeal.Around.final_of_bypass m c Cert.KernelIdeal.main_v14 (by decide) (by decide),
    Cert.KernelIdeal.Around.final_of_bypass m c Cert.KernelIdeal.main_v20 (by decide) (by decide)]
  try rfl

theorem eq_main_c_4__main_c_4 : rfin(Cert.ReferenceIdeal.main_c_4) = kfin(Cert.KernelIdeal.main_c_4) := by
  rw [final_nullary Cert.ReferenceIdeal.Line.singleAssign (launchContents m' c) 31  (y := Cert.ReferenceIdeal.main_c_4) rfl rfl ,
    Cert.KernelIdeal.Around.final_of_bypass m c Cert.KernelIdeal.main_c_4 (by decide) (by decide),
    final_nullary Cert.KernelIdeal.Around.singleAssignBefore (launchContents m c) 30  (y := Cert.KernelIdeal.main_c_4) rfl rfl ]
  try rfl

theorem eq_main_v23__main_v22 : rfin(Cert.ReferenceIdeal.main_v23) = kfin(Cert.KernelIdeal.main_v22) := by
  rw [final_unary Cert.ReferenceIdeal.Line.singleAssign (launchContents m' c) 32 (x := Cert.ReferenceIdeal.main_c_4) (y := Cert.ReferenceIdeal.main_v23) rfl rfl (after_take_of_lt Cert.ReferenceIdeal.Line.singleAssign _ (i := 31) rfl (by decide)),
    Cert.KernelIdeal.Around.final_of_bypass m c Cert.KernelIdeal.main_v22 (by decide) (by decide),
    final_unary Cert.KernelIdeal.Around.singleAssignBefore (launchContents m c) 31 (x := Cert.KernelIdeal.main_c_4) (y := Cert.KernelIdeal.main_v22) rfl rfl (after_take_of_lt Cert.KernelIdeal.Around.singleAssignBefore _ (i := 30) rfl (by decide)),
    eq_main_c_4__main_c_4 m m' c hag,
    Cert.KernelIdeal.Around.final_of_bypass m c Cert.KernelIdeal.main_c_4 (by decide) (by decide)]
  try rfl

theorem eq_main_v24__main_v23 : rfin(Cert.ReferenceIdeal.main_v24) = kfin(Cert.KernelIdeal.main_v23) := by
  rw [final_binary Cert.ReferenceIdeal.Line.singleAssign (launchContents m' c) 33 (a := Cert.ReferenceIdeal.main_v7) (b := Cert.ReferenceIdeal.main_v23) (y := Cert.ReferenceIdeal.main_v24) rfl rfl (after_take_of_lt Cert.ReferenceIdeal.Line.singleAssign _ (i := 7) rfl (by decide)) (after_take_of_lt Cert.ReferenceIdeal.Line.singleAssign _ (i := 32) rfl (by decide)),
    Cert.KernelIdeal.Around.final_of_bypass m c Cert.KernelIdeal.main_v23 (by decide) (by decide),
    final_binary Cert.KernelIdeal.Around.singleAssignBefore (launchContents m c) 32 (a := Cert.KernelIdeal.main_v6) (b := Cert.KernelIdeal.main_v22) (y := Cert.KernelIdeal.main_v23) rfl rfl (after_take_of_lt Cert.KernelIdeal.Around.singleAssignBefore _ (i := 6) rfl (by decide)) (after_take_of_lt Cert.KernelIdeal.Around.singleAssignBefore _ (i := 31) rfl (by decide)),
    eq_main_v7__main_v6 m m' c hag,
    eq_main_v23__main_v22 m m' c hag,
    Cert.KernelIdeal.Around.final_of_bypass m c Cert.KernelIdeal.main_v6 (by decide) (by decide),
    Cert.KernelIdeal.Around.final_of_bypass m c Cert.KernelIdeal.main_v22 (by decide) (by decide)]
  try rfl

theorem eq_main_c_5__main_c_5 : rfin(Cert.ReferenceIdeal.main_c_5) = kfin(Cert.KernelIdeal.main_c_5) := by
  rw [final_nullary Cert.ReferenceIdeal.Line.singleAssign (launchContents m' c) 34  (y := Cert.ReferenceIdeal.main_c_5) rfl rfl ,
    Cert.KernelIdeal.Around.final_of_bypass m c Cert.KernelIdeal.main_c_5 (by decide) (by decide),
    final_nullary Cert.KernelIdeal.Around.singleAssignBefore (launchContents m c) 33  (y := Cert.KernelIdeal.main_c_5) rfl rfl ]
  try rfl

theorem eq_main_v25__main_v24 : rfin(Cert.ReferenceIdeal.main_v25) = kfin(Cert.KernelIdeal.main_v24) := by
  rw [final_unary Cert.ReferenceIdeal.Line.singleAssign (launchContents m' c) 35 (x := Cert.ReferenceIdeal.main_c_5) (y := Cert.ReferenceIdeal.main_v25) rfl rfl (after_take_of_lt Cert.ReferenceIdeal.Line.singleAssign _ (i := 34) rfl (by decide)),
    Cert.KernelIdeal.Around.final_of_bypass m c Cert.KernelIdeal.main_v24 (by decide) (by decide),
    final_unary Cert.KernelIdeal.Around.singleAssignBefore (launchContents m c) 34 (x := Cert.KernelIdeal.main_c_5) (y := Cert.KernelIdeal.main_v24) rfl rfl (after_take_of_lt Cert.KernelIdeal.Around.singleAssignBefore _ (i := 33) rfl (by decide)),
    eq_main_c_5__main_c_5 m m' c hag,
    Cert.KernelIdeal.Around.final_of_bypass m c Cert.KernelIdeal.main_c_5 (by decide) (by decide)]
  try rfl

theorem eq_main_v26__main_v25 : rfin(Cert.ReferenceIdeal.main_v26) = kfin(Cert.KernelIdeal.main_v25) := by
  rw [final_binary Cert.ReferenceIdeal.Line.singleAssign (launchContents m' c) 36 (a := Cert.ReferenceIdeal.main_v7) (b := Cert.ReferenceIdeal.main_v25) (y := Cert.ReferenceIdeal.main_v26) rfl rfl (after_take_of_lt Cert.ReferenceIdeal.Line.singleAssign _ (i := 7) rfl (by decide)) (after_take_of_lt Cert.ReferenceIdeal.Line.singleAssign _ (i := 35) rfl (by decide)),
    Cert.KernelIdeal.Around.final_of_bypass m c Cert.KernelIdeal.main_v25 (by decide) (by decide),
    final_binary Cert.KernelIdeal.Around.singleAssignBefore (launchContents m c) 35 (a := Cert.KernelIdeal.main_v6) (b := Cert.KernelIdeal.main_v24) (y := Cert.KernelIdeal.main_v25) rfl rfl (after_take_of_lt Cert.KernelIdeal.Around.singleAssignBefore _ (i := 6) rfl (by decide)) (after_take_of_lt Cert.KernelIdeal.Around.singleAssignBefore _ (i := 34) rfl (by decide)),
    eq_main_v7__main_v6 m m' c hag,
    eq_main_v25__main_v24 m m' c hag,
    Cert.KernelIdeal.Around.final_of_bypass m c Cert.KernelIdeal.main_v6 (by decide) (by decide),
    Cert.KernelIdeal.Around.final_of_bypass m c Cert.KernelIdeal.main_v24 (by decide) (by decide)]
  try rfl

theorem eq_main_v27__main_v26 : rfin(Cert.ReferenceIdeal.main_v27) = kfin(Cert.KernelIdeal.main_v26) := by
  rw [final_ternary Cert.ReferenceIdeal.Line.singleAssign (launchContents m' c) 37 (c := Cert.ReferenceIdeal.main_v24) (a := Cert.ReferenceIdeal.main_v26) (b := Cert.ReferenceIdeal.main_v7) (y := Cert.ReferenceIdeal.main_v27) rfl rfl (after_take_of_lt Cert.ReferenceIdeal.Line.singleAssign _ (i := 33) rfl (by decide)) (after_take_of_lt Cert.ReferenceIdeal.Line.singleAssign _ (i := 36) rfl (by decide)) (after_take_of_lt Cert.ReferenceIdeal.Line.singleAssign _ (i := 7) rfl (by decide)),
    Cert.KernelIdeal.Around.final_of_bypass m c Cert.KernelIdeal.main_v26 (by decide) (by decide),
    final_ternary Cert.KernelIdeal.Around.singleAssignBefore (launchContents m c) 36 (c := Cert.KernelIdeal.main_v23) (a := Cert.KernelIdeal.main_v25) (b := Cert.KernelIdeal.main_v6) (y := Cert.KernelIdeal.main_v26) rfl rfl (after_take_of_lt Cert.KernelIdeal.Around.singleAssignBefore _ (i := 32) rfl (by decide)) (after_take_of_lt Cert.KernelIdeal.Around.singleAssignBefore _ (i := 35) rfl (by decide)) (after_take_of_lt Cert.KernelIdeal.Around.singleAssignBefore _ (i := 6) rfl (by decide)),
    eq_main_v24__main_v23 m m' c hag,
    eq_main_v26__main_v25 m m' c hag,
    eq_main_v7__main_v6 m m' c hag,
    Cert.KernelIdeal.Around.final_of_bypass m c Cert.KernelIdeal.main_v23 (by decide) (by decide),
    Cert.KernelIdeal.Around.final_of_bypass m c Cert.KernelIdeal.main_v25 (by decide) (by decide),
    Cert.KernelIdeal.Around.final_of_bypass m c Cert.KernelIdeal.main_v6 (by decide) (by decide)]
  try rfl

theorem eq_main_v28__main_v27 : rfin(Cert.ReferenceIdeal.main_v28) = kfin(Cert.KernelIdeal.main_v27) := by
  rw [final_unary Cert.ReferenceIdeal.Line.singleAssign (launchContents m' c) 38 (x := Cert.ReferenceIdeal.main_v27) (y := Cert.ReferenceIdeal.main_v28) rfl rfl (after_take_of_lt Cert.ReferenceIdeal.Line.singleAssign _ (i := 37) rfl (by decide)),
    Cert.KernelIdeal.Around.final_of_bypass m c Cert.KernelIdeal.main_v27 (by decide) (by decide),
    final_unary Cert.KernelIdeal.Around.singleAssignBefore (launchContents m c) 37 (x := Cert.KernelIdeal.main_v26) (y := Cert.KernelIdeal.main_v27) rfl rfl (after_take_of_lt Cert.KernelIdeal.Around.singleAssignBefore _ (i := 36) rfl (by decide)),
    eq_main_v27__main_v26 m m' c hag,
    Cert.KernelIdeal.Around.final_of_bypass m c Cert.KernelIdeal.main_v26 (by decide) (by decide)]
  try rfl

theorem eq_main_v29__main_v28 : rfin(Cert.ReferenceIdeal.main_v29) = kfin(Cert.KernelIdeal.main_v28) := by
  rw [final_binary Cert.ReferenceIdeal.Line.singleAssign (launchContents m' c) 39 (a := Cert.ReferenceIdeal.main_v15) (b := Cert.ReferenceIdeal.main_v28) (y := Cert.ReferenceIdeal.main_v29) rfl rfl (after_take_of_lt Cert.ReferenceIdeal.Line.singleAssign _ (i := 21) rfl (by decide)) (after_take_of_lt Cert.ReferenceIdeal.Line.singleAssign _ (i := 38) rfl (by decide)),
    Cert.KernelIdeal.Around.final_of_bypass m c Cert.KernelIdeal.main_v28 (by decide) (by decide),
    final_binary Cert.KernelIdeal.Around.singleAssignBefore (launchContents m c) 38 (a := Cert.KernelIdeal.main_v14) (b := Cert.KernelIdeal.main_v27) (y := Cert.KernelIdeal.main_v28) rfl rfl (after_take_of_lt Cert.KernelIdeal.Around.singleAssignBefore _ (i := 20) rfl (by decide)) (after_take_of_lt Cert.KernelIdeal.Around.singleAssignBefore _ (i := 37) rfl (by decide)),
    eq_main_v15__main_v14 m m' c hag,
    eq_main_v28__main_v27 m m' c hag,
    Cert.KernelIdeal.Around.final_of_bypass m c Cert.KernelIdeal.main_v14 (by decide) (by decide),
    Cert.KernelIdeal.Around.final_of_bypass m c Cert.KernelIdeal.main_v27 (by decide) (by decide)]
  try rfl

theorem eq_main_v30__main_v29 : rfin(Cert.ReferenceIdeal.main_v30) = kfin(Cert.KernelIdeal.main_v29) := by
  rw [final_binary Cert.ReferenceIdeal.Line.singleAssign (launchContents m' c) 40 (a := Cert.ReferenceIdeal.main_v22) (b := Cert.ReferenceIdeal.main_v29) (y := Cert.ReferenceIdeal.main_v30) rfl rfl (after_take_of_lt Cert.ReferenceIdeal.Line.singleAssign _ (i := 30) rfl (by decide)) (after_take_of_lt Cert.ReferenceIdeal.Line.singleAssign _ (i := 39) rfl (by decide)),
    Cert.KernelIdeal.Around.final_of_bypass m c Cert.KernelIdeal.main_v29 (by decide) (by decide),
    final_binary Cert.KernelIdeal.Around.singleAssignBefore (launchContents m c) 39 (a := Cert.KernelIdeal.main_v21) (b := Cert.KernelIdeal.main_v28) (y := Cert.KernelIdeal.main_v29) rfl rfl (after_take_of_lt Cert.KernelIdeal.Around.singleAssignBefore _ (i := 29) rfl (by decide)) (after_take_of_lt Cert.KernelIdeal.Around.singleAssignBefore _ (i := 38) rfl (by decide)),
    eq_main_v22__main_v21 m m' c hag,
    eq_main_v29__main_v28 m m' c hag,
    Cert.KernelIdeal.Around.final_of_bypass m c Cert.KernelIdeal.main_v21 (by decide) (by decide),
    Cert.KernelIdeal.Around.final_of_bypass m c Cert.KernelIdeal.main_v28 (by decide) (by decide)]
  try rfl

theorem eq_main_v38__main_v38 : rfin(Cert.ReferenceIdeal.main_v38) = kfin(Cert.KernelIdeal.main_v38) := by
  rw [final_unary Cert.ReferenceIdeal.Line.singleAssign (launchContents m' c) 50 (x := Cert.ReferenceIdeal.main_v30) (y := Cert.ReferenceIdeal.main_v38) rfl rfl (after_take_of_lt Cert.ReferenceIdeal.Line.singleAssign _ (i := 40) rfl (by decide)),
    final_unary Cert.KernelIdeal.Around.singleAssignAfter (Cert.KernelIdeal.Around.exitVal m c) 9 (x := Cert.KernelIdeal.main_v29) (y := Cert.KernelIdeal.main_v38) rfl rfl (after_take_of_not_assigned Cert.KernelIdeal.Around.singleAssignAfter _ 9 (by decide)),
    eq_main_v30__main_v29 m m' c hag]
  try rfl

theorem eq_main_v39__main_v39 : rfin(Cert.ReferenceIdeal.main_v39) = kfin(Cert.KernelIdeal.main_v39) := by
  rw [final_unary Cert.ReferenceIdeal.Line.singleAssign (launchContents m' c) 51 (x := Cert.ReferenceIdeal.main_v38) (y := Cert.ReferenceIdeal.main_v39) rfl rfl (after_take_of_lt Cert.ReferenceIdeal.Line.singleAssign _ (i := 50) rfl (by decide)),
    final_unary Cert.KernelIdeal.Around.singleAssignAfter (Cert.KernelIdeal.Around.exitVal m c) 10 (x := Cert.KernelIdeal.main_v38) (y := Cert.KernelIdeal.main_v39) rfl rfl (after_take_of_lt Cert.KernelIdeal.Around.singleAssignAfter _ (i := 9) rfl (by decide)),
    eq_main_v38__main_v38 m m' c hag]
  try rfl

theorem eq_main_v40__main_v40 : rfin(Cert.ReferenceIdeal.main_v40) = kfin(Cert.KernelIdeal.main_v40) := by
  rw [final_binary Cert.ReferenceIdeal.Line.singleAssign (launchContents m' c) 52 (a := Cert.ReferenceIdeal.main_v37) (b := Cert.ReferenceIdeal.main_v39) (y := Cert.ReferenceIdeal.main_v40) rfl rfl (after_take_of_lt Cert.ReferenceIdeal.Line.singleAssign _ (i := 49) rfl (by decide)) (after_take_of_lt Cert.ReferenceIdeal.Line.singleAssign _ (i := 51) rfl (by decide)),
    final_binary Cert.KernelIdeal.Around.singleAssignAfter (Cert.KernelIdeal.Around.exitVal m c) 11 (a := Cert.KernelIdeal.main_v37) (b := Cert.KernelIdeal.main_v39) (y := Cert.KernelIdeal.main_v40) rfl rfl (after_take_of_lt Cert.KernelIdeal.Around.singleAssignAfter _ (i := 8) rfl (by decide)) (after_take_of_lt Cert.KernelIdeal.Around.singleAssignAfter _ (i := 10) rfl (by decide)),
    eq_main_v37__main_v37 m m' c hag,
    eq_main_v39__main_v39 m m' c hag]
  try rfl

theorem eq_main_v43__main_v43 : rfin(Cert.ReferenceIdeal.main_v43) = kfin(Cert.KernelIdeal.main_v43) := by
  rw [final_ternary Cert.ReferenceIdeal.Line.singleAssign (launchContents m' c) 56 (c := Cert.ReferenceIdeal.main_v41) (a := Cert.ReferenceIdeal.main_v42) (b := Cert.ReferenceIdeal.main_v40) (y := Cert.ReferenceIdeal.main_v43) rfl rfl (after_take_of_lt Cert.ReferenceIdeal.Line.singleAssign _ (i := 54) rfl (by decide)) (after_take_of_lt Cert.ReferenceIdeal.Line.singleAssign _ (i := 55) rfl (by decide)) (after_take_of_lt Cert.ReferenceIdeal.Line.singleAssign _ (i := 52) rfl (by decide)),
    final_ternary Cert.KernelIdeal.Around.singleAssignAfter (Cert.KernelIdeal.Around.exitVal m c) 15 (c := Cert.KernelIdeal.main_v41) (a := Cert.KernelIdeal.main_v42) (b := Cert.KernelIdeal.main_v40) (y := Cert.KernelIdeal.main_v43) rfl rfl (after_take_of_lt Cert.KernelIdeal.Around.singleAssignAfter _ (i := 13) rfl (by decide)) (after_take_of_lt Cert.KernelIdeal.Around.singleAssignAfter _ (i := 14) rfl (by decide)) (after_take_of_lt Cert.KernelIdeal.Around.singleAssignAfter _ (i := 11) rfl (by decide)),
    eq_main_v41__main_v41 m m' c hag,
    eq_main_v42__main_v42 m m' c hag,
    eq_main_v40__main_v40 m m' c hag]
  try rfl

theorem eq_main_arg3__main_arg3 : rfin(Cert.ReferenceIdeal.main_arg3) = kfin(Cert.KernelIdeal.main_arg3) := by
  rw [Cert.ReferenceIdeal.Line.arg_kept m' c Cert.ReferenceIdeal.main_arg3 (by decide), Cert.KernelIdeal.Around.final_of_arg m c Cert.KernelIdeal.main_arg3 (by decide) (by decide) (by decide)]
  exact hag.2.2.2.1

theorem eq_main_v44__main_v44 : rfin(Cert.ReferenceIdeal.main_v44) = kfin(Cert.KernelIdeal.main_v44) := by
  rw [final_unary Cert.ReferenceIdeal.Line.singleAssign (launchContents m' c) 57 (x := Cert.ReferenceIdeal.main_arg3) (y := Cert.ReferenceIdeal.main_v44) rfl rfl (after_take_of_not_assigned Cert.ReferenceIdeal.Line.singleAssign _ 57 (by decide)),
    final_unary Cert.KernelIdeal.Around.singleAssignAfter (Cert.KernelIdeal.Around.exitVal m c) 16 (x := Cert.KernelIdeal.main_arg3) (y := Cert.KernelIdeal.main_v44) rfl rfl (after_take_of_not_assigned Cert.KernelIdeal.Around.singleAssignAfter _ 16 (by decide)),
    eq_main_arg3__main_arg3 m m' c hag]
  try rfl

theorem eq_main_v45__main_v45 : rfin(Cert.ReferenceIdeal.main_v45) = kfin(Cert.KernelIdeal.main_v45) := by
  rw [final_unary Cert.ReferenceIdeal.Line.singleAssign (launchContents m' c) 58 (x := Cert.ReferenceIdeal.main_v44) (y := Cert.ReferenceIdeal.main_v45) rfl rfl (after_take_of_lt Cert.ReferenceIdeal.Line.singleAssign _ (i := 57) rfl (by decide)),
    final_unary Cert.KernelIdeal.Around.singleAssignAfter (Cert.KernelIdeal.Around.exitVal m c) 17 (x := Cert.KernelIdeal.main_v44) (y := Cert.KernelIdeal.main_v45) rfl rfl (after_take_of_lt Cert.KernelIdeal.Around.singleAssignAfter _ (i := 16) rfl (by decide)),
    eq_main_v44__main_v44 m m' c hag]
  try rfl

theorem eq_main_v46__main_v46 : rfin(Cert.ReferenceIdeal.main_v46) = kfin(Cert.KernelIdeal.main_v46) := by
  rw [final_binary Cert.ReferenceIdeal.Line.singleAssign (launchContents m' c) 59 (a := Cert.ReferenceIdeal.main_v43) (b := Cert.ReferenceIdeal.main_v45) (y := Cert.ReferenceIdeal.main_v46) rfl rfl (after_take_of_lt Cert.ReferenceIdeal.Line.singleAssign _ (i := 56) rfl (by decide)) (after_take_of_lt Cert.ReferenceIdeal.Line.singleAssign _ (i := 58) rfl (by decide)),
    final_binary Cert.KernelIdeal.Around.singleAssignAfter (Cert.KernelIdeal.Around.exitVal m c) 18 (a := Cert.KernelIdeal.main_v43) (b := Cert.KernelIdeal.main_v45) (y := Cert.KernelIdeal.main_v46) rfl rfl (after_take_of_lt Cert.KernelIdeal.Around.singleAssignAfter _ (i := 15) rfl (by decide)) (after_take_of_lt Cert.KernelIdeal.Around.singleAssignAfter _ (i := 17) rfl (by decide)),
    eq_main_v43__main_v43 m m' c hag,
    eq_main_v45__main_v45 m m' c hag]
  try rfl

theorem eq_main_call1_cst__main_call1_cst : rfin(Cert.ReferenceIdeal.main_call1_cst) = kfin(Cert.KernelIdeal.main_call1_cst) := by
  rw [final_nullary Cert.ReferenceIdeal.Line.singleAssign (launchContents m' c) 60  (y := Cert.ReferenceIdeal.main_call1_cst) rfl rfl ,
    final_nullary Cert.KernelIdeal.Around.singleAssignAfter (Cert.KernelIdeal.Around.exitVal m c) 19  (y := Cert.KernelIdeal.main_call1_cst) rfl rfl ]
  try rfl

theorem eq_main_call1_v0__main_call1_v0 : rfin(Cert.ReferenceIdeal.main_call1_v0) = kfin(Cert.KernelIdeal.main_call1_v0) := by
  rw [final_unary Cert.ReferenceIdeal.Line.singleAssign (launchContents m' c) 61 (x := Cert.ReferenceIdeal.main_call1_cst) (y := Cert.ReferenceIdeal.main_call1_v0) rfl rfl (after_take_of_lt Cert.ReferenceIdeal.Line.singleAssign _ (i := 60) rfl (by decide)),
    final_unary Cert.KernelIdeal.Around.singleAssignAfter (Cert.KernelIdeal.Around.exitVal m c) 20 (x := Cert.KernelIdeal.main_call1_cst) (y := Cert.KernelIdeal.main_call1_v0) rfl rfl (after_take_of_lt Cert.KernelIdeal.Around.singleAssignAfter _ (i := 19) rfl (by decide)),
    eq_main_call1_cst__main_call1_cst m m' c hag]
  try rfl

theorem eq_main_v47__main_v47 : rfin(Cert.ReferenceIdeal.main_v47) = kfin(Cert.KernelIdeal.main_v47) := by
  rw [final_binary Cert.ReferenceIdeal.Line.singleAssign (launchContents m' c) 62 (a := Cert.ReferenceIdeal.main_v46) (b := Cert.ReferenceIdeal.main_call1_v0) (y := Cert.ReferenceIdeal.main_v47) rfl rfl (after_take_of_lt Cert.ReferenceIdeal.Line.singleAssign _ (i := 59) rfl (by decide)) (after_take_of_lt Cert.ReferenceIdeal.Line.singleAssign _ (i := 61) rfl (by decide)),
    final_binary Cert.KernelIdeal.Around.singleAssignAfter (Cert.KernelIdeal.Around.exitVal m c) 21 (a := Cert.KernelIdeal.main_v46) (b := Cert.KernelIdeal.main_call1_v0) (y := Cert.KernelIdeal.main_v47) rfl rfl (after_take_of_lt Cert.KernelIdeal.Around.singleAssignAfter _ (i := 18) rfl (by decide)) (after_take_of_lt Cert.KernelIdeal.Around.singleAssignAfter _ (i := 20) rfl (by decide)),
    eq_main_v46__main_v46 m m' c hag,
    eq_main_call1_v0__main_call1_v0 m m' c hag]
  try rfl

theorem eq_main_arg4__main_arg4 : rfin(Cert.ReferenceIdeal.main_arg4) = kfin(Cert.KernelIdeal.main_arg4) := by
  rw [Cert.ReferenceIdeal.Line.arg_kept m' c Cert.ReferenceIdeal.main_arg4 (by decide), Cert.KernelIdeal.Around.final_of_arg m c Cert.KernelIdeal.main_arg4 (by decide) (by decide) (by decide)]
  exact hag.2.2.2.2.1

theorem eq_main_v48__main_v48 : rfin(Cert.ReferenceIdeal.main_v48) = kfin(Cert.KernelIdeal.main_v48) := by
  rw [final_binary Cert.ReferenceIdeal.Line.singleAssign (launchContents m' c) 63 (a := Cert.ReferenceIdeal.main_v47) (b := Cert.ReferenceIdeal.main_arg4) (y := Cert.ReferenceIdeal.main_v48) rfl rfl (after_take_of_lt Cert.ReferenceIdeal.Line.singleAssign _ (i := 62) rfl (by decide)) (after_take_of_not_assigned Cert.ReferenceIdeal.Line.singleAssign _ 63 (by decide)),
    final_binary Cert.KernelIdeal.Around.singleAssignAfter (Cert.KernelIdeal.Around.exitVal m c) 22 (a := Cert.KernelIdeal.main_v47) (b := Cert.KernelIdeal.main_arg4) (y := Cert.KernelIdeal.main_v48) rfl rfl (after_take_of_lt Cert.KernelIdeal.Around.singleAssignAfter _ (i := 21) rfl (by decide)) (after_take_of_not_assigned Cert.KernelIdeal.Around.singleAssignAfter _ 22 (by decide)),
    eq_main_v47__main_v47 m m' c hag,
    eq_main_arg4__main_arg4 m m' c hag]
  try rfl

theorem eq_main_v50__main_v1 : rfin(Cert.ReferenceIdeal.main_v50) = kfin(Cert.KernelIdeal.main_v1) := by
  rw [final_unary Cert.ReferenceIdeal.Line.singleAssign (launchContents m' c) 65 (x := Cert.ReferenceIdeal.main_arg1) (y := Cert.ReferenceIdeal.main_v50) rfl rfl (after_take_of_not_assigned Cert.ReferenceIdeal.Line.singleAssign _ 65 (by decide)),
    Cert.KernelIdeal.Around.final_of_bypass m c Cert.KernelIdeal.main_v1 (by decide) (by decide),
    final_unary Cert.KernelIdeal.Around.singleAssignBefore (launchContents m c) 1 (x := Cert.KernelIdeal.main_arg1) (y := Cert.KernelIdeal.main_v1) rfl rfl (after_take_of_not_assigned Cert.KernelIdeal.Around.singleAssignBefore _ 1 (by decide)),
    eq_main_arg1__main_arg1 m m' c hag,
    Cert.KernelIdeal.Around.final_of_bypass m c Cert.KernelIdeal.main_arg1 (by decide) (by decide)]
  try rfl

theorem eq_main_v51__main_v2 : rfin(Cert.ReferenceIdeal.main_v51) = kfin(Cert.KernelIdeal.main_v2) := by
  rw [final_reshape Cert.ReferenceIdeal.Line.singleAssign (launchContents m' c) 66 (x := Cert.ReferenceIdeal.main_v50) (y := Cert.ReferenceIdeal.main_v51) rfl rfl (after_take_of_lt Cert.ReferenceIdeal.Line.singleAssign _ (i := 65) rfl (by decide)),
    Cert.KernelIdeal.Around.final_of_bypass m c Cert.KernelIdeal.main_v2 (by decide) (by decide),
    final_reshape Cert.KernelIdeal.Around.singleAssignBefore (launchContents m c) 2 (x := Cert.KernelIdeal.main_v1) (y := Cert.KernelIdeal.main_v2) rfl rfl (after_take_of_lt Cert.KernelIdeal.Around.singleAssignBefore _ (i := 1) rfl (by decide)),
    eq_main_v50__main_v1 m m' c hag,
    Cert.KernelIdeal.Around.final_of_bypass m c Cert.KernelIdeal.main_v1 (by decide) (by decide)]
  try rfl

theorem eq_main_v52__main_v3 : rfin(Cert.ReferenceIdeal.main_v52) = kfin(Cert.KernelIdeal.main_v3) := by
  rw [final_binary Cert.ReferenceIdeal.Line.singleAssign (launchContents m' c) 67 (a := Cert.ReferenceIdeal.main_v51) (b := Cert.ReferenceIdeal.main_v49) (y := Cert.ReferenceIdeal.main_v52) rfl rfl (after_take_of_lt Cert.ReferenceIdeal.Line.singleAssign _ (i := 66) rfl (by decide)) (after_take_of_lt Cert.ReferenceIdeal.Line.singleAssign _ (i := 64) rfl (by decide)),
    Cert.KernelIdeal.Around.final_of_bypass m c Cert.KernelIdeal.main_v3 (by decide) (by decide),
    final_binary Cert.KernelIdeal.Around.singleAssignBefore (launchContents m c) 3 (a := Cert.KernelIdeal.main_v2) (b := Cert.KernelIdeal.main_v0) (y := Cert.KernelIdeal.main_v3) rfl rfl (after_take_of_lt Cert.KernelIdeal.Around.singleAssignBefore _ (i := 2) rfl (by decide)) (after_take_of_lt Cert.KernelIdeal.Around.singleAssignBefore _ (i := 0) rfl (by decide)),
    eq_main_v51__main_v2 m m' c hag,
    eq_main_v49__main_v0 m m' c hag,
    Cert.KernelIdeal.Around.final_of_bypass m c Cert.KernelIdeal.main_v2 (by decide) (by decide),
    Cert.KernelIdeal.Around.final_of_bypass m c Cert.KernelIdeal.main_v0 (by decide) (by decide)]
  try rfl

theorem eq_main_c_17__main_c_9 : rfin(Cert.ReferenceIdeal.main_c_17) = kfin(Cert.KernelIdeal.main_c_9) := by
  rw [final_nullary Cert.ReferenceIdeal.Line.singleAssign (launchContents m' c) 104  (y := Cert.ReferenceIdeal.main_c_17) rfl rfl ,
    final_nullary Cert.KernelIdeal.Around.singleAssignAfter (Cert.KernelIdeal.Around.exitVal m c) 23  (y := Cert.KernelIdeal.main_c_9) rfl rfl ]
  try rfl

theorem eq_main_v79__main_v49 : rfin(Cert.ReferenceIdeal.main_v79) = kfin(Cert.KernelIdeal.main_v49) := by
  rw [final_unary Cert.ReferenceIdeal.Line.singleAssign (launchContents m' c) 105 (x := Cert.ReferenceIdeal.main_c_17) (y := Cert.ReferenceIdeal.main_v79) rfl rfl (after_take_of_lt Cert.ReferenceIdeal.Line.singleAssign _ (i := 104) rfl (by decide)),
    final_unary Cert.KernelIdeal.Around.singleAssignAfter (Cert.KernelIdeal.Around.exitVal m c) 24 (x := Cert.KernelIdeal.main_c_9) (y := Cert.KernelIdeal.main_v49) rfl rfl (after_take_of_lt Cert.KernelIdeal.Around.singleAssignAfter _ (i := 23) rfl (by decide)),
    eq_main_c_17__main_c_9 m m' c hag]
  try rfl

theorem eq_main_v80__main_v50 : rfin(Cert.ReferenceIdeal.main_v80) = kfin(Cert.KernelIdeal.main_v50) := by
  rw [final_binary Cert.ReferenceIdeal.Line.singleAssign (launchContents m' c) 106 (a := Cert.ReferenceIdeal.main_v52) (b := Cert.ReferenceIdeal.main_v79) (y := Cert.ReferenceIdeal.main_v80) rfl rfl (after_take_of_lt Cert.ReferenceIdeal.Line.singleAssign _ (i := 67) rfl (by decide)) (after_take_of_lt Cert.ReferenceIdeal.Line.singleAssign _ (i := 105) rfl (by decide)),
    final_binary Cert.KernelIdeal.Around.singleAssignAfter (Cert.KernelIdeal.Around.exitVal m c) 25 (a := Cert.KernelIdeal.main_v3) (b := Cert.KernelIdeal.main_v49) (y := Cert.KernelIdeal.main_v50) rfl rfl (after_take_of_not_assigned Cert.KernelIdeal.Around.singleAssignAfter _ 25 (by decide)) (after_take_of_lt Cert.KernelIdeal.Around.singleAssignAfter _ (i := 24) rfl (by decide)),
    eq_main_v52__main_v3 m m' c hag,
    eq_main_v79__main_v49 m m' c hag]
  try rfl

theorem eq_main_c_18__main_c_10 : rfin(Cert.ReferenceIdeal.main_c_18) = kfin(Cert.KernelIdeal.main_c_10) := by
  rw [final_nullary Cert.ReferenceIdeal.Line.singleAssign (launchContents m' c) 107  (y := Cert.ReferenceIdeal.main_c_18) rfl rfl ,
    final_nullary Cert.KernelIdeal.Around.singleAssignAfter (Cert.KernelIdeal.Around.exitVal m c) 26  (y := Cert.KernelIdeal.main_c_10) rfl rfl ]
  try rfl

theorem eq_main_v81__main_v51 : rfin(Cert.ReferenceIdeal.main_v81) = kfin(Cert.KernelIdeal.main_v51) := by
  rw [final_unary Cert.ReferenceIdeal.Line.singleAssign (launchContents m' c) 108 (x := Cert.ReferenceIdeal.main_c_18) (y := Cert.ReferenceIdeal.main_v81) rfl rfl (after_take_of_lt Cert.ReferenceIdeal.Line.singleAssign _ (i := 107) rfl (by decide)),
    final_unary Cert.KernelIdeal.Around.singleAssignAfter (Cert.KernelIdeal.Around.exitVal m c) 27 (x := Cert.KernelIdeal.main_c_10) (y := Cert.KernelIdeal.main_v51) rfl rfl (after_take_of_lt Cert.KernelIdeal.Around.singleAssignAfter _ (i := 26) rfl (by decide)),
    eq_main_c_18__main_c_10 m m' c hag]
  try rfl

theorem eq_main_v82__main_v52 : rfin(Cert.ReferenceIdeal.main_v82) = kfin(Cert.KernelIdeal.main_v52) := by
  rw [final_binary Cert.ReferenceIdeal.Line.singleAssign (launchContents m' c) 109 (a := Cert.ReferenceIdeal.main_v52) (b := Cert.ReferenceIdeal.main_v81) (y := Cert.ReferenceIdeal.main_v82) rfl rfl (after_take_of_lt Cert.ReferenceIdeal.Line.singleAssign _ (i := 67) rfl (by decide)) (after_take_of_lt Cert.ReferenceIdeal.Line.singleAssign _ (i := 108) rfl (by decide)),
    final_binary Cert.KernelIdeal.Around.singleAssignAfter (Cert.KernelIdeal.Around.exitVal m c) 28 (a := Cert.KernelIdeal.main_v3) (b := Cert.KernelIdeal.main_v51) (y := Cert.KernelIdeal.main_v52) rfl rfl (after_take_of_not_assigned Cert.KernelIdeal.Around.singleAssignAfter _ 28 (by decide)) (after_take_of_lt Cert.KernelIdeal.Around.singleAssignAfter _ (i := 27) rfl (by decide)),
    eq_main_v52__main_v3 m m' c hag,
    eq_main_v81__main_v51 m m' c hag]
  try rfl

theorem eq_main_v83__main_v53 : rfin(Cert.ReferenceIdeal.main_v83) = kfin(Cert.KernelIdeal.main_v53) := by
  rw [final_ternary Cert.ReferenceIdeal.Line.singleAssign (launchContents m' c) 110 (c := Cert.ReferenceIdeal.main_v80) (a := Cert.ReferenceIdeal.main_v82) (b := Cert.ReferenceIdeal.main_v52) (y := Cert.ReferenceIdeal.main_v83) rfl rfl (after_take_of_lt Cert.ReferenceIdeal.Line.singleAssign _ (i := 106) rfl (by decide)) (after_take_of_lt Cert.ReferenceIdeal.Line.singleAssign _ (i := 109) rfl (by decide)) (after_take_of_lt Cert.ReferenceIdeal.Line.singleAssign _ (i := 67) rfl (by decide)),
    final_ternary Cert.KernelIdeal.Around.singleAssignAfter (Cert.KernelIdeal.Around.exitVal m c) 29 (c := Cert.KernelIdeal.main_v50) (a := Cert.KernelIdeal.main_v52) (b := Cert.KernelIdeal.main_v3) (y := Cert.KernelIdeal.main_v53) rfl rfl (after_take_of_lt Cert.KernelIdeal.Around.singleAssignAfter _ (i := 25) rfl (by decide)) (after_take_of_lt Cert.KernelIdeal.Around.singleAssignAfter _ (i := 28) rfl (by decide)) (after_take_of_not_assigned Cert.KernelIdeal.Around.singleAssignAfter _ 29 (by decide)),
    eq_main_v80__main_v50 m m' c hag,
    eq_main_v82__main_v52 m m' c hag,
    eq_main_v52__main_v3 m m' c hag]
  try rfl

theorem eq_main_v84__main_v54 : rfin(Cert.ReferenceIdeal.main_v84) = kfin(Cert.KernelIdeal.main_v54) := by
  rw [final_unary Cert.ReferenceIdeal.Line.singleAssign (launchContents m' c) 111 (x := Cert.ReferenceIdeal.main_v83) (y := Cert.ReferenceIdeal.main_v84) rfl rfl (after_take_of_lt Cert.ReferenceIdeal.Line.singleAssign _ (i := 110) rfl (by decide)),
    final_unary Cert.KernelIdeal.Around.singleAssignAfter (Cert.KernelIdeal.Around.exitVal m c) 30 (x := Cert.KernelIdeal.main_v53) (y := Cert.KernelIdeal.main_v54) rfl rfl (after_take_of_lt Cert.KernelIdeal.Around.singleAssignAfter _ (i := 29) rfl (by decide)),
    eq_main_v83__main_v53 m m' c hag]
  try rfl

theorem eq_main_v85__main_v55 : rfin(Cert.ReferenceIdeal.main_v85) = kfin(Cert.KernelIdeal.main_v55) := by
  rw [final_binary Cert.ReferenceIdeal.Line.singleAssign (launchContents m' c) 112 (a := Cert.ReferenceIdeal.main_v48) (b := Cert.ReferenceIdeal.main_v84) (y := Cert.ReferenceIdeal.main_v85) rfl rfl (after_take_of_lt Cert.ReferenceIdeal.Line.singleAssign _ (i := 63) rfl (by decide)) (after_take_of_lt Cert.ReferenceIdeal.Line.singleAssign _ (i := 111) rfl (by decide)),
    final_binary Cert.KernelIdeal.Around.singleAssignAfter (Cert.KernelIdeal.Around.exitVal m c) 31 (a := Cert.KernelIdeal.main_v48) (b := Cert.KernelIdeal.main_v54) (y := Cert.KernelIdeal.main_v55) rfl rfl (after_take_of_lt Cert.KernelIdeal.Around.singleAssignAfter _ (i := 22) rfl (by decide)) (after_take_of_lt Cert.KernelIdeal.Around.singleAssignAfter _ (i := 30) rfl (by decide)),
    eq_main_v48__main_v48 m m' c hag,
    eq_main_v84__main_v54 m m' c hag]
  try rfl

theorem eq_main_cst_10__main_cst_0 : rfin(Cert.ReferenceIdeal.main_cst_10) = kfin(Cert.KernelIdeal.main_cst_0) := by
  rw [final_nullary Cert.ReferenceIdeal.Line.singleAssign (launchContents m' c) 73  (y := Cert.ReferenceIdeal.main_cst_10) rfl rfl ,
    Cert.KernelIdeal.Around.final_of_bypass m c Cert.KernelIdeal.main_cst_0 (by decide) (by decide),
    final_nullary Cert.KernelIdeal.Around.singleAssignBefore (launchContents m c) 9  (y := Cert.KernelIdeal.main_cst_0) rfl rfl ]
  try rfl

theorem eq_main_v57__main_v8 : rfin(Cert.ReferenceIdeal.main_v57) = kfin(Cert.KernelIdeal.main_v8) := by
  rw [final_unary Cert.ReferenceIdeal.Line.singleAssign (launchContents m' c) 74 (x := Cert.ReferenceIdeal.main_cst_10) (y := Cert.ReferenceIdeal.main_v57) rfl rfl (after_take_of_lt Cert.ReferenceIdeal.Line.singleAssign _ (i := 73) rfl (by decide)),
    Cert.KernelIdeal.Around.final_of_bypass m c Cert.KernelIdeal.main_v8 (by decide) (by decide),
    final_unary Cert.KernelIdeal.Around.singleAssignBefore (launchContents m c) 10 (x := Cert.KernelIdeal.main_cst_0) (y := Cert.KernelIdeal.main_v8) rfl rfl (after_take_of_lt Cert.KernelIdeal.Around.singleAssignBefore _ (i := 9) rfl (by decide)),
    eq_main_cst_10__main_cst_0 m m' c hag,
    Cert.KernelIdeal.Around.final_of_bypass m c Cert.KernelIdeal.main_cst_0 (by decide) (by decide)]
  try rfl

theorem eq_main_v58__main_v9 : rfin(Cert.ReferenceIdeal.main_v58) = kfin(Cert.KernelIdeal.main_v9) := by
  rw [final_unary Cert.ReferenceIdeal.Line.singleAssign (launchContents m' c) 75 (x := Cert.ReferenceIdeal.main_v55) (y := Cert.ReferenceIdeal.main_v58) rfl rfl (after_take_of_lt Cert.ReferenceIdeal.Line.singleAssign _ (i := 70) rfl (by decide)),
    Cert.KernelIdeal.Around.final_of_bypass m c Cert.KernelIdeal.main_v9 (by decide) (by decide),
    final_unary Cert.KernelIdeal.Around.singleAssignBefore (launchContents m c) 11 (x := Cert.KernelIdeal.main_v6) (y := Cert.KernelIdeal.main_v9) rfl rfl (after_take_of_lt Cert.KernelIdeal.Around.singleAssignBefore _ (i := 6) rfl (by decide)),
    eq_main_v55__main_v6 m m' c hag,
    Cert.KernelIdeal.Around.final_of_bypass m c Cert.KernelIdeal.main_v6 (by decide) (by decide)]
  try rfl

theorem eq_main_cst_9__main_cst : rfin(Cert.ReferenceIdeal.main_cst_9) = kfin(Cert.KernelIdeal.main_cst) := by
  rw [final_nullary Cert.ReferenceIdeal.Line.singleAssign (launchContents m' c) 71  (y := Cert.ReferenceIdeal.main_cst_9) rfl rfl ,
    Cert.KernelIdeal.Around.final_of_bypass m c Cert.KernelIdeal.main_cst (by decide) (by decide),
    final_nullary Cert.KernelIdeal.Around.singleAssignBefore (launchContents m c) 7  (y := Cert.KernelIdeal.main_cst) rfl rfl ]
  try rfl

theorem eq_main_v56__main_v7 : rfin(Cert.ReferenceIdeal.main_v56) = kfin(Cert.KernelIdeal.main_v7) := by
  rw [final_unary Cert.ReferenceIdeal.Line.singleAssign (launchContents m' c) 72 (x := Cert.ReferenceIdeal.main_cst_9) (y := Cert.ReferenceIdeal.main_v56) rfl rfl (after_take_of_lt Cert.ReferenceIdeal.Line.singleAssign _ (i := 71) rfl (by decide)),
    Cert.KernelIdeal.Around.final_of_bypass m c Cert.KernelIdeal.main_v7 (by decide) (by decide),
    final_unary Cert.KernelIdeal.Around.singleAssignBefore (launchContents m c) 8 (x := Cert.KernelIdeal.main_cst) (y := Cert.KernelIdeal.main_v7) rfl rfl (after_take_of_lt Cert.KernelIdeal.Around.singleAssignBefore _ (i := 7) rfl (by decide)),
    eq_main_cst_9__main_cst m m' c hag,
    Cert.KernelIdeal.Around.final_of_bypass m c Cert.KernelIdeal.main_cst (by decide) (by decide)]
  try rfl

theorem eq_main_v59__main_v10 : rfin(Cert.ReferenceIdeal.main_v59) = kfin(Cert.KernelIdeal.main_v10) := by
  rw [final_ternary Cert.ReferenceIdeal.Line.singleAssign (launchContents m' c) 76 (c := Cert.ReferenceIdeal.main_v57) (a := Cert.ReferenceIdeal.main_v58) (b := Cert.ReferenceIdeal.main_v56) (y := Cert.ReferenceIdeal.main_v59) rfl rfl (after_take_of_lt Cert.ReferenceIdeal.Line.singleAssign _ (i := 74) rfl (by decide)) (after_take_of_lt Cert.ReferenceIdeal.Line.singleAssign _ (i := 75) rfl (by decide)) (after_take_of_lt Cert.ReferenceIdeal.Line.singleAssign _ (i := 72) rfl (by decide)),
    Cert.KernelIdeal.Around.final_of_bypass m c Cert.KernelIdeal.main_v10 (by decide) (by decide),
    final_ternary Cert.KernelIdeal.Around.singleAssignBefore (launchContents m c) 12 (c := Cert.KernelIdeal.main_v8) (a := Cert.KernelIdeal.main_v9) (b := Cert.KernelIdeal.main_v7) (y := Cert.KernelIdeal.main_v10) rfl rfl (after_take_of_lt Cert.KernelIdeal.Around.singleAssignBefore _ (i := 10) rfl (by decide)) (after_take_of_lt Cert.KernelIdeal.Around.singleAssignBefore _ (i := 11) rfl (by decide)) (after_take_of_lt Cert.KernelIdeal.Around.singleAssignBefore _ (i := 8) rfl (by decide)),
    eq_main_v57__main_v8 m m' c hag,
    eq_main_v58__main_v9 m m' c hag,
    eq_main_v56__main_v7 m m' c hag,
    Cert.KernelIdeal.Around.final_of_bypass m c Cert.KernelIdeal.main_v8 (by decide) (by decide),
    Cert.KernelIdeal.Around.final_of_bypass m c Cert.KernelIdeal.main_v9 (by decide) (by decide),
    Cert.KernelIdeal.Around.final_of_bypass m c Cert.KernelIdeal.main_v7 (by decide) (by decide)]
  try rfl

theorem eq_main_cst_11__main_cst_1 : rfin(Cert.ReferenceIdeal.main_cst_11) = kfin(Cert.KernelIdeal.main_cst_1) := by
  rw [final_nullary Cert.ReferenceIdeal.Line.singleAssign (launchContents m' c) 77  (y := Cert.ReferenceIdeal.main_cst_11) rfl rfl ,
    Cert.KernelIdeal.Around.final_of_bypass m c Cert.KernelIdeal.main_cst_1 (by decide) (by decide),
    final_nullary Cert.KernelIdeal.Around.singleAssignBefore (launchContents m c) 13  (y := Cert.KernelIdeal.main_cst_1) rfl rfl ]
  try rfl

theorem eq_main_v60__main_v11 : rfin(Cert.ReferenceIdeal.main_v60) = kfin(Cert.KernelIdeal.main_v11) := by
  rw [final_unary Cert.ReferenceIdeal.Line.singleAssign (launchContents m' c) 78 (x := Cert.ReferenceIdeal.main_cst_11) (y := Cert.ReferenceIdeal.main_v60) rfl rfl (after_take_of_lt Cert.ReferenceIdeal.Line.singleAssign _ (i := 77) rfl (by decide)),
    Cert.KernelIdeal.Around.final_of_bypass m c Cert.KernelIdeal.main_v11 (by decide) (by decide),
    final_unary Cert.KernelIdeal.Around.singleAssignBefore (launchContents m c) 14 (x := Cert.KernelIdeal.main_cst_1) (y := Cert.KernelIdeal.main_v11) rfl rfl (after_take_of_lt Cert.KernelIdeal.Around.singleAssignBefore _ (i := 13) rfl (by decide)),
    eq_main_cst_11__main_cst_1 m m' c hag,
    Cert.KernelIdeal.Around.final_of_bypass m c Cert.KernelIdeal.main_cst_1 (by decide) (by decide)]
  try rfl

theorem eq_main_v61__main_v12 : rfin(Cert.ReferenceIdeal.main_v61) = kfin(Cert.KernelIdeal.main_v12) := by
  rw [final_binary Cert.ReferenceIdeal.Line.singleAssign (launchContents m' c) 79 (a := Cert.ReferenceIdeal.main_v59) (b := Cert.ReferenceIdeal.main_v60) (y := Cert.ReferenceIdeal.main_v61) rfl rfl (after_take_of_lt Cert.ReferenceIdeal.Line.singleAssign _ (i := 76) rfl (by decide)) (after_take_of_lt Cert.ReferenceIdeal.Line.singleAssign _ (i := 78) rfl (by decide)),
    Cert.KernelIdeal.Around.final_of_bypass m c Cert.KernelIdeal.main_v12 (by decide) (by decide),
    final_binary Cert.KernelIdeal.Around.singleAssignBefore (launchContents m c) 15 (a := Cert.KernelIdeal.main_v10) (b := Cert.KernelIdeal.main_v11) (y := Cert.KernelIdeal.main_v12) rfl rfl (after_take_of_lt Cert.KernelIdeal.Around.singleAssignBefore _ (i := 12) rfl (by decide)) (after_take_of_lt Cert.KernelIdeal.Around.singleAssignBefore _ (i := 14) rfl (by decide)),
    eq_main_v59__main_v10 m m' c hag,
    eq_main_v60__main_v11 m m' c hag,
    Cert.KernelIdeal.Around.final_of_bypass m c Cert.KernelIdeal.main_v10 (by decide) (by decide),
    Cert.KernelIdeal.Around.final_of_bypass m c Cert.KernelIdeal.main_v11 (by decide) (by decide)]
  try rfl

theorem eq_main_v62__main_v13 : rfin(Cert.ReferenceIdeal.main_v62) = kfin(Cert.KernelIdeal.main_v13) := by
  rw [final_unary Cert.ReferenceIdeal.Line.singleAssign (launchContents m' c) 80 (x := Cert.ReferenceIdeal.main_v59) (y := Cert.ReferenceIdeal.main_v62) rfl rfl (after_take_of_lt Cert.ReferenceIdeal.Line.singleAssign _ (i := 76) rfl (by decide)),
    Cert.KernelIdeal.Around.final_of_bypass m c Cert.KernelIdeal.main_v13 (by decide) (by decide),
    final_unary Cert.KernelIdeal.Around.singleAssignBefore (launchContents m c) 16 (x := Cert.KernelIdeal.main_v10) (y := Cert.KernelIdeal.main_v13) rfl rfl (after_take_of_lt Cert.KernelIdeal.Around.singleAssignBefore _ (i := 12) rfl (by decide)),
    eq_main_v59__main_v10 m m' c hag,
    Cert.KernelIdeal.Around.final_of_bypass m c Cert.KernelIdeal.main_v10 (by decide) (by decide)]
  try rfl

theorem eq_main_cst_12__main_cst_2 : rfin(Cert.ReferenceIdeal.main_cst_12) = kfin(Cert.KernelIdeal.main_cst_2) := by
  rw [final_nullary Cert.ReferenceIdeal.Line.singleAssign (launchContents m' c) 81  (y := Cert.ReferenceIdeal.main_cst_12) rfl rfl ,
    Cert.KernelIdeal.Around.final_of_bypass m c Cert.KernelIdeal.main_cst_2 (by decide) (by decide),
    final_nullary Cert.KernelIdeal.Around.singleAssignBefore (launchContents m c) 17  (y := Cert.KernelIdeal.main_cst_2) rfl rfl ]
  try rfl

theorem eq_main_call2_v0__main_call0_v0 : rfin(Cert.ReferenceIdeal.main_call2_v0) = kfin(Cert.KernelIdeal.main_call0_v0) := by
  rw [final_unary Cert.ReferenceIdeal.Line.singleAssign (launchContents m' c) 82 (x := Cert.ReferenceIdeal.main_cst_12) (y := Cert.ReferenceIdeal.main_call2_v0) rfl rfl (after_take_of_lt Cert.ReferenceIdeal.Line.singleAssign _ (i := 81) rfl (by decide)),
    Cert.KernelIdeal.Around.final_of_bypass m c Cert.KernelIdeal.main_call0_v0 (by decide) (by decide),
    final_unary Cert.KernelIdeal.Around.singleAssignBefore (launchContents m c) 18 (x := Cert.KernelIdeal.main_cst_2) (y := Cert.KernelIdeal.main_call0_v0) rfl rfl (after_take_of_lt Cert.KernelIdeal.Around.singleAssignBefore _ (i := 17) rfl (by decide)),
    eq_main_cst_12__main_cst_2 m m' c hag,
    Cert.KernelIdeal.Around.final_of_bypass m c Cert.KernelIdeal.main_cst_2 (by decide) (by decide)]
  try rfl

theorem eq_main_call2_v1__main_call0_v1 : rfin(Cert.ReferenceIdeal.main_call2_v1) = kfin(Cert.KernelIdeal.main_call0_v1) := by
  rw [final_unary Cert.ReferenceIdeal.Line.singleAssign (launchContents m' c) 83 (x := Cert.ReferenceIdeal.main_call2_v0) (y := Cert.ReferenceIdeal.main_call2_v1) rfl rfl (after_take_of_lt Cert.ReferenceIdeal.Line.singleAssign _ (i := 82) rfl (by decide)),
    Cert.KernelIdeal.Around.final_of_bypass m c Cert.KernelIdeal.main_call0_v1 (by decide) (by decide),
    final_unary Cert.KernelIdeal.Around.singleAssignBefore (launchContents m c) 19 (x := Cert.KernelIdeal.main_call0_v0) (y := Cert.KernelIdeal.main_call0_v1) rfl rfl (after_take_of_lt Cert.KernelIdeal.Around.singleAssignBefore _ (i := 18) rfl (by decide)),
    eq_main_call2_v0__main_call0_v0 m m' c hag,
    Cert.KernelIdeal.Around.final_of_bypass m c Cert.KernelIdeal.main_call0_v0 (by decide) (by decide)]
  try rfl

theorem eq_main_v63__main_v14 : rfin(Cert.ReferenceIdeal.main_v63) = kfin(Cert.KernelIdeal.main_v14) := by
  rw [final_ternary Cert.ReferenceIdeal.Line.singleAssign (launchContents m' c) 84 (c := Cert.ReferenceIdeal.main_v61) (a := Cert.ReferenceIdeal.main_v62) (b := Cert.ReferenceIdeal.main_call2_v1) (y := Cert.ReferenceIdeal.main_v63) rfl rfl (after_take_of_lt Cert.ReferenceIdeal.Line.singleAssign _ (i := 79) rfl (by decide)) (after_take_of_lt Cert.ReferenceIdeal.Line.singleAssign _ (i := 80) rfl (by decide)) (after_take_of_lt Cert.ReferenceIdeal.Line.singleAssign _ (i := 83) rfl (by decide)),
    Cert.KernelIdeal.Around.final_of_bypass m c Cert.KernelIdeal.main_v14 (by decide) (by decide),
    final_ternary Cert.KernelIdeal.Around.singleAssignBefore (launchContents m c) 20 (c := Cert.KernelIdeal.main_v12) (a := Cert.KernelIdeal.main_v13) (b := Cert.KernelIdeal.main_call0_v1) (y := Cert.KernelIdeal.main_v14) rfl rfl (after_take_of_lt Cert.KernelIdeal.Around.singleAssignBefore _ (i := 15) rfl (by decide)) (after_take_of_lt Cert.KernelIdeal.Around.singleAssignBefore _ (i := 16) rfl (by decide)) (after_take_of_lt Cert.KernelIdeal.Around.singleAssignBefore _ (i := 19) rfl (by decide)),
    eq_main_v61__main_v12 m m' c hag,
    eq_main_v62__main_v13 m m' c hag,
    eq_main_call2_v1__main_call0_v1 m m' c hag,
    Cert.KernelIdeal.Around.final_of_bypass m c Cert.KernelIdeal.main_v12 (by decide) (by decide),
    Cert.KernelIdeal.Around.final_of_bypass m c Cert.KernelIdeal.main_v13 (by decide) (by decide),
    Cert.KernelIdeal.Around.final_of_bypass m c Cert.KernelIdeal.main_call0_v1 (by decide) (by decide)]
  try rfl

theorem eq_main_c_13__main_c : rfin(Cert.ReferenceIdeal.main_c_13) = kfin(Cert.KernelIdeal.main_c) := by
  rw [final_nullary Cert.ReferenceIdeal.Line.singleAssign (launchContents m' c) 85  (y := Cert.ReferenceIdeal.main_c_13) rfl rfl ,
    Cert.KernelIdeal.Around.final_of_bypass m c Cert.KernelIdeal.main_c (by decide) (by decide),
    final_nullary Cert.KernelIdeal.Around.singleAssignBefore (launchContents m c) 21  (y := Cert.KernelIdeal.main_c) rfl rfl ]
  try rfl

theorem eq_main_v64__main_v15 : rfin(Cert.ReferenceIdeal.main_v64) = kfin(Cert.KernelIdeal.main_v15) := by
  rw [final_unary Cert.ReferenceIdeal.Line.singleAssign (launchContents m' c) 86 (x := Cert.ReferenceIdeal.main_c_13) (y := Cert.ReferenceIdeal.main_v64) rfl rfl (after_take_of_lt Cert.ReferenceIdeal.Line.singleAssign _ (i := 85) rfl (by decide)),
    Cert.KernelIdeal.Around.final_of_bypass m c Cert.KernelIdeal.main_v15 (by decide) (by decide),
    final_unary Cert.KernelIdeal.Around.singleAssignBefore (launchContents m c) 22 (x := Cert.KernelIdeal.main_c) (y := Cert.KernelIdeal.main_v15) rfl rfl (after_take_of_lt Cert.KernelIdeal.Around.singleAssignBefore _ (i := 21) rfl (by decide)),
    eq_main_c_13__main_c m m' c hag,
    Cert.KernelIdeal.Around.final_of_bypass m c Cert.KernelIdeal.main_c (by decide) (by decide)]
  try rfl

theorem eq_main_v65__main_v16 : rfin(Cert.ReferenceIdeal.main_v65) = kfin(Cert.KernelIdeal.main_v16) := by
  rw [final_binary Cert.ReferenceIdeal.Line.singleAssign (launchContents m' c) 87 (a := Cert.ReferenceIdeal.main_v52) (b := Cert.ReferenceIdeal.main_v64) (y := Cert.ReferenceIdeal.main_v65) rfl rfl (after_take_of_lt Cert.ReferenceIdeal.Line.singleAssign _ (i := 67) rfl (by decide)) (after_take_of_lt Cert.ReferenceIdeal.Line.singleAssign _ (i := 86) rfl (by decide)),
    Cert.KernelIdeal.Around.final_of_bypass m c Cert.KernelIdeal.main_v16 (by decide) (by decide),
    final_binary Cert.KernelIdeal.Around.singleAssignBefore (launchContents m c) 23 (a := Cert.KernelIdeal.main_v3) (b := Cert.KernelIdeal.main_v15) (y := Cert.KernelIdeal.main_v16) rfl rfl (after_take_of_lt Cert.KernelIdeal.Around.singleAssignBefore _ (i := 3) rfl (by decide)) (after_take_of_lt Cert.KernelIdeal.Around.singleAssignBefore _ (i := 22) rfl (by decide)),
    eq_main_v52__main_v3 m m' c hag,
    eq_main_v64__main_v15 m m' c hag,
    Cert.KernelIdeal.Around.final_of_bypass m c Cert.KernelIdeal.main_v3 (by decide) (by decide),
    Cert.KernelIdeal.Around.final_of_bypass m c Cert.KernelIdeal.main_v15 (by decide) (by decide)]
  try rfl

theorem eq_main_c_14__main_c_3 : rfin(Cert.ReferenceIdeal.main_c_14) = kfin(Cert.KernelIdeal.main_c_3) := by
  rw [final_nullary Cert.ReferenceIdeal.Line.singleAssign (launchContents m' c) 88  (y := Cert.ReferenceIdeal.main_c_14) rfl rfl ,
    Cert.KernelIdeal.Around.final_of_bypass m c Cert.KernelIdeal.main_c_3 (by decide) (by decide),
    final_nullary Cert.KernelIdeal.Around.singleAssignBefore (launchContents m c) 24  (y := Cert.KernelIdeal.main_c_3) rfl rfl ]
  try rfl

theorem eq_main_v66__main_v17 : rfin(Cert.ReferenceIdeal.main_v66) = kfin(Cert.KernelIdeal.main_v17) := by
  rw [final_unary Cert.ReferenceIdeal.Line.singleAssign (launchContents m' c) 89 (x := Cert.ReferenceIdeal.main_c_14) (y := Cert.ReferenceIdeal.main_v66) rfl rfl (after_take_of_lt Cert.ReferenceIdeal.Line.singleAssign _ (i := 88) rfl (by decide)),
    Cert.KernelIdeal.Around.final_of_bypass m c Cert.KernelIdeal.main_v17 (by decide) (by decide),
    final_unary Cert.KernelIdeal.Around.singleAssignBefore (launchContents m c) 25 (x := Cert.KernelIdeal.main_c_3) (y := Cert.KernelIdeal.main_v17) rfl rfl (after_take_of_lt Cert.KernelIdeal.Around.singleAssignBefore _ (i := 24) rfl (by decide)),
    eq_main_c_14__main_c_3 m m' c hag,
    Cert.KernelIdeal.Around.final_of_bypass m c Cert.KernelIdeal.main_c_3 (by decide) (by decide)]
  try rfl

theorem eq_main_v67__main_v18 : rfin(Cert.ReferenceIdeal.main_v67) = kfin(Cert.KernelIdeal.main_v18) := by
  rw [final_binary Cert.ReferenceIdeal.Line.singleAssign (launchContents m' c) 90 (a := Cert.ReferenceIdeal.main_v52) (b := Cert.ReferenceIdeal.main_v66) (y := Cert.ReferenceIdeal.main_v67) rfl rfl (after_take_of_lt Cert.ReferenceIdeal.Line.singleAssign _ (i := 67) rfl (by decide)) (after_take_of_lt Cert.ReferenceIdeal.Line.singleAssign _ (i := 89) rfl (by decide)),
    Cert.KernelIdeal.Around.final_of_bypass m c Cert.KernelIdeal.main_v18 (by decide) (by decide),
    final_binary Cert.KernelIdeal.Around.singleAssignBefore (launchContents m c) 26 (a := Cert.KernelIdeal.main_v3) (b := Cert.KernelIdeal.main_v17) (y := Cert.KernelIdeal.main_v18) rfl rfl (after_take_of_lt Cert.KernelIdeal.Around.singleAssignBefore _ (i := 3) rfl (by decide)) (after_take_of_lt Cert.KernelIdeal.Around.singleAssignBefore _ (i := 25) rfl (by decide)),
    eq_main_v52__main_v3 m m' c hag,
    eq_main_v66__main_v17 m m' c hag,
    Cert.KernelIdeal.Around.final_of_bypass m c Cert.KernelIdeal.main_v3 (by decide) (by decide),
    Cert.KernelIdeal.Around.final_of_bypass m c Cert.KernelIdeal.main_v17 (by decide) (by decide)]
  try rfl

theorem eq_main_v68__main_v19 : rfin(Cert.ReferenceIdeal.main_v68) = kfin(Cert.KernelIdeal.main_v19) := by
  rw [final_ternary Cert.ReferenceIdeal.Line.singleAssign (launchContents m' c) 91 (c := Cert.ReferenceIdeal.main_v65) (a := Cert.ReferenceIdeal.main_v67) (b := Cert.ReferenceIdeal.main_v52) (y := Cert.ReferenceIdeal.main_v68) rfl rfl (after_take_of_lt Cert.ReferenceIdeal.Line.singleAssign _ (i := 87) rfl (by decide)) (after_take_of_lt Cert.ReferenceIdeal.Line.singleAssign _ (i := 90) rfl (by decide)) (after_take_of_lt Cert.ReferenceIdeal.Line.singleAssign _ (i := 67) rfl (by decide)),
    Cert.KernelIdeal.Around.final_of_bypass m c Cert.KernelIdeal.main_v19 (by decide) (by decide),
    final_ternary Cert.KernelIdeal.Around.singleAssignBefore (launchContents m c) 27 (c := Cert.KernelIdeal.main_v16) (a := Cert.KernelIdeal.main_v18) (b := Cert.KernelIdeal.main_v3) (y := Cert.KernelIdeal.main_v19) rfl rfl (after_take_of_lt Cert.KernelIdeal.Around.singleAssignBefore _ (i := 23) rfl (by decide)) (after_take_of_lt Cert.KernelIdeal.Around.singleAssignBefore _ (i := 26) rfl (by decide)) (after_take_of_lt Cert.KernelIdeal.Around.singleAssignBefore _ (i := 3) rfl (by decide)),
    eq_main_v65__main_v16 m m' c hag,
    eq_main_v67__main_v18 m m' c hag,
    eq_main_v52__main_v3 m m' c hag,
    Cert.KernelIdeal.Around.final_of_bypass m c Cert.KernelIdeal.main_v16 (by decide) (by decide),
    Cert.KernelIdeal.Around.final_of_bypass m c Cert.KernelIdeal.main_v18 (by decide) (by decide),
    Cert.KernelIdeal.Around.final_of_bypass m c Cert.KernelIdeal.main_v3 (by decide) (by decide)]
  try rfl

theorem eq_main_v69__main_v20 : rfin(Cert.ReferenceIdeal.main_v69) = kfin(Cert.KernelIdeal.main_v20) := by
  rw [final_unary Cert.ReferenceIdeal.Line.singleAssign (launchContents m' c) 92 (x := Cert.ReferenceIdeal.main_v68) (y := Cert.ReferenceIdeal.main_v69) rfl rfl (after_take_of_lt Cert.ReferenceIdeal.Line.singleAssign _ (i := 91) rfl (by decide)),
    Cert.KernelIdeal.Around.final_of_bypass m c Cert.KernelIdeal.main_v20 (by decide) (by decide),
    final_unary Cert.KernelIdeal.Around.singleAssignBefore (launchContents m c) 28 (x := Cert.KernelIdeal.main_v19) (y := Cert.KernelIdeal.main_v20) rfl rfl (after_take_of_lt Cert.KernelIdeal.Around.singleAssignBefore _ (i := 27) rfl (by decide)),
    eq_main_v68__main_v19 m m' c hag,
    Cert.KernelIdeal.Around.final_of_bypass m c Cert.KernelIdeal.main_v19 (by decide) (by decide)]
  try rfl

theorem eq_main_v70__main_v21 : rfin(Cert.ReferenceIdeal.main_v70) = kfin(Cert.KernelIdeal.main_v21) := by
  rw [final_binary Cert.ReferenceIdeal.Line.singleAssign (launchContents m' c) 93 (a := Cert.ReferenceIdeal.main_v63) (b := Cert.ReferenceIdeal.main_v69) (y := Cert.ReferenceIdeal.main_v70) rfl rfl (after_take_of_lt Cert.ReferenceIdeal.Line.singleAssign _ (i := 84) rfl (by decide)) (after_take_of_lt Cert.ReferenceIdeal.Line.singleAssign _ (i := 92) rfl (by decide)),
    Cert.KernelIdeal.Around.final_of_bypass m c Cert.KernelIdeal.main_v21 (by decide) (by decide),
    final_binary Cert.KernelIdeal.Around.singleAssignBefore (launchContents m c) 29 (a := Cert.KernelIdeal.main_v14) (b := Cert.KernelIdeal.main_v20) (y := Cert.KernelIdeal.main_v21) rfl rfl (after_take_of_lt Cert.KernelIdeal.Around.singleAssignBefore _ (i := 20) rfl (by decide)) (after_take_of_lt Cert.KernelIdeal.Around.singleAssignBefore _ (i := 28) rfl (by decide)),
    eq_main_v63__main_v14 m m' c hag,
    eq_main_v69__main_v20 m m' c hag,
    Cert.KernelIdeal.Around.final_of_bypass m c Cert.KernelIdeal.main_v14 (by decide) (by decide),
    Cert.KernelIdeal.Around.final_of_bypass m c Cert.KernelIdeal.main_v20 (by decide) (by decide)]
  try rfl

theorem eq_main_c_15__main_c_4 : rfin(Cert.ReferenceIdeal.main_c_15) = kfin(Cert.KernelIdeal.main_c_4) := by
  rw [final_nullary Cert.ReferenceIdeal.Line.singleAssign (launchContents m' c) 94  (y := Cert.ReferenceIdeal.main_c_15) rfl rfl ,
    Cert.KernelIdeal.Around.final_of_bypass m c Cert.KernelIdeal.main_c_4 (by decide) (by decide),
    final_nullary Cert.KernelIdeal.Around.singleAssignBefore (launchContents m c) 30  (y := Cert.KernelIdeal.main_c_4) rfl rfl ]
  try rfl

theorem eq_main_v71__main_v22 : rfin(Cert.ReferenceIdeal.main_v71) = kfin(Cert.KernelIdeal.main_v22) := by
  rw [final_unary Cert.ReferenceIdeal.Line.singleAssign (launchContents m' c) 95 (x := Cert.ReferenceIdeal.main_c_15) (y := Cert.ReferenceIdeal.main_v71) rfl rfl (after_take_of_lt Cert.ReferenceIdeal.Line.singleAssign _ (i := 94) rfl (by decide)),
    Cert.KernelIdeal.Around.final_of_bypass m c Cert.KernelIdeal.main_v22 (by decide) (by decide),
    final_unary Cert.KernelIdeal.Around.singleAssignBefore (launchContents m c) 31 (x := Cert.KernelIdeal.main_c_4) (y := Cert.KernelIdeal.main_v22) rfl rfl (after_take_of_lt Cert.KernelIdeal.Around.singleAssignBefore _ (i := 30) rfl (by decide)),
    eq_main_c_15__main_c_4 m m' c hag,
    Cert.KernelIdeal.Around.final_of_bypass m c Cert.KernelIdeal.main_c_4 (by decide) (by decide)]
  try rfl

theorem eq_main_v72__main_v23 : rfin(Cert.ReferenceIdeal.main_v72) = kfin(Cert.KernelIdeal.main_v23) := by
  rw [final_binary Cert.ReferenceIdeal.Line.singleAssign (launchContents m' c) 96 (a := Cert.ReferenceIdeal.main_v55) (b := Cert.ReferenceIdeal.main_v71) (y := Cert.ReferenceIdeal.main_v72) rfl rfl (after_take_of_lt Cert.ReferenceIdeal.Line.singleAssign _ (i := 70) rfl (by decide)) (after_take_of_lt Cert.ReferenceIdeal.Line.singleAssign _ (i := 95) rfl (by decide)),
    Cert.KernelIdeal.Around.final_of_bypass m c Cert.KernelIdeal.main_v23 (by decide) (by decide),
    final_binary Cert.KernelIdeal.Around.singleAssignBefore (launchContents m c) 32 (a := Cert.KernelIdeal.main_v6) (b := Cert.KernelIdeal.main_v22) (y := Cert.KernelIdeal.main_v23) rfl rfl (after_take_of_lt Cert.KernelIdeal.Around.singleAssignBefore _ (i := 6) rfl (by decide)) (after_take_of_lt Cert.KernelIdeal.Around.singleAssignBefore _ (i := 31) rfl (by decide)),
    eq_main_v55__main_v6 m m' c hag,
    eq_main_v71__main_v22 m m' c hag,
    Cert.KernelIdeal.Around.final_of_bypass m c Cert.KernelIdeal.main_v6 (by decide) (by decide),
    Cert.KernelIdeal.Around.final_of_bypass m c Cert.KernelIdeal.main_v22 (by decide) (by decide)]
  try rfl

theorem eq_main_c_16__main_c_5 : rfin(Cert.ReferenceIdeal.main_c_16) = kfin(Cert.KernelIdeal.main_c_5) := by
  rw [final_nullary Cert.ReferenceIdeal.Line.singleAssign (launchContents m' c) 97  (y := Cert.ReferenceIdeal.main_c_16) rfl rfl ,
    Cert.KernelIdeal.Around.final_of_bypass m c Cert.KernelIdeal.main_c_5 (by decide) (by decide),
    final_nullary Cert.KernelIdeal.Around.singleAssignBefore (launchContents m c) 33  (y := Cert.KernelIdeal.main_c_5) rfl rfl ]
  try rfl

theorem eq_main_v73__main_v24 : rfin(Cert.ReferenceIdeal.main_v73) = kfin(Cert.KernelIdeal.main_v24) := by
  rw [final_unary Cert.ReferenceIdeal.Line.singleAssign (launchContents m' c) 98 (x := Cert.ReferenceIdeal.main_c_16) (y := Cert.ReferenceIdeal.main_v73) rfl rfl (after_take_of_lt Cert.ReferenceIdeal.Line.singleAssign _ (i := 97) rfl (by decide)),
    Cert.KernelIdeal.Around.final_of_bypass m c Cert.KernelIdeal.main_v24 (by decide) (by decide),
    final_unary Cert.KernelIdeal.Around.singleAssignBefore (launchContents m c) 34 (x := Cert.KernelIdeal.main_c_5) (y := Cert.KernelIdeal.main_v24) rfl rfl (after_take_of_lt Cert.KernelIdeal.Around.singleAssignBefore _ (i := 33) rfl (by decide)),
    eq_main_c_16__main_c_5 m m' c hag,
    Cert.KernelIdeal.Around.final_of_bypass m c Cert.KernelIdeal.main_c_5 (by decide) (by decide)]
  try rfl

theorem eq_main_v74__main_v25 : rfin(Cert.ReferenceIdeal.main_v74) = kfin(Cert.KernelIdeal.main_v25) := by
  rw [final_binary Cert.ReferenceIdeal.Line.singleAssign (launchContents m' c) 99 (a := Cert.ReferenceIdeal.main_v55) (b := Cert.ReferenceIdeal.main_v73) (y := Cert.ReferenceIdeal.main_v74) rfl rfl (after_take_of_lt Cert.ReferenceIdeal.Line.singleAssign _ (i := 70) rfl (by decide)) (after_take_of_lt Cert.ReferenceIdeal.Line.singleAssign _ (i := 98) rfl (by decide)),
    Cert.KernelIdeal.Around.final_of_bypass m c Cert.KernelIdeal.main_v25 (by decide) (by decide),
    final_binary Cert.KernelIdeal.Around.singleAssignBefore (launchContents m c) 35 (a := Cert.KernelIdeal.main_v6) (b := Cert.KernelIdeal.main_v24) (y := Cert.KernelIdeal.main_v25) rfl rfl (after_take_of_lt Cert.KernelIdeal.Around.singleAssignBefore _ (i := 6) rfl (by decide)) (after_take_of_lt Cert.KernelIdeal.Around.singleAssignBefore _ (i := 34) rfl (by decide)),
    eq_main_v55__main_v6 m m' c hag,
    eq_main_v73__main_v24 m m' c hag,
    Cert.KernelIdeal.Around.final_of_bypass m c Cert.KernelIdeal.main_v6 (by decide) (by decide),
    Cert.KernelIdeal.Around.final_of_bypass m c Cert.KernelIdeal.main_v24 (by decide) (by decide)]
  try rfl

theorem eq_main_v75__main_v26 : rfin(Cert.ReferenceIdeal.main_v75) = kfin(Cert.KernelIdeal.main_v26) := by
  rw [final_ternary Cert.ReferenceIdeal.Line.singleAssign (launchContents m' c) 100 (c := Cert.ReferenceIdeal.main_v72) (a := Cert.ReferenceIdeal.main_v74) (b := Cert.ReferenceIdeal.main_v55) (y := Cert.ReferenceIdeal.main_v75) rfl rfl (after_take_of_lt Cert.ReferenceIdeal.Line.singleAssign _ (i := 96) rfl (by decide)) (after_take_of_lt Cert.ReferenceIdeal.Line.singleAssign _ (i := 99) rfl (by decide)) (after_take_of_lt Cert.ReferenceIdeal.Line.singleAssign _ (i := 70) rfl (by decide)),
    Cert.KernelIdeal.Around.final_of_bypass m c Cert.KernelIdeal.main_v26 (by decide) (by decide),
    final_ternary Cert.KernelIdeal.Around.singleAssignBefore (launchContents m c) 36 (c := Cert.KernelIdeal.main_v23) (a := Cert.KernelIdeal.main_v25) (b := Cert.KernelIdeal.main_v6) (y := Cert.KernelIdeal.main_v26) rfl rfl (after_take_of_lt Cert.KernelIdeal.Around.singleAssignBefore _ (i := 32) rfl (by decide)) (after_take_of_lt Cert.KernelIdeal.Around.singleAssignBefore _ (i := 35) rfl (by decide)) (after_take_of_lt Cert.KernelIdeal.Around.singleAssignBefore _ (i := 6) rfl (by decide)),
    eq_main_v72__main_v23 m m' c hag,
    eq_main_v74__main_v25 m m' c hag,
    eq_main_v55__main_v6 m m' c hag,
    Cert.KernelIdeal.Around.final_of_bypass m c Cert.KernelIdeal.main_v23 (by decide) (by decide),
    Cert.KernelIdeal.Around.final_of_bypass m c Cert.KernelIdeal.main_v25 (by decide) (by decide),
    Cert.KernelIdeal.Around.final_of_bypass m c Cert.KernelIdeal.main_v6 (by decide) (by decide)]
  try rfl

theorem eq_main_v76__main_v27 : rfin(Cert.ReferenceIdeal.main_v76) = kfin(Cert.KernelIdeal.main_v27) := by
  rw [final_unary Cert.ReferenceIdeal.Line.singleAssign (launchContents m' c) 101 (x := Cert.ReferenceIdeal.main_v75) (y := Cert.ReferenceIdeal.main_v76) rfl rfl (after_take_of_lt Cert.ReferenceIdeal.Line.singleAssign _ (i := 100) rfl (by decide)),
    Cert.KernelIdeal.Around.final_of_bypass m c Cert.KernelIdeal.main_v27 (by decide) (by decide),
    final_unary Cert.KernelIdeal.Around.singleAssignBefore (launchContents m c) 37 (x := Cert.KernelIdeal.main_v26) (y := Cert.KernelIdeal.main_v27) rfl rfl (after_take_of_lt Cert.KernelIdeal.Around.singleAssignBefore _ (i := 36) rfl (by decide)),
    eq_main_v75__main_v26 m m' c hag,
    Cert.KernelIdeal.Around.final_of_bypass m c Cert.KernelIdeal.main_v26 (by decide) (by decide)]
  try rfl

theorem eq_main_v77__main_v28 : rfin(Cert.ReferenceIdeal.main_v77) = kfin(Cert.KernelIdeal.main_v28) := by
  rw [final_binary Cert.ReferenceIdeal.Line.singleAssign (launchContents m' c) 102 (a := Cert.ReferenceIdeal.main_v63) (b := Cert.ReferenceIdeal.main_v76) (y := Cert.ReferenceIdeal.main_v77) rfl rfl (after_take_of_lt Cert.ReferenceIdeal.Line.singleAssign _ (i := 84) rfl (by decide)) (after_take_of_lt Cert.ReferenceIdeal.Line.singleAssign _ (i := 101) rfl (by decide)),
    Cert.KernelIdeal.Around.final_of_bypass m c Cert.KernelIdeal.main_v28 (by decide) (by decide),
    final_binary Cert.KernelIdeal.Around.singleAssignBefore (launchContents m c) 38 (a := Cert.KernelIdeal.main_v14) (b := Cert.KernelIdeal.main_v27) (y := Cert.KernelIdeal.main_v28) rfl rfl (after_take_of_lt Cert.KernelIdeal.Around.singleAssignBefore _ (i := 20) rfl (by decide)) (after_take_of_lt Cert.KernelIdeal.Around.singleAssignBefore _ (i := 37) rfl (by decide)),
    eq_main_v63__main_v14 m m' c hag,
    eq_main_v76__main_v27 m m' c hag,
    Cert.KernelIdeal.Around.final_of_bypass m c Cert.KernelIdeal.main_v14 (by decide) (by decide),
    Cert.KernelIdeal.Around.final_of_bypass m c Cert.KernelIdeal.main_v27 (by decide) (by decide)]
  try rfl

theorem eq_main_v78__main_v29 : rfin(Cert.ReferenceIdeal.main_v78) = kfin(Cert.KernelIdeal.main_v29) := by
  rw [final_binary Cert.ReferenceIdeal.Line.singleAssign (launchContents m' c) 103 (a := Cert.ReferenceIdeal.main_v70) (b := Cert.ReferenceIdeal.main_v77) (y := Cert.ReferenceIdeal.main_v78) rfl rfl (after_take_of_lt Cert.ReferenceIdeal.Line.singleAssign _ (i := 93) rfl (by decide)) (after_take_of_lt Cert.ReferenceIdeal.Line.singleAssign _ (i := 102) rfl (by decide)),
    Cert.KernelIdeal.Around.final_of_bypass m c Cert.KernelIdeal.main_v29 (by decide) (by decide),
    final_binary Cert.KernelIdeal.Around.singleAssignBefore (launchContents m c) 39 (a := Cert.KernelIdeal.main_v21) (b := Cert.KernelIdeal.main_v28) (y := Cert.KernelIdeal.main_v29) rfl rfl (after_take_of_lt Cert.KernelIdeal.Around.singleAssignBefore _ (i := 29) rfl (by decide)) (after_take_of_lt Cert.KernelIdeal.Around.singleAssignBefore _ (i := 38) rfl (by decide)),
    eq_main_v70__main_v21 m m' c hag,
    eq_main_v77__main_v28 m m' c hag,
    Cert.KernelIdeal.Around.final_of_bypass m c Cert.KernelIdeal.main_v21 (by decide) (by decide),
    Cert.KernelIdeal.Around.final_of_bypass m c Cert.KernelIdeal.main_v28 (by decide) (by decide)]
  try rfl

theorem eq_main_v86__main_v56 : rfin(Cert.ReferenceIdeal.main_v86) = kfin(Cert.KernelIdeal.main_v56) := by
  rw [final_unary Cert.ReferenceIdeal.Line.singleAssign (launchContents m' c) 113 (x := Cert.ReferenceIdeal.main_v78) (y := Cert.ReferenceIdeal.main_v86) rfl rfl (after_take_of_lt Cert.ReferenceIdeal.Line.singleAssign _ (i := 103) rfl (by decide)),
    final_unary Cert.KernelIdeal.Around.singleAssignAfter (Cert.KernelIdeal.Around.exitVal m c) 32 (x := Cert.KernelIdeal.main_v29) (y := Cert.KernelIdeal.main_v56) rfl rfl (after_take_of_not_assigned Cert.KernelIdeal.Around.singleAssignAfter _ 32 (by decide)),
    eq_main_v78__main_v29 m m' c hag]
  try rfl

theorem eq_main_v87__main_v57 : rfin(Cert.ReferenceIdeal.main_v87) = kfin(Cert.KernelIdeal.main_v57) := by
  rw [final_unary Cert.ReferenceIdeal.Line.singleAssign (launchContents m' c) 114 (x := Cert.ReferenceIdeal.main_v86) (y := Cert.ReferenceIdeal.main_v87) rfl rfl (after_take_of_lt Cert.ReferenceIdeal.Line.singleAssign _ (i := 113) rfl (by decide)),
    final_unary Cert.KernelIdeal.Around.singleAssignAfter (Cert.KernelIdeal.Around.exitVal m c) 33 (x := Cert.KernelIdeal.main_v56) (y := Cert.KernelIdeal.main_v57) rfl rfl (after_take_of_lt Cert.KernelIdeal.Around.singleAssignAfter _ (i := 32) rfl (by decide)),
    eq_main_v86__main_v56 m m' c hag]
  try rfl

theorem eq_main_v88__main_v58 : rfin(Cert.ReferenceIdeal.main_v88) = kfin(Cert.KernelIdeal.main_v58) := by
  rw [final_binary Cert.ReferenceIdeal.Line.singleAssign (launchContents m' c) 115 (a := Cert.ReferenceIdeal.main_v85) (b := Cert.ReferenceIdeal.main_v87) (y := Cert.ReferenceIdeal.main_v88) rfl rfl (after_take_of_lt Cert.ReferenceIdeal.Line.singleAssign _ (i := 112) rfl (by decide)) (after_take_of_lt Cert.ReferenceIdeal.Line.singleAssign _ (i := 114) rfl (by decide)),
    final_binary Cert.KernelIdeal.Around.singleAssignAfter (Cert.KernelIdeal.Around.exitVal m c) 34 (a := Cert.KernelIdeal.main_v55) (b := Cert.KernelIdeal.main_v57) (y := Cert.KernelIdeal.main_v58) rfl rfl (after_take_of_lt Cert.KernelIdeal.Around.singleAssignAfter _ (i := 31) rfl (by decide)) (after_take_of_lt Cert.KernelIdeal.Around.singleAssignAfter _ (i := 33) rfl (by decide)),
    eq_main_v85__main_v55 m m' c hag,
    eq_main_v87__main_v57 m m' c hag]
  try rfl

theorem eq_main_v91__main_v61 : rfin(Cert.ReferenceIdeal.main_v91) = kfin(Cert.KernelIdeal.main_v61) := by
  rw [final_ternary Cert.ReferenceIdeal.Line.singleAssign (launchContents m' c) 119 (c := Cert.ReferenceIdeal.main_v89) (a := Cert.ReferenceIdeal.main_v90) (b := Cert.ReferenceIdeal.main_v88) (y := Cert.ReferenceIdeal.main_v91) rfl rfl (after_take_of_lt Cert.ReferenceIdeal.Line.singleAssign _ (i := 117) rfl (by decide)) (after_take_of_lt Cert.ReferenceIdeal.Line.singleAssign _ (i := 118) rfl (by decide)) (after_take_of_lt Cert.ReferenceIdeal.Line.singleAssign _ (i := 115) rfl (by decide)),
    final_ternary Cert.KernelIdeal.Around.singleAssignAfter (Cert.KernelIdeal.Around.exitVal m c) 38 (c := Cert.KernelIdeal.main_v59) (a := Cert.KernelIdeal.main_v60) (b := Cert.KernelIdeal.main_v58) (y := Cert.KernelIdeal.main_v61) rfl rfl (after_take_of_lt Cert.KernelIdeal.Around.singleAssignAfter _ (i := 36) rfl (by decide)) (after_take_of_lt Cert.KernelIdeal.Around.singleAssignAfter _ (i := 37) rfl (by decide)) (after_take_of_lt Cert.KernelIdeal.Around.singleAssignAfter _ (i := 34) rfl (by decide)),
    eq_main_v89__main_v59 m m' c hag,
    eq_main_v90__main_v60 m m' c hag,
    eq_main_v88__main_v58 m m' c hag]
  try rfl

theorem eq_main_arg5__main_arg5 : rfin(Cert.ReferenceIdeal.main_arg5) = kfin(Cert.KernelIdeal.main_arg5) := by
  rw [Cert.ReferenceIdeal.Line.arg_kept m' c Cert.ReferenceIdeal.main_arg5 (by decide), Cert.KernelIdeal.Around.final_of_arg m c Cert.KernelIdeal.main_arg5 (by decide) (by decide) (by decide)]
  exact hag.2.2.2.2.2.1

theorem eq_main_v92__main_v62 : rfin(Cert.ReferenceIdeal.main_v92) = kfin(Cert.KernelIdeal.main_v62) := by
  rw [final_unary Cert.ReferenceIdeal.Line.singleAssign (launchContents m' c) 120 (x := Cert.ReferenceIdeal.main_arg5) (y := Cert.ReferenceIdeal.main_v92) rfl rfl (after_take_of_not_assigned Cert.ReferenceIdeal.Line.singleAssign _ 120 (by decide)),
    final_unary Cert.KernelIdeal.Around.singleAssignAfter (Cert.KernelIdeal.Around.exitVal m c) 39 (x := Cert.KernelIdeal.main_arg5) (y := Cert.KernelIdeal.main_v62) rfl rfl (after_take_of_not_assigned Cert.KernelIdeal.Around.singleAssignAfter _ 39 (by decide)),
    eq_main_arg5__main_arg5 m m' c hag]
  try rfl

theorem eq_main_v93__main_v63 : rfin(Cert.ReferenceIdeal.main_v93) = kfin(Cert.KernelIdeal.main_v63) := by
  rw [final_unary Cert.ReferenceIdeal.Line.singleAssign (launchContents m' c) 121 (x := Cert.ReferenceIdeal.main_v92) (y := Cert.ReferenceIdeal.main_v93) rfl rfl (after_take_of_lt Cert.ReferenceIdeal.Line.singleAssign _ (i := 120) rfl (by decide)),
    final_unary Cert.KernelIdeal.Around.singleAssignAfter (Cert.KernelIdeal.Around.exitVal m c) 40 (x := Cert.KernelIdeal.main_v62) (y := Cert.KernelIdeal.main_v63) rfl rfl (after_take_of_lt Cert.KernelIdeal.Around.singleAssignAfter _ (i := 39) rfl (by decide)),
    eq_main_v92__main_v62 m m' c hag]
  try rfl

theorem eq_main_v94__main_v64 : rfin(Cert.ReferenceIdeal.main_v94) = kfin(Cert.KernelIdeal.main_v64) := by
  rw [final_binary Cert.ReferenceIdeal.Line.singleAssign (launchContents m' c) 122 (a := Cert.ReferenceIdeal.main_v91) (b := Cert.ReferenceIdeal.main_v93) (y := Cert.ReferenceIdeal.main_v94) rfl rfl (after_take_of_lt Cert.ReferenceIdeal.Line.singleAssign _ (i := 119) rfl (by decide)) (after_take_of_lt Cert.ReferenceIdeal.Line.singleAssign _ (i := 121) rfl (by decide)),
    final_binary Cert.KernelIdeal.Around.singleAssignAfter (Cert.KernelIdeal.Around.exitVal m c) 41 (a := Cert.KernelIdeal.main_v61) (b := Cert.KernelIdeal.main_v63) (y := Cert.KernelIdeal.main_v64) rfl rfl (after_take_of_lt Cert.KernelIdeal.Around.singleAssignAfter _ (i := 38) rfl (by decide)) (after_take_of_lt Cert.KernelIdeal.Around.singleAssignAfter _ (i := 40) rfl (by decide)),
    eq_main_v91__main_v61 m m' c hag,
    eq_main_v93__main_v63 m m' c hag]
  try rfl

theorem eq_main_call3_cst__main_call2_cst : rfin(Cert.ReferenceIdeal.main_call3_cst) = kfin(Cert.KernelIdeal.main_call2_cst) := by
  rw [final_nullary Cert.ReferenceIdeal.Line.singleAssign (launchContents m' c) 123  (y := Cert.ReferenceIdeal.main_call3_cst) rfl rfl ,
    final_nullary Cert.KernelIdeal.Around.singleAssignAfter (Cert.KernelIdeal.Around.exitVal m c) 42  (y := Cert.KernelIdeal.main_call2_cst) rfl rfl ]
  try rfl

theorem eq_main_call3_v0__main_call2_v0 : rfin(Cert.ReferenceIdeal.main_call3_v0) = kfin(Cert.KernelIdeal.main_call2_v0) := by
  rw [final_unary Cert.ReferenceIdeal.Line.singleAssign (launchContents m' c) 124 (x := Cert.ReferenceIdeal.main_call3_cst) (y := Cert.ReferenceIdeal.main_call3_v0) rfl rfl (after_take_of_lt Cert.ReferenceIdeal.Line.singleAssign _ (i := 123) rfl (by decide)),
    final_unary Cert.KernelIdeal.Around.singleAssignAfter (Cert.KernelIdeal.Around.exitVal m c) 43 (x := Cert.KernelIdeal.main_call2_cst) (y := Cert.KernelIdeal.main_call2_v0) rfl rfl (after_take_of_lt Cert.KernelIdeal.Around.singleAssignAfter _ (i := 42) rfl (by decide)),
    eq_main_call3_cst__main_call2_cst m m' c hag]
  try rfl

theorem eq_main_v95__main_v65 : rfin(Cert.ReferenceIdeal.main_v95) = kfin(Cert.KernelIdeal.main_v65) := by
  rw [final_binary Cert.ReferenceIdeal.Line.singleAssign (launchContents m' c) 125 (a := Cert.ReferenceIdeal.main_v94) (b := Cert.ReferenceIdeal.main_call3_v0) (y := Cert.ReferenceIdeal.main_v95) rfl rfl (after_take_of_lt Cert.ReferenceIdeal.Line.singleAssign _ (i := 122) rfl (by decide)) (after_take_of_lt Cert.ReferenceIdeal.Line.singleAssign _ (i := 124) rfl (by decide)),
    final_binary Cert.KernelIdeal.Around.singleAssignAfter (Cert.KernelIdeal.Around.exitVal m c) 44 (a := Cert.KernelIdeal.main_v64) (b := Cert.KernelIdeal.main_call2_v0) (y := Cert.KernelIdeal.main_v65) rfl rfl (after_take_of_lt Cert.KernelIdeal.Around.singleAssignAfter _ (i := 41) rfl (by decide)) (after_take_of_lt Cert.KernelIdeal.Around.singleAssignAfter _ (i := 43) rfl (by decide)),
    eq_main_v94__main_v64 m m' c hag,
    eq_main_call3_v0__main_call2_v0 m m' c hag]
  try rfl

theorem eq_main_arg6__main_arg6 : rfin(Cert.ReferenceIdeal.main_arg6) = kfin(Cert.KernelIdeal.main_arg6) := by
  rw [Cert.ReferenceIdeal.Line.arg_kept m' c Cert.ReferenceIdeal.main_arg6 (by decide), Cert.KernelIdeal.Around.final_of_arg m c Cert.KernelIdeal.main_arg6 (by decide) (by decide) (by decide)]
  exact hag.2.2.2.2.2.2.1

theorem eq_main_v96__main_v66 : rfin(Cert.ReferenceIdeal.main_v96) = kfin(Cert.KernelIdeal.main_v66) := by
  rw [final_binary Cert.ReferenceIdeal.Line.singleAssign (launchContents m' c) 126 (a := Cert.ReferenceIdeal.main_v95) (b := Cert.ReferenceIdeal.main_arg6) (y := Cert.ReferenceIdeal.main_v96) rfl rfl (after_take_of_lt Cert.ReferenceIdeal.Line.singleAssign _ (i := 125) rfl (by decide)) (after_take_of_not_assigned Cert.ReferenceIdeal.Line.singleAssign _ 126 (by decide)),
    final_binary Cert.KernelIdeal.Around.singleAssignAfter (Cert.KernelIdeal.Around.exitVal m c) 45 (a := Cert.KernelIdeal.main_v65) (b := Cert.KernelIdeal.main_arg6) (y := Cert.KernelIdeal.main_v66) rfl rfl (after_take_of_lt Cert.KernelIdeal.Around.singleAssignAfter _ (i := 44) rfl (by decide)) (after_take_of_not_assigned Cert.KernelIdeal.Around.singleAssignAfter _ 45 (by decide)),
    eq_main_v95__main_v65 m m' c hag,
    eq_main_arg6__main_arg6 m m' c hag]
  try rfl

theorem eq_main_v98__main_v1 : rfin(Cert.ReferenceIdeal.main_v98) = kfin(Cert.KernelIdeal.main_v1) := by
  rw [final_unary Cert.ReferenceIdeal.Line.singleAssign (launchContents m' c) 128 (x := Cert.ReferenceIdeal.main_arg1) (y := Cert.ReferenceIdeal.main_v98) rfl rfl (after_take_of_not_assigned Cert.ReferenceIdeal.Line.singleAssign _ 128 (by decide)),
    Cert.KernelIdeal.Around.final_of_bypass m c Cert.KernelIdeal.main_v1 (by decide) (by decide),
    final_unary Cert.KernelIdeal.Around.singleAssignBefore (launchContents m c) 1 (x := Cert.KernelIdeal.main_arg1) (y := Cert.KernelIdeal.main_v1) rfl rfl (after_take_of_not_assigned Cert.KernelIdeal.Around.singleAssignBefore _ 1 (by decide)),
    eq_main_arg1__main_arg1 m m' c hag,
    Cert.KernelIdeal.Around.final_of_bypass m c Cert.KernelIdeal.main_arg1 (by decide) (by decide)]
  try rfl

theorem eq_main_v99__main_v2 : rfin(Cert.ReferenceIdeal.main_v99) = kfin(Cert.KernelIdeal.main_v2) := by
  rw [final_reshape Cert.ReferenceIdeal.Line.singleAssign (launchContents m' c) 129 (x := Cert.ReferenceIdeal.main_v98) (y := Cert.ReferenceIdeal.main_v99) rfl rfl (after_take_of_lt Cert.ReferenceIdeal.Line.singleAssign _ (i := 128) rfl (by decide)),
    Cert.KernelIdeal.Around.final_of_bypass m c Cert.KernelIdeal.main_v2 (by decide) (by decide),
    final_reshape Cert.KernelIdeal.Around.singleAssignBefore (launchContents m c) 2 (x := Cert.KernelIdeal.main_v1) (y := Cert.KernelIdeal.main_v2) rfl rfl (after_take_of_lt Cert.KernelIdeal.Around.singleAssignBefore _ (i := 1) rfl (by decide)),
    eq_main_v98__main_v1 m m' c hag,
    Cert.KernelIdeal.Around.final_of_bypass m c Cert.KernelIdeal.main_v1 (by decide) (by decide)]
  try rfl

theorem eq_main_v100__main_v3 : rfin(Cert.ReferenceIdeal.main_v100) = kfin(Cert.KernelIdeal.main_v3) := by
  rw [final_binary Cert.ReferenceIdeal.Line.singleAssign (launchContents m' c) 130 (a := Cert.ReferenceIdeal.main_v99) (b := Cert.ReferenceIdeal.main_v97) (y := Cert.ReferenceIdeal.main_v100) rfl rfl (after_take_of_lt Cert.ReferenceIdeal.Line.singleAssign _ (i := 129) rfl (by decide)) (after_take_of_lt Cert.ReferenceIdeal.Line.singleAssign _ (i := 127) rfl (by decide)),
    Cert.KernelIdeal.Around.final_of_bypass m c Cert.KernelIdeal.main_v3 (by decide) (by decide),
    final_binary Cert.KernelIdeal.Around.singleAssignBefore (launchContents m c) 3 (a := Cert.KernelIdeal.main_v2) (b := Cert.KernelIdeal.main_v0) (y := Cert.KernelIdeal.main_v3) rfl rfl (after_take_of_lt Cert.KernelIdeal.Around.singleAssignBefore _ (i := 2) rfl (by decide)) (after_take_of_lt Cert.KernelIdeal.Around.singleAssignBefore _ (i := 0) rfl (by decide)),
    eq_main_v99__main_v2 m m' c hag,
    eq_main_v97__main_v0 m m' c hag,
    Cert.KernelIdeal.Around.final_of_bypass m c Cert.KernelIdeal.main_v2 (by decide) (by decide),
    Cert.KernelIdeal.Around.final_of_bypass m c Cert.KernelIdeal.main_v0 (by decide) (by decide)]
  try rfl

theorem eq_main_c_28__main_c_12 : rfin(Cert.ReferenceIdeal.main_c_28) = kfin(Cert.KernelIdeal.main_c_12) := by
  rw [final_nullary Cert.ReferenceIdeal.Line.singleAssign (launchContents m' c) 167  (y := Cert.ReferenceIdeal.main_c_28) rfl rfl ,
    final_nullary Cert.KernelIdeal.Around.singleAssignAfter (Cert.KernelIdeal.Around.exitVal m c) 46  (y := Cert.KernelIdeal.main_c_12) rfl rfl ]
  try rfl

theorem eq_main_v127__main_v67 : rfin(Cert.ReferenceIdeal.main_v127) = kfin(Cert.KernelIdeal.main_v67) := by
  rw [final_unary Cert.ReferenceIdeal.Line.singleAssign (launchContents m' c) 168 (x := Cert.ReferenceIdeal.main_c_28) (y := Cert.ReferenceIdeal.main_v127) rfl rfl (after_take_of_lt Cert.ReferenceIdeal.Line.singleAssign _ (i := 167) rfl (by decide)),
    final_unary Cert.KernelIdeal.Around.singleAssignAfter (Cert.KernelIdeal.Around.exitVal m c) 47 (x := Cert.KernelIdeal.main_c_12) (y := Cert.KernelIdeal.main_v67) rfl rfl (after_take_of_lt Cert.KernelIdeal.Around.singleAssignAfter _ (i := 46) rfl (by decide)),
    eq_main_c_28__main_c_12 m m' c hag]
  try rfl

theorem eq_main_v128__main_v68 : rfin(Cert.ReferenceIdeal.main_v128) = kfin(Cert.KernelIdeal.main_v68) := by
  rw [final_binary Cert.ReferenceIdeal.Line.singleAssign (launchContents m' c) 169 (a := Cert.ReferenceIdeal.main_v100) (b := Cert.ReferenceIdeal.main_v127) (y := Cert.ReferenceIdeal.main_v128) rfl rfl (after_take_of_lt Cert.ReferenceIdeal.Line.singleAssign _ (i := 130) rfl (by decide)) (after_take_of_lt Cert.ReferenceIdeal.Line.singleAssign _ (i := 168) rfl (by decide)),
    final_binary Cert.KernelIdeal.Around.singleAssignAfter (Cert.KernelIdeal.Around.exitVal m c) 48 (a := Cert.KernelIdeal.main_v3) (b := Cert.KernelIdeal.main_v67) (y := Cert.KernelIdeal.main_v68) rfl rfl (after_take_of_not_assigned Cert.KernelIdeal.Around.singleAssignAfter _ 48 (by decide)) (after_take_of_lt Cert.KernelIdeal.Around.singleAssignAfter _ (i := 47) rfl (by decide)),
    eq_main_v100__main_v3 m m' c hag,
    eq_main_v127__main_v67 m m' c hag]
  try rfl

theorem eq_main_c_29__main_c_13 : rfin(Cert.ReferenceIdeal.main_c_29) = kfin(Cert.KernelIdeal.main_c_13) := by
  rw [final_nullary Cert.ReferenceIdeal.Line.singleAssign (launchContents m' c) 170  (y := Cert.ReferenceIdeal.main_c_29) rfl rfl ,
    final_nullary Cert.KernelIdeal.Around.singleAssignAfter (Cert.KernelIdeal.Around.exitVal m c) 49  (y := Cert.KernelIdeal.main_c_13) rfl rfl ]
  try rfl

theorem eq_main_v129__main_v69 : rfin(Cert.ReferenceIdeal.main_v129) = kfin(Cert.KernelIdeal.main_v69) := by
  rw [final_unary Cert.ReferenceIdeal.Line.singleAssign (launchContents m' c) 171 (x := Cert.ReferenceIdeal.main_c_29) (y := Cert.ReferenceIdeal.main_v129) rfl rfl (after_take_of_lt Cert.ReferenceIdeal.Line.singleAssign _ (i := 170) rfl (by decide)),
    final_unary Cert.KernelIdeal.Around.singleAssignAfter (Cert.KernelIdeal.Around.exitVal m c) 50 (x := Cert.KernelIdeal.main_c_13) (y := Cert.KernelIdeal.main_v69) rfl rfl (after_take_of_lt Cert.KernelIdeal.Around.singleAssignAfter _ (i := 49) rfl (by decide)),
    eq_main_c_29__main_c_13 m m' c hag]
  try rfl

theorem eq_main_v130__main_v70 : rfin(Cert.ReferenceIdeal.main_v130) = kfin(Cert.KernelIdeal.main_v70) := by
  rw [final_binary Cert.ReferenceIdeal.Line.singleAssign (launchContents m' c) 172 (a := Cert.ReferenceIdeal.main_v100) (b := Cert.ReferenceIdeal.main_v129) (y := Cert.ReferenceIdeal.main_v130) rfl rfl (after_take_of_lt Cert.ReferenceIdeal.Line.singleAssign _ (i := 130) rfl (by decide)) (after_take_of_lt Cert.ReferenceIdeal.Line.singleAssign _ (i := 171) rfl (by decide)),
    final_binary Cert.KernelIdeal.Around.singleAssignAfter (Cert.KernelIdeal.Around.exitVal m c) 51 (a := Cert.KernelIdeal.main_v3) (b := Cert.KernelIdeal.main_v69) (y := Cert.KernelIdeal.main_v70) rfl rfl (after_take_of_not_assigned Cert.KernelIdeal.Around.singleAssignAfter _ 51 (by decide)) (after_take_of_lt Cert.KernelIdeal.Around.singleAssignAfter _ (i := 50) rfl (by decide)),
    eq_main_v100__main_v3 m m' c hag,
    eq_main_v129__main_v69 m m' c hag]
  try rfl

theorem eq_main_v131__main_v71 : rfin(Cert.ReferenceIdeal.main_v131) = kfin(Cert.KernelIdeal.main_v71) := by
  rw [final_ternary Cert.ReferenceIdeal.Line.singleAssign (launchContents m' c) 173 (c := Cert.ReferenceIdeal.main_v128) (a := Cert.ReferenceIdeal.main_v130) (b := Cert.ReferenceIdeal.main_v100) (y := Cert.ReferenceIdeal.main_v131) rfl rfl (after_take_of_lt Cert.ReferenceIdeal.Line.singleAssign _ (i := 169) rfl (by decide)) (after_take_of_lt Cert.ReferenceIdeal.Line.singleAssign _ (i := 172) rfl (by decide)) (after_take_of_lt Cert.ReferenceIdeal.Line.singleAssign _ (i := 130) rfl (by decide)),
    final_ternary Cert.KernelIdeal.Around.singleAssignAfter (Cert.KernelIdeal.Around.exitVal m c) 52 (c := Cert.KernelIdeal.main_v68) (a := Cert.KernelIdeal.main_v70) (b := Cert.KernelIdeal.main_v3) (y := Cert.KernelIdeal.main_v71) rfl rfl (after_take_of_lt Cert.KernelIdeal.Around.singleAssignAfter _ (i := 48) rfl (by decide)) (after_take_of_lt Cert.KernelIdeal.Around.singleAssignAfter _ (i := 51) rfl (by decide)) (after_take_of_not_assigned Cert.KernelIdeal.Around.singleAssignAfter _ 52 (by decide)),
    eq_main_v128__main_v68 m m' c hag,
    eq_main_v130__main_v70 m m' c hag,
    eq_main_v100__main_v3 m m' c hag]
  try rfl

theorem eq_main_v132__main_v72 : rfin(Cert.ReferenceIdeal.main_v132) = kfin(Cert.KernelIdeal.main_v72) := by
  rw [final_unary Cert.ReferenceIdeal.Line.singleAssign (launchContents m' c) 174 (x := Cert.ReferenceIdeal.main_v131) (y := Cert.ReferenceIdeal.main_v132) rfl rfl (after_take_of_lt Cert.ReferenceIdeal.Line.singleAssign _ (i := 173) rfl (by decide)),
    final_unary Cert.KernelIdeal.Around.singleAssignAfter (Cert.KernelIdeal.Around.exitVal m c) 53 (x := Cert.KernelIdeal.main_v71) (y := Cert.KernelIdeal.main_v72) rfl rfl (after_take_of_lt Cert.KernelIdeal.Around.singleAssignAfter _ (i := 52) rfl (by decide)),
    eq_main_v131__main_v71 m m' c hag]
  try rfl

theorem eq_main_v133__main_v73 : rfin(Cert.ReferenceIdeal.main_v133) = kfin(Cert.KernelIdeal.main_v73) := by
  rw [final_binary Cert.ReferenceIdeal.Line.singleAssign (launchContents m' c) 175 (a := Cert.ReferenceIdeal.main_v96) (b := Cert.ReferenceIdeal.main_v132) (y := Cert.ReferenceIdeal.main_v133) rfl rfl (after_take_of_lt Cert.ReferenceIdeal.Line.singleAssign _ (i := 126) rfl (by decide)) (after_take_of_lt Cert.ReferenceIdeal.Line.singleAssign _ (i := 174) rfl (by decide)),
    final_binary Cert.KernelIdeal.Around.singleAssignAfter (Cert.KernelIdeal.Around.exitVal m c) 54 (a := Cert.KernelIdeal.main_v66) (b := Cert.KernelIdeal.main_v72) (y := Cert.KernelIdeal.main_v73) rfl rfl (after_take_of_lt Cert.KernelIdeal.Around.singleAssignAfter _ (i := 45) rfl (by decide)) (after_take_of_lt Cert.KernelIdeal.Around.singleAssignAfter _ (i := 53) rfl (by decide)),
    eq_main_v96__main_v66 m m' c hag,
    eq_main_v132__main_v72 m m' c hag]
  try rfl

theorem eq_main_cst_21__main_cst_0 : rfin(Cert.ReferenceIdeal.main_cst_21) = kfin(Cert.KernelIdeal.main_cst_0) := by
  rw [final_nullary Cert.ReferenceIdeal.Line.singleAssign (launchContents m' c) 136  (y := Cert.ReferenceIdeal.main_cst_21) rfl rfl ,
    Cert.KernelIdeal.Around.final_of_bypass m c Cert.KernelIdeal.main_cst_0 (by decide) (by decide),
    final_nullary Cert.KernelIdeal.Around.singleAssignBefore (launchContents m c) 9  (y := Cert.KernelIdeal.main_cst_0) rfl rfl ]
  try rfl

theorem eq_main_v105__main_v8 : rfin(Cert.ReferenceIdeal.main_v105) = kfin(Cert.KernelIdeal.main_v8) := by
  rw [final_unary Cert.ReferenceIdeal.Line.singleAssign (launchContents m' c) 137 (x := Cert.ReferenceIdeal.main_cst_21) (y := Cert.ReferenceIdeal.main_v105) rfl rfl (after_take_of_lt Cert.ReferenceIdeal.Line.singleAssign _ (i := 136) rfl (by decide)),
    Cert.KernelIdeal.Around.final_of_bypass m c Cert.KernelIdeal.main_v8 (by decide) (by decide),
    final_unary Cert.KernelIdeal.Around.singleAssignBefore (launchContents m c) 10 (x := Cert.KernelIdeal.main_cst_0) (y := Cert.KernelIdeal.main_v8) rfl rfl (after_take_of_lt Cert.KernelIdeal.Around.singleAssignBefore _ (i := 9) rfl (by decide)),
    eq_main_cst_21__main_cst_0 m m' c hag,
    Cert.KernelIdeal.Around.final_of_bypass m c Cert.KernelIdeal.main_cst_0 (by decide) (by decide)]
  try rfl

theorem eq_main_v106__main_v9 : rfin(Cert.ReferenceIdeal.main_v106) = kfin(Cert.KernelIdeal.main_v9) := by
  rw [final_unary Cert.ReferenceIdeal.Line.singleAssign (launchContents m' c) 138 (x := Cert.ReferenceIdeal.main_v103) (y := Cert.ReferenceIdeal.main_v106) rfl rfl (after_take_of_lt Cert.ReferenceIdeal.Line.singleAssign _ (i := 133) rfl (by decide)),
    Cert.KernelIdeal.Around.final_of_bypass m c Cert.KernelIdeal.main_v9 (by decide) (by decide),
    final_unary Cert.KernelIdeal.Around.singleAssignBefore (launchContents m c) 11 (x := Cert.KernelIdeal.main_v6) (y := Cert.KernelIdeal.main_v9) rfl rfl (after_take_of_lt Cert.KernelIdeal.Around.singleAssignBefore _ (i := 6) rfl (by decide)),
    eq_main_v103__main_v6 m m' c hag,
    Cert.KernelIdeal.Around.final_of_bypass m c Cert.KernelIdeal.main_v6 (by decide) (by decide)]
  try rfl

theorem eq_main_cst_20__main_cst : rfin(Cert.ReferenceIdeal.main_cst_20) = kfin(Cert.KernelIdeal.main_cst) := by
  rw [final_nullary Cert.ReferenceIdeal.Line.singleAssign (launchContents m' c) 134  (y := Cert.ReferenceIdeal.main_cst_20) rfl rfl ,
    Cert.KernelIdeal.Around.final_of_bypass m c Cert.KernelIdeal.main_cst (by decide) (by decide),
    final_nullary Cert.KernelIdeal.Around.singleAssignBefore (launchContents m c) 7  (y := Cert.KernelIdeal.main_cst) rfl rfl ]
  try rfl

theorem eq_main_v104__main_v7 : rfin(Cert.ReferenceIdeal.main_v104) = kfin(Cert.KernelIdeal.main_v7) := by
  rw [final_unary Cert.ReferenceIdeal.Line.singleAssign (launchContents m' c) 135 (x := Cert.ReferenceIdeal.main_cst_20) (y := Cert.ReferenceIdeal.main_v104) rfl rfl (after_take_of_lt Cert.ReferenceIdeal.Line.singleAssign _ (i := 134) rfl (by decide)),
    Cert.KernelIdeal.Around.final_of_bypass m c Cert.KernelIdeal.main_v7 (by decide) (by decide),
    final_unary Cert.KernelIdeal.Around.singleAssignBefore (launchContents m c) 8 (x := Cert.KernelIdeal.main_cst) (y := Cert.KernelIdeal.main_v7) rfl rfl (after_take_of_lt Cert.KernelIdeal.Around.singleAssignBefore _ (i := 7) rfl (by decide)),
    eq_main_cst_20__main_cst m m' c hag,
    Cert.KernelIdeal.Around.final_of_bypass m c Cert.KernelIdeal.main_cst (by decide) (by decide)]
  try rfl

theorem eq_main_v107__main_v10 : rfin(Cert.ReferenceIdeal.main_v107) = kfin(Cert.KernelIdeal.main_v10) := by
  rw [final_ternary Cert.ReferenceIdeal.Line.singleAssign (launchContents m' c) 139 (c := Cert.ReferenceIdeal.main_v105) (a := Cert.ReferenceIdeal.main_v106) (b := Cert.ReferenceIdeal.main_v104) (y := Cert.ReferenceIdeal.main_v107) rfl rfl (after_take_of_lt Cert.ReferenceIdeal.Line.singleAssign _ (i := 137) rfl (by decide)) (after_take_of_lt Cert.ReferenceIdeal.Line.singleAssign _ (i := 138) rfl (by decide)) (after_take_of_lt Cert.ReferenceIdeal.Line.singleAssign _ (i := 135) rfl (by decide)),
    Cert.KernelIdeal.Around.final_of_bypass m c Cert.KernelIdeal.main_v10 (by decide) (by decide),
    final_ternary Cert.KernelIdeal.Around.singleAssignBefore (launchContents m c) 12 (c := Cert.KernelIdeal.main_v8) (a := Cert.KernelIdeal.main_v9) (b := Cert.KernelIdeal.main_v7) (y := Cert.KernelIdeal.main_v10) rfl rfl (after_take_of_lt Cert.KernelIdeal.Around.singleAssignBefore _ (i := 10) rfl (by decide)) (after_take_of_lt Cert.KernelIdeal.Around.singleAssignBefore _ (i := 11) rfl (by decide)) (after_take_of_lt Cert.KernelIdeal.Around.singleAssignBefore _ (i := 8) rfl (by decide)),
    eq_main_v105__main_v8 m m' c hag,
    eq_main_v106__main_v9 m m' c hag,
    eq_main_v104__main_v7 m m' c hag,
    Cert.KernelIdeal.Around.final_of_bypass m c Cert.KernelIdeal.main_v8 (by decide) (by decide),
    Cert.KernelIdeal.Around.final_of_bypass m c Cert.KernelIdeal.main_v9 (by decide) (by decide),
    Cert.KernelIdeal.Around.final_of_bypass m c Cert.KernelIdeal.main_v7 (by decide) (by decide)]
  try rfl

theorem eq_main_cst_22__main_cst_1 : rfin(Cert.ReferenceIdeal.main_cst_22) = kfin(Cert.KernelIdeal.main_cst_1) := by
  rw [final_nullary Cert.ReferenceIdeal.Line.singleAssign (launchContents m' c) 140  (y := Cert.ReferenceIdeal.main_cst_22) rfl rfl ,
    Cert.KernelIdeal.Around.final_of_bypass m c Cert.KernelIdeal.main_cst_1 (by decide) (by decide),
    final_nullary Cert.KernelIdeal.Around.singleAssignBefore (launchContents m c) 13  (y := Cert.KernelIdeal.main_cst_1) rfl rfl ]
  try rfl

theorem eq_main_v108__main_v11 : rfin(Cert.ReferenceIdeal.main_v108) = kfin(Cert.KernelIdeal.main_v11) := by
  rw [final_unary Cert.ReferenceIdeal.Line.singleAssign (launchContents m' c) 141 (x := Cert.ReferenceIdeal.main_cst_22) (y := Cert.ReferenceIdeal.main_v108) rfl rfl (after_take_of_lt Cert.ReferenceIdeal.Line.singleAssign _ (i := 140) rfl (by decide)),
    Cert.KernelIdeal.Around.final_of_bypass m c Cert.KernelIdeal.main_v11 (by decide) (by decide),
    final_unary Cert.KernelIdeal.Around.singleAssignBefore (launchContents m c) 14 (x := Cert.KernelIdeal.main_cst_1) (y := Cert.KernelIdeal.main_v11) rfl rfl (after_take_of_lt Cert.KernelIdeal.Around.singleAssignBefore _ (i := 13) rfl (by decide)),
    eq_main_cst_22__main_cst_1 m m' c hag,
    Cert.KernelIdeal.Around.final_of_bypass m c Cert.KernelIdeal.main_cst_1 (by decide) (by decide)]
  try rfl

theorem eq_main_v109__main_v12 : rfin(Cert.ReferenceIdeal.main_v109) = kfin(Cert.KernelIdeal.main_v12) := by
  rw [final_binary Cert.ReferenceIdeal.Line.singleAssign (launchContents m' c) 142 (a := Cert.ReferenceIdeal.main_v107) (b := Cert.ReferenceIdeal.main_v108) (y := Cert.ReferenceIdeal.main_v109) rfl rfl (after_take_of_lt Cert.ReferenceIdeal.Line.singleAssign _ (i := 139) rfl (by decide)) (after_take_of_lt Cert.ReferenceIdeal.Line.singleAssign _ (i := 141) rfl (by decide)),
    Cert.KernelIdeal.Around.final_of_bypass m c Cert.KernelIdeal.main_v12 (by decide) (by decide),
    final_binary Cert.KernelIdeal.Around.singleAssignBefore (launchContents m c) 15 (a := Cert.KernelIdeal.main_v10) (b := Cert.KernelIdeal.main_v11) (y := Cert.KernelIdeal.main_v12) rfl rfl (after_take_of_lt Cert.KernelIdeal.Around.singleAssignBefore _ (i := 12) rfl (by decide)) (after_take_of_lt Cert.KernelIdeal.Around.singleAssignBefore _ (i := 14) rfl (by decide)),
    eq_main_v107__main_v10 m m' c hag,
    eq_main_v108__main_v11 m m' c hag,
    Cert.KernelIdeal.Around.final_of_bypass m c Cert.KernelIdeal.main_v10 (by decide) (by decide),
    Cert.KernelIdeal.Around.final_of_bypass m c Cert.KernelIdeal.main_v11 (by decide) (by decide)]
  try rfl

theorem eq_main_v110__main_v13 : rfin(Cert.ReferenceIdeal.main_v110) = kfin(Cert.KernelIdeal.main_v13) := by
  rw [final_unary Cert.ReferenceIdeal.Line.singleAssign (launchContents m' c) 143 (x := Cert.ReferenceIdeal.main_v107) (y := Cert.ReferenceIdeal.main_v110) rfl rfl (after_take_of_lt Cert.ReferenceIdeal.Line.singleAssign _ (i := 139) rfl (by decide)),
    Cert.KernelIdeal.Around.final_of_bypass m c Cert.KernelIdeal.main_v13 (by decide) (by decide),
    final_unary Cert.KernelIdeal.Around.singleAssignBefore (launchContents m c) 16 (x := Cert.KernelIdeal.main_v10) (y := Cert.KernelIdeal.main_v13) rfl rfl (after_take_of_lt Cert.KernelIdeal.Around.singleAssignBefore _ (i := 12) rfl (by decide)),
    eq_main_v107__main_v10 m m' c hag,
    Cert.KernelIdeal.Around.final_of_bypass m c Cert.KernelIdeal.main_v10 (by decide) (by decide)]
  try rfl

theorem eq_main_cst_23__main_cst_2 : rfin(Cert.ReferenceIdeal.main_cst_23) = kfin(Cert.KernelIdeal.main_cst_2) := by
  rw [final_nullary Cert.ReferenceIdeal.Line.singleAssign (launchContents m' c) 144  (y := Cert.ReferenceIdeal.main_cst_23) rfl rfl ,
    Cert.KernelIdeal.Around.final_of_bypass m c Cert.KernelIdeal.main_cst_2 (by decide) (by decide),
    final_nullary Cert.KernelIdeal.Around.singleAssignBefore (launchContents m c) 17  (y := Cert.KernelIdeal.main_cst_2) rfl rfl ]
  try rfl

theorem eq_main_call4_v0__main_call0_v0 : rfin(Cert.ReferenceIdeal.main_call4_v0) = kfin(Cert.KernelIdeal.main_call0_v0) := by
  rw [final_unary Cert.ReferenceIdeal.Line.singleAssign (launchContents m' c) 145 (x := Cert.ReferenceIdeal.main_cst_23) (y := Cert.ReferenceIdeal.main_call4_v0) rfl rfl (after_take_of_lt Cert.ReferenceIdeal.Line.singleAssign _ (i := 144) rfl (by decide)),
    Cert.KernelIdeal.Around.final_of_bypass m c Cert.KernelIdeal.main_call0_v0 (by decide) (by decide),
    final_unary Cert.KernelIdeal.Around.singleAssignBefore (launchContents m c) 18 (x := Cert.KernelIdeal.main_cst_2) (y := Cert.KernelIdeal.main_call0_v0) rfl rfl (after_take_of_lt Cert.KernelIdeal.Around.singleAssignBefore _ (i := 17) rfl (by decide)),
    eq_main_cst_23__main_cst_2 m m' c hag,
    Cert.KernelIdeal.Around.final_of_bypass m c Cert.KernelIdeal.main_cst_2 (by decide) (by decide)]
  try rfl

theorem eq_main_call4_v1__main_call0_v1 : rfin(Cert.ReferenceIdeal.main_call4_v1) = kfin(Cert.KernelIdeal.main_call0_v1) := by
  rw [final_unary Cert.ReferenceIdeal.Line.singleAssign (launchContents m' c) 146 (x := Cert.ReferenceIdeal.main_call4_v0) (y := Cert.ReferenceIdeal.main_call4_v1) rfl rfl (after_take_of_lt Cert.ReferenceIdeal.Line.singleAssign _ (i := 145) rfl (by decide)),
    Cert.KernelIdeal.Around.final_of_bypass m c Cert.KernelIdeal.main_call0_v1 (by decide) (by decide),
    final_unary Cert.KernelIdeal.Around.singleAssignBefore (launchContents m c) 19 (x := Cert.KernelIdeal.main_call0_v0) (y := Cert.KernelIdeal.main_call0_v1) rfl rfl (after_take_of_lt Cert.KernelIdeal.Around.singleAssignBefore _ (i := 18) rfl (by decide)),
    eq_main_call4_v0__main_call0_v0 m m' c hag,
    Cert.KernelIdeal.Around.final_of_bypass m c Cert.KernelIdeal.main_call0_v0 (by decide) (by decide)]
  try rfl

theorem eq_main_v111__main_v14 : rfin(Cert.ReferenceIdeal.main_v111) = kfin(Cert.KernelIdeal.main_v14) := by
  rw [final_ternary Cert.ReferenceIdeal.Line.singleAssign (launchContents m' c) 147 (c := Cert.ReferenceIdeal.main_v109) (a := Cert.ReferenceIdeal.main_v110) (b := Cert.ReferenceIdeal.main_call4_v1) (y := Cert.ReferenceIdeal.main_v111) rfl rfl (after_take_of_lt Cert.ReferenceIdeal.Line.singleAssign _ (i := 142) rfl (by decide)) (after_take_of_lt Cert.ReferenceIdeal.Line.singleAssign _ (i := 143) rfl (by decide)) (after_take_of_lt Cert.ReferenceIdeal.Line.singleAssign _ (i := 146) rfl (by decide)),
    Cert.KernelIdeal.Around.final_of_bypass m c Cert.KernelIdeal.main_v14 (by decide) (by decide),
    final_ternary Cert.KernelIdeal.Around.singleAssignBefore (launchContents m c) 20 (c := Cert.KernelIdeal.main_v12) (a := Cert.KernelIdeal.main_v13) (b := Cert.KernelIdeal.main_call0_v1) (y := Cert.KernelIdeal.main_v14) rfl rfl (after_take_of_lt Cert.KernelIdeal.Around.singleAssignBefore _ (i := 15) rfl (by decide)) (after_take_of_lt Cert.KernelIdeal.Around.singleAssignBefore _ (i := 16) rfl (by decide)) (after_take_of_lt Cert.KernelIdeal.Around.singleAssignBefore _ (i := 19) rfl (by decide)),
    eq_main_v109__main_v12 m m' c hag,
    eq_main_v110__main_v13 m m' c hag,
    eq_main_call4_v1__main_call0_v1 m m' c hag,
    Cert.KernelIdeal.Around.final_of_bypass m c Cert.KernelIdeal.main_v12 (by decide) (by decide),
    Cert.KernelIdeal.Around.final_of_bypass m c Cert.KernelIdeal.main_v13 (by decide) (by decide),
    Cert.KernelIdeal.Around.final_of_bypass m c Cert.KernelIdeal.main_call0_v1 (by decide) (by decide)]
  try rfl

theorem eq_main_c_24__main_c : rfin(Cert.ReferenceIdeal.main_c_24) = kfin(Cert.KernelIdeal.main_c) := by
  rw [final_nullary Cert.ReferenceIdeal.Line.singleAssign (launchContents m' c) 148  (y := Cert.ReferenceIdeal.main_c_24) rfl rfl ,
    Cert.KernelIdeal.Around.final_of_bypass m c Cert.KernelIdeal.main_c (by decide) (by decide),
    final_nullary Cert.KernelIdeal.Around.singleAssignBefore (launchContents m c) 21  (y := Cert.KernelIdeal.main_c) rfl rfl ]
  try rfl

theorem eq_main_v112__main_v15 : rfin(Cert.ReferenceIdeal.main_v112) = kfin(Cert.KernelIdeal.main_v15) := by
  rw [final_unary Cert.ReferenceIdeal.Line.singleAssign (launchContents m' c) 149 (x := Cert.ReferenceIdeal.main_c_24) (y := Cert.ReferenceIdeal.main_v112) rfl rfl (after_take_of_lt Cert.ReferenceIdeal.Line.singleAssign _ (i := 148) rfl (by decide)),
    Cert.KernelIdeal.Around.final_of_bypass m c Cert.KernelIdeal.main_v15 (by decide) (by decide),
    final_unary Cert.KernelIdeal.Around.singleAssignBefore (launchContents m c) 22 (x := Cert.KernelIdeal.main_c) (y := Cert.KernelIdeal.main_v15) rfl rfl (after_take_of_lt Cert.KernelIdeal.Around.singleAssignBefore _ (i := 21) rfl (by decide)),
    eq_main_c_24__main_c m m' c hag,
    Cert.KernelIdeal.Around.final_of_bypass m c Cert.KernelIdeal.main_c (by decide) (by decide)]
  try rfl

theorem eq_main_v113__main_v16 : rfin(Cert.ReferenceIdeal.main_v113) = kfin(Cert.KernelIdeal.main_v16) := by
  rw [final_binary Cert.ReferenceIdeal.Line.singleAssign (launchContents m' c) 150 (a := Cert.ReferenceIdeal.main_v100) (b := Cert.ReferenceIdeal.main_v112) (y := Cert.ReferenceIdeal.main_v113) rfl rfl (after_take_of_lt Cert.ReferenceIdeal.Line.singleAssign _ (i := 130) rfl (by decide)) (after_take_of_lt Cert.ReferenceIdeal.Line.singleAssign _ (i := 149) rfl (by decide)),
    Cert.KernelIdeal.Around.final_of_bypass m c Cert.KernelIdeal.main_v16 (by decide) (by decide),
    final_binary Cert.KernelIdeal.Around.singleAssignBefore (launchContents m c) 23 (a := Cert.KernelIdeal.main_v3) (b := Cert.KernelIdeal.main_v15) (y := Cert.KernelIdeal.main_v16) rfl rfl (after_take_of_lt Cert.KernelIdeal.Around.singleAssignBefore _ (i := 3) rfl (by decide)) (after_take_of_lt Cert.KernelIdeal.Around.singleAssignBefore _ (i := 22) rfl (by decide)),
    eq_main_v100__main_v3 m m' c hag,
    eq_main_v112__main_v15 m m' c hag,
    Cert.KernelIdeal.Around.final_of_bypass m c Cert.KernelIdeal.main_v3 (by decide) (by decide),
    Cert.KernelIdeal.Around.final_of_bypass m c Cert.KernelIdeal.main_v15 (by decide) (by decide)]
  try rfl

theorem eq_main_c_25__main_c_3 : rfin(Cert.ReferenceIdeal.main_c_25) = kfin(Cert.KernelIdeal.main_c_3) := by
  rw [final_nullary Cert.ReferenceIdeal.Line.singleAssign (launchContents m' c) 151  (y := Cert.ReferenceIdeal.main_c_25) rfl rfl ,
    Cert.KernelIdeal.Around.final_of_bypass m c Cert.KernelIdeal.main_c_3 (by decide) (by decide),
    final_nullary Cert.KernelIdeal.Around.singleAssignBefore (launchContents m c) 24  (y := Cert.KernelIdeal.main_c_3) rfl rfl ]
  try rfl

theorem eq_main_v114__main_v17 : rfin(Cert.ReferenceIdeal.main_v114) = kfin(Cert.KernelIdeal.main_v17) := by
  rw [final_unary Cert.ReferenceIdeal.Line.singleAssign (launchContents m' c) 152 (x := Cert.ReferenceIdeal.main_c_25) (y := Cert.ReferenceIdeal.main_v114) rfl rfl (after_take_of_lt Cert.ReferenceIdeal.Line.singleAssign _ (i := 151) rfl (by decide)),
    Cert.KernelIdeal.Around.final_of_bypass m c Cert.KernelIdeal.main_v17 (by decide) (by decide),
    final_unary Cert.KernelIdeal.Around.singleAssignBefore (launchContents m c) 25 (x := Cert.KernelIdeal.main_c_3) (y := Cert.KernelIdeal.main_v17) rfl rfl (after_take_of_lt Cert.KernelIdeal.Around.singleAssignBefore _ (i := 24) rfl (by decide)),
    eq_main_c_25__main_c_3 m m' c hag,
    Cert.KernelIdeal.Around.final_of_bypass m c Cert.KernelIdeal.main_c_3 (by decide) (by decide)]
  try rfl

theorem eq_main_v115__main_v18 : rfin(Cert.ReferenceIdeal.main_v115) = kfin(Cert.KernelIdeal.main_v18) := by
  rw [final_binary Cert.ReferenceIdeal.Line.singleAssign (launchContents m' c) 153 (a := Cert.ReferenceIdeal.main_v100) (b := Cert.ReferenceIdeal.main_v114) (y := Cert.ReferenceIdeal.main_v115) rfl rfl (after_take_of_lt Cert.ReferenceIdeal.Line.singleAssign _ (i := 130) rfl (by decide)) (after_take_of_lt Cert.ReferenceIdeal.Line.singleAssign _ (i := 152) rfl (by decide)),
    Cert.KernelIdeal.Around.final_of_bypass m c Cert.KernelIdeal.main_v18 (by decide) (by decide),
    final_binary Cert.KernelIdeal.Around.singleAssignBefore (launchContents m c) 26 (a := Cert.KernelIdeal.main_v3) (b := Cert.KernelIdeal.main_v17) (y := Cert.KernelIdeal.main_v18) rfl rfl (after_take_of_lt Cert.KernelIdeal.Around.singleAssignBefore _ (i := 3) rfl (by decide)) (after_take_of_lt Cert.KernelIdeal.Around.singleAssignBefore _ (i := 25) rfl (by decide)),
    eq_main_v100__main_v3 m m' c hag,
    eq_main_v114__main_v17 m m' c hag,
    Cert.KernelIdeal.Around.final_of_bypass m c Cert.KernelIdeal.main_v3 (by decide) (by decide),
    Cert.KernelIdeal.Around.final_of_bypass m c Cert.KernelIdeal.main_v17 (by decide) (by decide)]
  try rfl

theorem eq_main_v116__main_v19 : rfin(Cert.ReferenceIdeal.main_v116) = kfin(Cert.KernelIdeal.main_v19) := by
  rw [final_ternary Cert.ReferenceIdeal.Line.singleAssign (launchContents m' c) 154 (c := Cert.ReferenceIdeal.main_v113) (a := Cert.ReferenceIdeal.main_v115) (b := Cert.ReferenceIdeal.main_v100) (y := Cert.ReferenceIdeal.main_v116) rfl rfl (after_take_of_lt Cert.ReferenceIdeal.Line.singleAssign _ (i := 150) rfl (by decide)) (after_take_of_lt Cert.ReferenceIdeal.Line.singleAssign _ (i := 153) rfl (by decide)) (after_take_of_lt Cert.ReferenceIdeal.Line.singleAssign _ (i := 130) rfl (by decide)),
    Cert.KernelIdeal.Around.final_of_bypass m c Cert.KernelIdeal.main_v19 (by decide) (by decide),
    final_ternary Cert.KernelIdeal.Around.singleAssignBefore (launchContents m c) 27 (c := Cert.KernelIdeal.main_v16) (a := Cert.KernelIdeal.main_v18) (b := Cert.KernelIdeal.main_v3) (y := Cert.KernelIdeal.main_v19) rfl rfl (after_take_of_lt Cert.KernelIdeal.Around.singleAssignBefore _ (i := 23) rfl (by decide)) (after_take_of_lt Cert.KernelIdeal.Around.singleAssignBefore _ (i := 26) rfl (by decide)) (after_take_of_lt Cert.KernelIdeal.Around.singleAssignBefore _ (i := 3) rfl (by decide)),
    eq_main_v113__main_v16 m m' c hag,
    eq_main_v115__main_v18 m m' c hag,
    eq_main_v100__main_v3 m m' c hag,
    Cert.KernelIdeal.Around.final_of_bypass m c Cert.KernelIdeal.main_v16 (by decide) (by decide),
    Cert.KernelIdeal.Around.final_of_bypass m c Cert.KernelIdeal.main_v18 (by decide) (by decide),
    Cert.KernelIdeal.Around.final_of_bypass m c Cert.KernelIdeal.main_v3 (by decide) (by decide)]
  try rfl

theorem eq_main_v117__main_v20 : rfin(Cert.ReferenceIdeal.main_v117) = kfin(Cert.KernelIdeal.main_v20) := by
  rw [final_unary Cert.ReferenceIdeal.Line.singleAssign (launchContents m' c) 155 (x := Cert.ReferenceIdeal.main_v116) (y := Cert.ReferenceIdeal.main_v117) rfl rfl (after_take_of_lt Cert.ReferenceIdeal.Line.singleAssign _ (i := 154) rfl (by decide)),
    Cert.KernelIdeal.Around.final_of_bypass m c Cert.KernelIdeal.main_v20 (by decide) (by decide),
    final_unary Cert.KernelIdeal.Around.singleAssignBefore (launchContents m c) 28 (x := Cert.KernelIdeal.main_v19) (y := Cert.KernelIdeal.main_v20) rfl rfl (after_take_of_lt Cert.KernelIdeal.Around.singleAssignBefore _ (i := 27) rfl (by decide)),
    eq_main_v116__main_v19 m m' c hag,
    Cert.KernelIdeal.Around.final_of_bypass m c Cert.KernelIdeal.main_v19 (by decide) (by decide)]
  try rfl

theorem eq_main_v118__main_v21 : rfin(Cert.ReferenceIdeal.main_v118) = kfin(Cert.KernelIdeal.main_v21) := by
  rw [final_binary Cert.ReferenceIdeal.Line.singleAssign (launchContents m' c) 156 (a := Cert.ReferenceIdeal.main_v111) (b := Cert.ReferenceIdeal.main_v117) (y := Cert.ReferenceIdeal.main_v118) rfl rfl (after_take_of_lt Cert.ReferenceIdeal.Line.singleAssign _ (i := 147) rfl (by decide)) (after_take_of_lt Cert.ReferenceIdeal.Line.singleAssign _ (i := 155) rfl (by decide)),
    Cert.KernelIdeal.Around.final_of_bypass m c Cert.KernelIdeal.main_v21 (by decide) (by decide),
    final_binary Cert.KernelIdeal.Around.singleAssignBefore (launchContents m c) 29 (a := Cert.KernelIdeal.main_v14) (b := Cert.KernelIdeal.main_v20) (y := Cert.KernelIdeal.main_v21) rfl rfl (after_take_of_lt Cert.KernelIdeal.Around.singleAssignBefore _ (i := 20) rfl (by decide)) (after_take_of_lt Cert.KernelIdeal.Around.singleAssignBefore _ (i := 28) rfl (by decide)),
    eq_main_v111__main_v14 m m' c hag,
    eq_main_v117__main_v20 m m' c hag,
    Cert.KernelIdeal.Around.final_of_bypass m c Cert.KernelIdeal.main_v14 (by decide) (by decide),
    Cert.KernelIdeal.Around.final_of_bypass m c Cert.KernelIdeal.main_v20 (by decide) (by decide)]
  try rfl

theorem eq_main_c_26__main_c_4 : rfin(Cert.ReferenceIdeal.main_c_26) = kfin(Cert.KernelIdeal.main_c_4) := by
  rw [final_nullary Cert.ReferenceIdeal.Line.singleAssign (launchContents m' c) 157  (y := Cert.ReferenceIdeal.main_c_26) rfl rfl ,
    Cert.KernelIdeal.Around.final_of_bypass m c Cert.KernelIdeal.main_c_4 (by decide) (by decide),
    final_nullary Cert.KernelIdeal.Around.singleAssignBefore (launchContents m c) 30  (y := Cert.KernelIdeal.main_c_4) rfl rfl ]
  try rfl

theorem eq_main_v119__main_v22 : rfin(Cert.ReferenceIdeal.main_v119) = kfin(Cert.KernelIdeal.main_v22) := by
  rw [final_unary Cert.ReferenceIdeal.Line.singleAssign (launchContents m' c) 158 (x := Cert.ReferenceIdeal.main_c_26) (y := Cert.ReferenceIdeal.main_v119) rfl rfl (after_take_of_lt Cert.ReferenceIdeal.Line.singleAssign _ (i := 157) rfl (by decide)),
    Cert.KernelIdeal.Around.final_of_bypass m c Cert.KernelIdeal.main_v22 (by decide) (by decide),
    final_unary Cert.KernelIdeal.Around.singleAssignBefore (launchContents m c) 31 (x := Cert.KernelIdeal.main_c_4) (y := Cert.KernelIdeal.main_v22) rfl rfl (after_take_of_lt Cert.KernelIdeal.Around.singleAssignBefore _ (i := 30) rfl (by decide)),
    eq_main_c_26__main_c_4 m m' c hag,
    Cert.KernelIdeal.Around.final_of_bypass m c Cert.KernelIdeal.main_c_4 (by decide) (by decide)]
  try rfl

theorem eq_main_v120__main_v23 : rfin(Cert.ReferenceIdeal.main_v120) = kfin(Cert.KernelIdeal.main_v23) := by
  rw [final_binary Cert.ReferenceIdeal.Line.singleAssign (launchContents m' c) 159 (a := Cert.ReferenceIdeal.main_v103) (b := Cert.ReferenceIdeal.main_v119) (y := Cert.ReferenceIdeal.main_v120) rfl rfl (after_take_of_lt Cert.ReferenceIdeal.Line.singleAssign _ (i := 133) rfl (by decide)) (after_take_of_lt Cert.ReferenceIdeal.Line.singleAssign _ (i := 158) rfl (by decide)),
    Cert.KernelIdeal.Around.final_of_bypass m c Cert.KernelIdeal.main_v23 (by decide) (by decide),
    final_binary Cert.KernelIdeal.Around.singleAssignBefore (launchContents m c) 32 (a := Cert.KernelIdeal.main_v6) (b := Cert.KernelIdeal.main_v22) (y := Cert.KernelIdeal.main_v23) rfl rfl (after_take_of_lt Cert.KernelIdeal.Around.singleAssignBefore _ (i := 6) rfl (by decide)) (after_take_of_lt Cert.KernelIdeal.Around.singleAssignBefore _ (i := 31) rfl (by decide)),
    eq_main_v103__main_v6 m m' c hag,
    eq_main_v119__main_v22 m m' c hag,
    Cert.KernelIdeal.Around.final_of_bypass m c Cert.KernelIdeal.main_v6 (by decide) (by decide),
    Cert.KernelIdeal.Around.final_of_bypass m c Cert.KernelIdeal.main_v22 (by decide) (by decide)]
  try rfl

theorem eq_main_c_27__main_c_5 : rfin(Cert.ReferenceIdeal.main_c_27) = kfin(Cert.KernelIdeal.main_c_5) := by
  rw [final_nullary Cert.ReferenceIdeal.Line.singleAssign (launchContents m' c) 160  (y := Cert.ReferenceIdeal.main_c_27) rfl rfl ,
    Cert.KernelIdeal.Around.final_of_bypass m c Cert.KernelIdeal.main_c_5 (by decide) (by decide),
    final_nullary Cert.KernelIdeal.Around.singleAssignBefore (launchContents m c) 33  (y := Cert.KernelIdeal.main_c_5) rfl rfl ]
  try rfl

theorem eq_main_v121__main_v24 : rfin(Cert.ReferenceIdeal.main_v121) = kfin(Cert.KernelIdeal.main_v24) := by
  rw [final_unary Cert.ReferenceIdeal.Line.singleAssign (launchContents m' c) 161 (x := Cert.ReferenceIdeal.main_c_27) (y := Cert.ReferenceIdeal.main_v121) rfl rfl (after_take_of_lt Cert.ReferenceIdeal.Line.singleAssign _ (i := 160) rfl (by decide)),
    Cert.KernelIdeal.Around.final_of_bypass m c Cert.KernelIdeal.main_v24 (by decide) (by decide),
    final_unary Cert.KernelIdeal.Around.singleAssignBefore (launchContents m c) 34 (x := Cert.KernelIdeal.main_c_5) (y := Cert.KernelIdeal.main_v24) rfl rfl (after_take_of_lt Cert.KernelIdeal.Around.singleAssignBefore _ (i := 33) rfl (by decide)),
    eq_main_c_27__main_c_5 m m' c hag,
    Cert.KernelIdeal.Around.final_of_bypass m c Cert.KernelIdeal.main_c_5 (by decide) (by decide)]
  try rfl

theorem eq_main_v122__main_v25 : rfin(Cert.ReferenceIdeal.main_v122) = kfin(Cert.KernelIdeal.main_v25) := by
  rw [final_binary Cert.ReferenceIdeal.Line.singleAssign (launchContents m' c) 162 (a := Cert.ReferenceIdeal.main_v103) (b := Cert.ReferenceIdeal.main_v121) (y := Cert.ReferenceIdeal.main_v122) rfl rfl (after_take_of_lt Cert.ReferenceIdeal.Line.singleAssign _ (i := 133) rfl (by decide)) (after_take_of_lt Cert.ReferenceIdeal.Line.singleAssign _ (i := 161) rfl (by decide)),
    Cert.KernelIdeal.Around.final_of_bypass m c Cert.KernelIdeal.main_v25 (by decide) (by decide),
    final_binary Cert.KernelIdeal.Around.singleAssignBefore (launchContents m c) 35 (a := Cert.KernelIdeal.main_v6) (b := Cert.KernelIdeal.main_v24) (y := Cert.KernelIdeal.main_v25) rfl rfl (after_take_of_lt Cert.KernelIdeal.Around.singleAssignBefore _ (i := 6) rfl (by decide)) (after_take_of_lt Cert.KernelIdeal.Around.singleAssignBefore _ (i := 34) rfl (by decide)),
    eq_main_v103__main_v6 m m' c hag,
    eq_main_v121__main_v24 m m' c hag,
    Cert.KernelIdeal.Around.final_of_bypass m c Cert.KernelIdeal.main_v6 (by decide) (by decide),
    Cert.KernelIdeal.Around.final_of_bypass m c Cert.KernelIdeal.main_v24 (by decide) (by decide)]
  try rfl

theorem eq_main_v123__main_v26 : rfin(Cert.ReferenceIdeal.main_v123) = kfin(Cert.KernelIdeal.main_v26) := by
  rw [final_ternary Cert.ReferenceIdeal.Line.singleAssign (launchContents m' c) 163 (c := Cert.ReferenceIdeal.main_v120) (a := Cert.ReferenceIdeal.main_v122) (b := Cert.ReferenceIdeal.main_v103) (y := Cert.ReferenceIdeal.main_v123) rfl rfl (after_take_of_lt Cert.ReferenceIdeal.Line.singleAssign _ (i := 159) rfl (by decide)) (after_take_of_lt Cert.ReferenceIdeal.Line.singleAssign _ (i := 162) rfl (by decide)) (after_take_of_lt Cert.ReferenceIdeal.Line.singleAssign _ (i := 133) rfl (by decide)),
    Cert.KernelIdeal.Around.final_of_bypass m c Cert.KernelIdeal.main_v26 (by decide) (by decide),
    final_ternary Cert.KernelIdeal.Around.singleAssignBefore (launchContents m c) 36 (c := Cert.KernelIdeal.main_v23) (a := Cert.KernelIdeal.main_v25) (b := Cert.KernelIdeal.main_v6) (y := Cert.KernelIdeal.main_v26) rfl rfl (after_take_of_lt Cert.KernelIdeal.Around.singleAssignBefore _ (i := 32) rfl (by decide)) (after_take_of_lt Cert.KernelIdeal.Around.singleAssignBefore _ (i := 35) rfl (by decide)) (after_take_of_lt Cert.KernelIdeal.Around.singleAssignBefore _ (i := 6) rfl (by decide)),
    eq_main_v120__main_v23 m m' c hag,
    eq_main_v122__main_v25 m m' c hag,
    eq_main_v103__main_v6 m m' c hag,
    Cert.KernelIdeal.Around.final_of_bypass m c Cert.KernelIdeal.main_v23 (by decide) (by decide),
    Cert.KernelIdeal.Around.final_of_bypass m c Cert.KernelIdeal.main_v25 (by decide) (by decide),
    Cert.KernelIdeal.Around.final_of_bypass m c Cert.KernelIdeal.main_v6 (by decide) (by decide)]
  try rfl

theorem eq_main_v124__main_v27 : rfin(Cert.ReferenceIdeal.main_v124) = kfin(Cert.KernelIdeal.main_v27) := by
  rw [final_unary Cert.ReferenceIdeal.Line.singleAssign (launchContents m' c) 164 (x := Cert.ReferenceIdeal.main_v123) (y := Cert.ReferenceIdeal.main_v124) rfl rfl (after_take_of_lt Cert.ReferenceIdeal.Line.singleAssign _ (i := 163) rfl (by decide)),
    Cert.KernelIdeal.Around.final_of_bypass m c Cert.KernelIdeal.main_v27 (by decide) (by decide),
    final_unary Cert.KernelIdeal.Around.singleAssignBefore (launchContents m c) 37 (x := Cert.KernelIdeal.main_v26) (y := Cert.KernelIdeal.main_v27) rfl rfl (after_take_of_lt Cert.KernelIdeal.Around.singleAssignBefore _ (i := 36) rfl (by decide)),
    eq_main_v123__main_v26 m m' c hag,
    Cert.KernelIdeal.Around.final_of_bypass m c Cert.KernelIdeal.main_v26 (by decide) (by decide)]
  try rfl

theorem eq_main_v125__main_v28 : rfin(Cert.ReferenceIdeal.main_v125) = kfin(Cert.KernelIdeal.main_v28) := by
  rw [final_binary Cert.ReferenceIdeal.Line.singleAssign (launchContents m' c) 165 (a := Cert.ReferenceIdeal.main_v111) (b := Cert.ReferenceIdeal.main_v124) (y := Cert.ReferenceIdeal.main_v125) rfl rfl (after_take_of_lt Cert.ReferenceIdeal.Line.singleAssign _ (i := 147) rfl (by decide)) (after_take_of_lt Cert.ReferenceIdeal.Line.singleAssign _ (i := 164) rfl (by decide)),
    Cert.KernelIdeal.Around.final_of_bypass m c Cert.KernelIdeal.main_v28 (by decide) (by decide),
    final_binary Cert.KernelIdeal.Around.singleAssignBefore (launchContents m c) 38 (a := Cert.KernelIdeal.main_v14) (b := Cert.KernelIdeal.main_v27) (y := Cert.KernelIdeal.main_v28) rfl rfl (after_take_of_lt Cert.KernelIdeal.Around.singleAssignBefore _ (i := 20) rfl (by decide)) (after_take_of_lt Cert.KernelIdeal.Around.singleAssignBefore _ (i := 37) rfl (by decide)),
    eq_main_v111__main_v14 m m' c hag,
    eq_main_v124__main_v27 m m' c hag,
    Cert.KernelIdeal.Around.final_of_bypass m c Cert.KernelIdeal.main_v14 (by decide) (by decide),
    Cert.KernelIdeal.Around.final_of_bypass m c Cert.KernelIdeal.main_v27 (by decide) (by decide)]
  try rfl

theorem eq_main_v126__main_v29 : rfin(Cert.ReferenceIdeal.main_v126) = kfin(Cert.KernelIdeal.main_v29) := by
  rw [final_binary Cert.ReferenceIdeal.Line.singleAssign (launchContents m' c) 166 (a := Cert.ReferenceIdeal.main_v118) (b := Cert.ReferenceIdeal.main_v125) (y := Cert.ReferenceIdeal.main_v126) rfl rfl (after_take_of_lt Cert.ReferenceIdeal.Line.singleAssign _ (i := 156) rfl (by decide)) (after_take_of_lt Cert.ReferenceIdeal.Line.singleAssign _ (i := 165) rfl (by decide)),
    Cert.KernelIdeal.Around.final_of_bypass m c Cert.KernelIdeal.main_v29 (by decide) (by decide),
    final_binary Cert.KernelIdeal.Around.singleAssignBefore (launchContents m c) 39 (a := Cert.KernelIdeal.main_v21) (b := Cert.KernelIdeal.main_v28) (y := Cert.KernelIdeal.main_v29) rfl rfl (after_take_of_lt Cert.KernelIdeal.Around.singleAssignBefore _ (i := 29) rfl (by decide)) (after_take_of_lt Cert.KernelIdeal.Around.singleAssignBefore _ (i := 38) rfl (by decide)),
    eq_main_v118__main_v21 m m' c hag,
    eq_main_v125__main_v28 m m' c hag,
    Cert.KernelIdeal.Around.final_of_bypass m c Cert.KernelIdeal.main_v21 (by decide) (by decide),
    Cert.KernelIdeal.Around.final_of_bypass m c Cert.KernelIdeal.main_v28 (by decide) (by decide)]
  try rfl

theorem eq_main_v134__main_v74 : rfin(Cert.ReferenceIdeal.main_v134) = kfin(Cert.KernelIdeal.main_v74) := by
  rw [final_unary Cert.ReferenceIdeal.Line.singleAssign (launchContents m' c) 176 (x := Cert.ReferenceIdeal.main_v126) (y := Cert.ReferenceIdeal.main_v134) rfl rfl (after_take_of_lt Cert.ReferenceIdeal.Line.singleAssign _ (i := 166) rfl (by decide)),
    final_unary Cert.KernelIdeal.Around.singleAssignAfter (Cert.KernelIdeal.Around.exitVal m c) 55 (x := Cert.KernelIdeal.main_v29) (y := Cert.KernelIdeal.main_v74) rfl rfl (after_take_of_not_assigned Cert.KernelIdeal.Around.singleAssignAfter _ 55 (by decide)),
    eq_main_v126__main_v29 m m' c hag]
  try rfl

theorem eq_main_v135__main_v75 : rfin(Cert.ReferenceIdeal.main_v135) = kfin(Cert.KernelIdeal.main_v75) := by
  rw [final_unary Cert.ReferenceIdeal.Line.singleAssign (launchContents m' c) 177 (x := Cert.ReferenceIdeal.main_v134) (y := Cert.ReferenceIdeal.main_v135) rfl rfl (after_take_of_lt Cert.ReferenceIdeal.Line.singleAssign _ (i := 176) rfl (by decide)),
    final_unary Cert.KernelIdeal.Around.singleAssignAfter (Cert.KernelIdeal.Around.exitVal m c) 56 (x := Cert.KernelIdeal.main_v74) (y := Cert.KernelIdeal.main_v75) rfl rfl (after_take_of_lt Cert.KernelIdeal.Around.singleAssignAfter _ (i := 55) rfl (by decide)),
    eq_main_v134__main_v74 m m' c hag]
  try rfl

theorem eq_main_v136__main_v76 : rfin(Cert.ReferenceIdeal.main_v136) = kfin(Cert.KernelIdeal.main_v76) := by
  rw [final_binary Cert.ReferenceIdeal.Line.singleAssign (launchContents m' c) 178 (a := Cert.ReferenceIdeal.main_v133) (b := Cert.ReferenceIdeal.main_v135) (y := Cert.ReferenceIdeal.main_v136) rfl rfl (after_take_of_lt Cert.ReferenceIdeal.Line.singleAssign _ (i := 175) rfl (by decide)) (after_take_of_lt Cert.ReferenceIdeal.Line.singleAssign _ (i := 177) rfl (by decide)),
    final_binary Cert.KernelIdeal.Around.singleAssignAfter (Cert.KernelIdeal.Around.exitVal m c) 57 (a := Cert.KernelIdeal.main_v73) (b := Cert.KernelIdeal.main_v75) (y := Cert.KernelIdeal.main_v76) rfl rfl (after_take_of_lt Cert.KernelIdeal.Around.singleAssignAfter _ (i := 54) rfl (by decide)) (after_take_of_lt Cert.KernelIdeal.Around.singleAssignAfter _ (i := 56) rfl (by decide)),
    eq_main_v133__main_v73 m m' c hag,
    eq_main_v135__main_v75 m m' c hag]
  try rfl

theorem eq_main_v139__main_v79 : rfin(Cert.ReferenceIdeal.main_v139) = kfin(Cert.KernelIdeal.main_v79) := by
  rw [final_ternary Cert.ReferenceIdeal.Line.singleAssign (launchContents m' c) 182 (c := Cert.ReferenceIdeal.main_v137) (a := Cert.ReferenceIdeal.main_v138) (b := Cert.ReferenceIdeal.main_v136) (y := Cert.ReferenceIdeal.main_v139) rfl rfl (after_take_of_lt Cert.ReferenceIdeal.Line.singleAssign _ (i := 180) rfl (by decide)) (after_take_of_lt Cert.ReferenceIdeal.Line.singleAssign _ (i := 181) rfl (by decide)) (after_take_of_lt Cert.ReferenceIdeal.Line.singleAssign _ (i := 178) rfl (by decide)),
    final_ternary Cert.KernelIdeal.Around.singleAssignAfter (Cert.KernelIdeal.Around.exitVal m c) 61 (c := Cert.KernelIdeal.main_v77) (a := Cert.KernelIdeal.main_v78) (b := Cert.KernelIdeal.main_v76) (y := Cert.KernelIdeal.main_v79) rfl rfl (after_take_of_lt Cert.KernelIdeal.Around.singleAssignAfter _ (i := 59) rfl (by decide)) (after_take_of_lt Cert.KernelIdeal.Around.singleAssignAfter _ (i := 60) rfl (by decide)) (after_take_of_lt Cert.KernelIdeal.Around.singleAssignAfter _ (i := 57) rfl (by decide)),
    eq_main_v137__main_v77 m m' c hag,
    eq_main_v138__main_v78 m m' c hag,
    eq_main_v136__main_v76 m m' c hag]
  try rfl

theorem eq_main_arg7__main_arg7 : rfin(Cert.ReferenceIdeal.main_arg7) = kfin(Cert.KernelIdeal.main_arg7) := by
  rw [Cert.ReferenceIdeal.Line.arg_kept m' c Cert.ReferenceIdeal.main_arg7 (by decide), Cert.KernelIdeal.Around.final_of_arg m c Cert.KernelIdeal.main_arg7 (by decide) (by decide) (by decide)]
  exact hag.2.2.2.2.2.2.2

theorem eq_main_v140__main_v80 : rfin(Cert.ReferenceIdeal.main_v140) = kfin(Cert.KernelIdeal.main_v80) := by
  rw [final_unary Cert.ReferenceIdeal.Line.singleAssign (launchContents m' c) 183 (x := Cert.ReferenceIdeal.main_arg7) (y := Cert.ReferenceIdeal.main_v140) rfl rfl (after_take_of_not_assigned Cert.ReferenceIdeal.Line.singleAssign _ 183 (by decide)),
    final_unary Cert.KernelIdeal.Around.singleAssignAfter (Cert.KernelIdeal.Around.exitVal m c) 62 (x := Cert.KernelIdeal.main_arg7) (y := Cert.KernelIdeal.main_v80) rfl rfl (after_take_of_not_assigned Cert.KernelIdeal.Around.singleAssignAfter _ 62 (by decide)),
    eq_main_arg7__main_arg7 m m' c hag]
  try rfl

theorem eq_main_v141__main_v81 : rfin(Cert.ReferenceIdeal.main_v141) = kfin(Cert.KernelIdeal.main_v81) := by
  rw [final_unary Cert.ReferenceIdeal.Line.singleAssign (launchContents m' c) 184 (x := Cert.ReferenceIdeal.main_v140) (y := Cert.ReferenceIdeal.main_v141) rfl rfl (after_take_of_lt Cert.ReferenceIdeal.Line.singleAssign _ (i := 183) rfl (by decide)),
    final_unary Cert.KernelIdeal.Around.singleAssignAfter (Cert.KernelIdeal.Around.exitVal m c) 63 (x := Cert.KernelIdeal.main_v80) (y := Cert.KernelIdeal.main_v81) rfl rfl (after_take_of_lt Cert.KernelIdeal.Around.singleAssignAfter _ (i := 62) rfl (by decide)),
    eq_main_v140__main_v80 m m' c hag]
  try rfl

theorem eq_main_v142__main_v82 : rfin(Cert.ReferenceIdeal.main_v142) = kfin(Cert.KernelIdeal.main_v82) := by
  rw [final_binary Cert.ReferenceIdeal.Line.singleAssign (launchContents m' c) 185 (a := Cert.ReferenceIdeal.main_v139) (b := Cert.ReferenceIdeal.main_v141) (y := Cert.ReferenceIdeal.main_v142) rfl rfl (after_take_of_lt Cert.ReferenceIdeal.Line.singleAssign _ (i := 182) rfl (by decide)) (after_take_of_lt Cert.ReferenceIdeal.Line.singleAssign _ (i := 184) rfl (by decide)),
    final_binary Cert.KernelIdeal.Around.singleAssignAfter (Cert.KernelIdeal.Around.exitVal m c) 64 (a := Cert.KernelIdeal.main_v79) (b := Cert.KernelIdeal.main_v81) (y := Cert.KernelIdeal.main_v82) rfl rfl (after_take_of_lt Cert.KernelIdeal.Around.singleAssignAfter _ (i := 61) rfl (by decide)) (after_take_of_lt Cert.KernelIdeal.Around.singleAssignAfter _ (i := 63) rfl (by decide)),
    eq_main_v139__main_v79 m m' c hag,
    eq_main_v141__main_v81 m m' c hag]
  try rfl

theorem eq_main_cst_32__main_cst_16 : rfin(Cert.ReferenceIdeal.main_cst_32) = kfin(Cert.KernelIdeal.main_cst_16) := by
  rw [final_nullary Cert.ReferenceIdeal.Line.singleAssign (launchContents m' c) 188  (y := Cert.ReferenceIdeal.main_cst_32) rfl rfl ,
    final_nullary Cert.KernelIdeal.Around.singleAssignAfter (Cert.KernelIdeal.Around.exitVal m c) 67  (y := Cert.KernelIdeal.main_cst_16) rfl rfl ]
  try rfl

theorem eq_main_v144__main_v84 : rfin(Cert.ReferenceIdeal.main_v144) = kfin(Cert.KernelIdeal.main_v84) := by
  rw [final_unary Cert.ReferenceIdeal.Line.singleAssign (launchContents m' c) 189 (x := Cert.ReferenceIdeal.main_cst_32) (y := Cert.ReferenceIdeal.main_v144) rfl rfl (after_take_of_lt Cert.ReferenceIdeal.Line.singleAssign _ (i := 188) rfl (by decide)),
    final_unary Cert.KernelIdeal.Around.singleAssignAfter (Cert.KernelIdeal.Around.exitVal m c) 68 (x := Cert.KernelIdeal.main_cst_16) (y := Cert.KernelIdeal.main_v84) rfl rfl (after_take_of_lt Cert.KernelIdeal.Around.singleAssignAfter _ (i := 67) rfl (by decide)),
    eq_main_cst_32__main_cst_16 m m' c hag]
  try rfl

theorem eq_main_cst_31__main_cst_15 : rfin(Cert.ReferenceIdeal.main_cst_31) = kfin(Cert.KernelIdeal.main_cst_15) := by
  rw [final_nullary Cert.ReferenceIdeal.Line.singleAssign (launchContents m' c) 186  (y := Cert.ReferenceIdeal.main_cst_31) rfl rfl ,
    final_nullary Cert.KernelIdeal.Around.singleAssignAfter (Cert.KernelIdeal.Around.exitVal m c) 65  (y := Cert.KernelIdeal.main_cst_15) rfl rfl ]
  try rfl

theorem eq_main_v143__main_v83 : rfin(Cert.ReferenceIdeal.main_v143) = kfin(Cert.KernelIdeal.main_v83) := by
  rw [final_binary Cert.ReferenceIdeal.Line.singleAssign (launchContents m' c) 187 (a := Cert.ReferenceIdeal.main_v142) (b := Cert.ReferenceIdeal.main_cst_31) (y := Cert.ReferenceIdeal.main_v143) rfl rfl (after_take_of_lt Cert.ReferenceIdeal.Line.singleAssign _ (i := 185) rfl (by decide)) (after_take_of_lt Cert.ReferenceIdeal.Line.singleAssign _ (i := 186) rfl (by decide)),
    final_binary Cert.KernelIdeal.Around.singleAssignAfter (Cert.KernelIdeal.Around.exitVal m c) 66 (a := Cert.KernelIdeal.main_v82) (b := Cert.KernelIdeal.main_cst_15) (y := Cert.KernelIdeal.main_v83) rfl rfl (after_take_of_lt Cert.KernelIdeal.Around.singleAssignAfter _ (i := 64) rfl (by decide)) (after_take_of_lt Cert.KernelIdeal.Around.singleAssignAfter _ (i := 65) rfl (by decide)),
    eq_main_v142__main_v82 m m' c hag,
    eq_main_cst_31__main_cst_15 m m' c hag]
  try rfl

theorem eq_main_v145__main_v85 : rfin(Cert.ReferenceIdeal.main_v145) = kfin(Cert.KernelIdeal.main_v85) := by
  rw [final_binary Cert.ReferenceIdeal.Line.singleAssign (launchContents m' c) 190 (a := Cert.ReferenceIdeal.main_v144) (b := Cert.ReferenceIdeal.main_v143) (y := Cert.ReferenceIdeal.main_v145) rfl rfl (after_take_of_lt Cert.ReferenceIdeal.Line.singleAssign _ (i := 189) rfl (by decide)) (after_take_of_lt Cert.ReferenceIdeal.Line.singleAssign _ (i := 187) rfl (by decide)),
    final_binary Cert.KernelIdeal.Around.singleAssignAfter (Cert.KernelIdeal.Around.exitVal m c) 69 (a := Cert.KernelIdeal.main_v84) (b := Cert.KernelIdeal.main_v83) (y := Cert.KernelIdeal.main_v85) rfl rfl (after_take_of_lt Cert.KernelIdeal.Around.singleAssignAfter _ (i := 68) rfl (by decide)) (after_take_of_lt Cert.KernelIdeal.Around.singleAssignAfter _ (i := 66) rfl (by decide)),
    eq_main_v144__main_v84 m m' c hag,
    eq_main_v143__main_v83 m m' c hag]
  try rfl

theorem eq_main_v146__main_v86 : rfin(Cert.ReferenceIdeal.main_v146) = kfin(Cert.KernelIdeal.main_v86) := by
  rw [final_unary Cert.ReferenceIdeal.Line.singleAssign (launchContents m' c) 191 (x := Cert.ReferenceIdeal.main_v145) (y := Cert.ReferenceIdeal.main_v146) rfl rfl (after_take_of_lt Cert.ReferenceIdeal.Line.singleAssign _ (i := 190) rfl (by decide)),
    final_unary Cert.KernelIdeal.Around.singleAssignAfter (Cert.KernelIdeal.Around.exitVal m c) 70 (x := Cert.KernelIdeal.main_v85) (y := Cert.KernelIdeal.main_v86) rfl rfl (after_take_of_lt Cert.KernelIdeal.Around.singleAssignAfter _ (i := 69) rfl (by decide)),
    eq_main_v145__main_v85 m m' c hag]
  try rfl

theorem eq_main_v147__main_v87 : rfin(Cert.ReferenceIdeal.main_v147) = kfin(Cert.KernelIdeal.main_v87) := by
  rw [final_unary Cert.ReferenceIdeal.Line.singleAssign (launchContents m' c) 192 (x := Cert.ReferenceIdeal.main_v146) (y := Cert.ReferenceIdeal.main_v147) rfl rfl (after_take_of_lt Cert.ReferenceIdeal.Line.singleAssign _ (i := 191) rfl (by decide)),
    final_unary Cert.KernelIdeal.Around.singleAssignAfter (Cert.KernelIdeal.Around.exitVal m c) 71 (x := Cert.KernelIdeal.main_v86) (y := Cert.KernelIdeal.main_v87) rfl rfl (after_take_of_lt Cert.KernelIdeal.Around.singleAssignAfter _ (i := 70) rfl (by decide)),
    eq_main_v146__main_v86 m m' c hag]
  try rfl

theorem eq_main_v148__main_v88 : rfin(Cert.ReferenceIdeal.main_v148) = kfin(Cert.KernelIdeal.main_v88) := by
  rw [final_binary Cert.ReferenceIdeal.Line.singleAssign (launchContents m' c) 193 (a := Cert.ReferenceIdeal.main_v142) (b := Cert.ReferenceIdeal.main_v147) (y := Cert.ReferenceIdeal.main_v148) rfl rfl (after_take_of_lt Cert.ReferenceIdeal.Line.singleAssign _ (i := 185) rfl (by decide)) (after_take_of_lt Cert.ReferenceIdeal.Line.singleAssign _ (i := 192) rfl (by decide)),
    final_binary Cert.KernelIdeal.Around.singleAssignAfter (Cert.KernelIdeal.Around.exitVal m c) 72 (a := Cert.KernelIdeal.main_v82) (b := Cert.KernelIdeal.main_v87) (y := Cert.KernelIdeal.main_v88) rfl rfl (after_take_of_lt Cert.KernelIdeal.Around.singleAssignAfter _ (i := 64) rfl (by decide)) (after_take_of_lt Cert.KernelIdeal.Around.singleAssignAfter _ (i := 71) rfl (by decide)),
    eq_main_v142__main_v82 m m' c hag,
    eq_main_v147__main_v87 m m' c hag]
  try rfl

theorem eq_main_v149__main_v89 : rfin(Cert.ReferenceIdeal.main_v149) = kfin(Cert.KernelIdeal.main_v89) := by
  rw [final_unary Cert.ReferenceIdeal.Line.singleAssign (launchContents m' c) 194 (x := Cert.ReferenceIdeal.main_v148) (y := Cert.ReferenceIdeal.main_v149) rfl rfl (after_take_of_lt Cert.ReferenceIdeal.Line.singleAssign _ (i := 193) rfl (by decide)),
    final_unary Cert.KernelIdeal.Around.singleAssignAfter (Cert.KernelIdeal.Around.exitVal m c) 73 (x := Cert.KernelIdeal.main_v88) (y := Cert.KernelIdeal.main_v89) rfl rfl (after_take_of_lt Cert.KernelIdeal.Around.singleAssignAfter _ (i := 72) rfl (by decide)),
    eq_main_v148__main_v88 m m' c hag]
  try rfl

theorem eq_main_cst_33__main_cst_17 : rfin(Cert.ReferenceIdeal.main_cst_33) = kfin(Cert.KernelIdeal.main_cst_17) := by
  rw [final_nullary Cert.ReferenceIdeal.Line.singleAssign (launchContents m' c) 195  (y := Cert.ReferenceIdeal.main_cst_33) rfl rfl ,
    final_nullary Cert.KernelIdeal.Around.singleAssignAfter (Cert.KernelIdeal.Around.exitVal m c) 74  (y := Cert.KernelIdeal.main_cst_17) rfl rfl ]
  try rfl

theorem eq_main_v150__main_v90 : rfin(Cert.ReferenceIdeal.main_v150) = kfin(Cert.KernelIdeal.main_v90) := by
  rw [final_binary Cert.ReferenceIdeal.Line.singleAssign (launchContents m' c) 196 (a := Cert.ReferenceIdeal.main_v149) (b := Cert.ReferenceIdeal.main_cst_33) (y := Cert.ReferenceIdeal.main_v150) rfl rfl (after_take_of_lt Cert.ReferenceIdeal.Line.singleAssign _ (i := 194) rfl (by decide)) (after_take_of_lt Cert.ReferenceIdeal.Line.singleAssign _ (i := 195) rfl (by decide)),
    final_binary Cert.KernelIdeal.Around.singleAssignAfter (Cert.KernelIdeal.Around.exitVal m c) 75 (a := Cert.KernelIdeal.main_v89) (b := Cert.KernelIdeal.main_cst_17) (y := Cert.KernelIdeal.main_v90) rfl rfl (after_take_of_lt Cert.KernelIdeal.Around.singleAssignAfter _ (i := 73) rfl (by decide)) (after_take_of_lt Cert.KernelIdeal.Around.singleAssignAfter _ (i := 74) rfl (by decide)),
    eq_main_v149__main_v89 m m' c hag,
    eq_main_cst_33__main_cst_17 m m' c hag]
  try rfl

theorem eq_main_v151__main_v91 : rfin(Cert.ReferenceIdeal.main_v151) = kfin(Cert.KernelIdeal.main_v91) := by
  rw [final_unary Cert.ReferenceIdeal.Line.singleAssign (launchContents m' c) 197 (x := Cert.ReferenceIdeal.main_v150) (y := Cert.ReferenceIdeal.main_v151) rfl rfl (after_take_of_lt Cert.ReferenceIdeal.Line.singleAssign _ (i := 196) rfl (by decide)),
    final_unary Cert.KernelIdeal.Around.singleAssignAfter (Cert.KernelIdeal.Around.exitVal m c) 76 (x := Cert.KernelIdeal.main_v90) (y := Cert.KernelIdeal.main_v91) rfl rfl (after_take_of_lt Cert.KernelIdeal.Around.singleAssignAfter _ (i := 75) rfl (by decide)),
    eq_main_v150__main_v90 m m' c hag]
  try rfl

theorem eq_main_v152__main_v92 : rfin(Cert.ReferenceIdeal.main_v152) = kfin(Cert.KernelIdeal.main_v92) := by
  rw [final_unary Cert.ReferenceIdeal.Line.singleAssign (launchContents m' c) 198 (x := Cert.ReferenceIdeal.main_v151) (y := Cert.ReferenceIdeal.main_v152) rfl rfl (after_take_of_lt Cert.ReferenceIdeal.Line.singleAssign _ (i := 197) rfl (by decide)),
    final_unary Cert.KernelIdeal.Around.singleAssignAfter (Cert.KernelIdeal.Around.exitVal m c) 77 (x := Cert.KernelIdeal.main_v91) (y := Cert.KernelIdeal.main_v92) rfl rfl (after_take_of_lt Cert.KernelIdeal.Around.singleAssignAfter _ (i := 76) rfl (by decide)),
    eq_main_v151__main_v91 m m' c hag]
  try rfl

theorem eq_main_v153__main_v93 : rfin(Cert.ReferenceIdeal.main_v153) = kfin(Cert.KernelIdeal.main_v93) := by
  rw [final_binary Cert.ReferenceIdeal.Line.singleAssign (launchContents m' c) 199 (a := Cert.ReferenceIdeal.main_v149) (b := Cert.ReferenceIdeal.main_v152) (y := Cert.ReferenceIdeal.main_v153) rfl rfl (after_take_of_lt Cert.ReferenceIdeal.Line.singleAssign _ (i := 194) rfl (by decide)) (after_take_of_lt Cert.ReferenceIdeal.Line.singleAssign _ (i := 198) rfl (by decide)),
    final_binary Cert.KernelIdeal.Around.singleAssignAfter (Cert.KernelIdeal.Around.exitVal m c) 78 (a := Cert.KernelIdeal.main_v89) (b := Cert.KernelIdeal.main_v92) (y := Cert.KernelIdeal.main_v93) rfl rfl (after_take_of_lt Cert.KernelIdeal.Around.singleAssignAfter _ (i := 73) rfl (by decide)) (after_take_of_lt Cert.KernelIdeal.Around.singleAssignAfter _ (i := 77) rfl (by decide)),
    eq_main_v149__main_v89 m m' c hag,
    eq_main_v152__main_v92 m m' c hag]
  try rfl

/-- The two programs' results agree. -/
theorem result_eq : rfin(Cert.ReferenceIdeal.main_v153) = kfin(Cert.KernelIdeal.main_v93) := eq_main_v153__main_v93 m m' c hag

end Cert.Proof.Compare

end
-- ==== Proof.lean ====
/-
  The certificate of a three-layer graph convolution against its plain reference. The kernel program computes the first
  dense product x·W₁ in a kernel region tiled over 50 blocks of 200 rows (the operands cast to a narrower float format
  before the product, which on the extended reals is the identity), and everything else — the edge lists with self-loops,
  the degrees, the symmetric normalization, three rounds of gather / scale / scatter-add / bias with a relu after the first
  two and a dense product before the last two, a row softmax — in host operations; the reference computes the same in
  host operations only, recomputing the edge lists and the normalization in every round.
  The frames of the two kernel programs come from the run of the lines around the region (Proof/KernelRun.lean,
  Proof/KernelIdealRun.lean), the reference's from its straight-line run (Proof/ReferenceLine.lean); the idealization
  rewrote nothing, so `preserves` is trivial; the results agree because the region leaves the whole product in its result
  array (Proof/KernelIdealProduct.lean), which is what the reference's first operation computes, and from there on the two
  programs are the same functions of the same operands, variable by variable (Proof/Compare.lean). No law of the extended
  reals beyond the reading of both products as the same sum is used, so the precondition is never opened.
-/
import proofs.«144734_j48318382080226_1_alg».proof.Defs
import proofs.«144734_j48318382080226_1_alg».proof.Proof.Gen.Kernel
import proofs.«144734_j48318382080226_1_alg».proof.Proof.Gen.KernelIdeal
import proofs.«144734_j48318382080226_1_alg».proof.Proof.Gen.ReferenceIdeal
import proofs.«144734_j48318382080226_1_alg».proof.Proof.Gen.Pre_finite_inputs
import proofs.«144734_j48318382080226_1_alg».proof.Proof.KernelRun
import proofs.«144734_j48318382080226_1_alg».proof.Proof.KernelIdealRun
import proofs.«144734_j48318382080226_1_alg».proof.Proof.ReferenceLine
import proofs.«144734_j48318382080226_1_alg».proof.Proof.Compare
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Around.frame (F := Bits) m ρ

/-- So does its idealization. -/
theorem frame_kernelIdeal : Cert.frame_KernelIdeal := fun m ρ _ => Cert.KernelIdeal.Around.frame (F := Ideal) m ρ

/-- So does the reference: its straight-line run with the result dropped. -/
theorem frame_referenceIdeal : Cert.frame_ReferenceIdeal := fun m ρ _ =>
  (θ_run Cert.ReferenceIdeal.defs _ _).mono (fun _ h c => (h c).2) (Cert.ReferenceIdeal.Line.run_result (F := Ideal) m ρ)

/-- The idealization rewrote no operation. -/
theorem preserves : Cert.preserves_Kernel_KernelIdeal := trivial

/-- From memories agreeing on the arguments the two idealized programs end with the same result: the kernel program at what
    its later lines compute from the region's product, the reference at its line's value, and these agree variable by
    variable. -/
theorem algebraic : Cert.algebraic_KernelIdeal_ReferenceIdeal := by
  intro m ρ m' ρ' _ hagree
  refine ⟨fun c => Cert.KernelIdeal.Around.endAt m c Cert.KernelIdeal.main_v93, Cert.KernelIdeal.Around.run_result (F := Ideal) m ρ, ?_⟩
  refine (θ_run Cert.ReferenceIdeal.defs _ _).mono (fun _ h c => ⟨(h c).1.trans ?_, (h c).2⟩)
    (Cert.ReferenceIdeal.Line.run_result (F := Ideal) m' ρ')
  exact Cert.Proof.Compare.result_eq m m' c (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
